-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1500000x100 : S_.BroadcastsInDim S1500000x100 (![] : Fin 0 → Fin S1500000x100.rank)
  reducesTo_S1500000x100_S_d0_1 : S1500000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S1500000x100 .f32) (main_arg1 : IVec S2000000 32) (main_arg2 : IVec S2000000 32) (main_arg3 : IVec S200000 32) (main_arg4 : IVec S200000 32) (main_arg5 : IVec S20480 32) (main_arg6 : IVec S20480 32) (main_arg7 : FVec F S100x256 .f32) (main_arg8 : FVec F S100x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S1500000x100 .f32 := Host.absf main_arg0
  let main_cst : FVec F S_ .f32 := constant S_ .f32 0x7F800000#32
  let main_v1 : FVec F S1500000x100 .f32 := broadcastInDim S1500000x100 ![] bcast_S_S1500000x100 main_cst
  let main_v2 : IVec S1500000x100 1 := cmpf .olt main_v0 main_v1
  let main_c : IVec S_ 1 := constantI S_ 1 1#1
  let main_v3 : IVec S_ 1 := (fun x v => Host.reduce IntOp.andi x v reducesTo_S1500000x100_S_d0_1 h_S_) main_v2 main_c
  let main_v4 : FVec F S100x256 .f32 := Host.absf main_arg7
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg8
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S2000000x1 : Shape := ⟨2, ![2000000, 1]⟩
abbrev S2000000x100 : Shape := ⟨2, ![2000000, 100]⟩
abbrev S200000x100 : Shape := ⟨2, ![200000, 100]⟩
abbrev S200000x1 : Shape := ⟨2, ![200000, 1]⟩
abbrev S1x256 : Shape := ⟨2, ![1, 256]⟩
abbrev S200000x256 : Shape := ⟨2, ![200000, 256]⟩
abbrev S4000x100 : Shape := ⟨2, ![4000, 100]⟩
abbrev S4000x1 : Shape := ⟨2, ![4000, 1]⟩
abbrev S4000x256 : Shape := ⟨2, ![4000, 256]⟩
abbrev S20000x256 : Shape := ⟨2, ![20000, 256]⟩
abbrev S20000 : Shape := ⟨1, ![20000]⟩
abbrev S20000x1 : Shape := ⟨2, ![20000, 1]⟩
abbrev S2000x256 : Shape := ⟨2, ![2000, 256]⟩
abbrev S2000x1 : Shape := ⟨2, ![2000, 1]⟩
abbrev S20480x1 : Shape := ⟨2, ![20480, 1]⟩
abbrev S20480x256 : Shape := ⟨2, ![20480, 256]⟩
abbrev S4096x256 : Shape := ⟨2, ![4096, 256]⟩
abbrev S4096 : Shape := ⟨1, ![4096]⟩
abbrev S4096x1 : Shape := ⟨2, ![4096, 1]⟩
abbrev S1x47 : Shape := ⟨2, ![1, 47]⟩
abbrev S4096x47 : Shape := ⟨2, ![4096, 47]⟩
abbrev S2048x256 : Shape := ⟨2, ![2048, 256]⟩
abbrev S2048x1 : Shape := ⟨2, ![2048, 1]⟩
abbrev S2048x47 : Shape := ⟨2, ![2048, 47]⟩
abbrev S2048 : Shape := ⟨1, ![2048]⟩

abbrev nBuf : Space → Nat
  | .hbm => 102
  | .vmem => 33
  | .smem => 0
  | _ => 0

abbrev bufTy : (tb : Table) → Fin (tcTables nBuf tb) → BufTy
  | .hbm, ⟨0, _⟩ => ⟨S1500000x100, .f32⟩
  | .hbm, ⟨1, _⟩ => ⟨S2000000, .i32⟩
  | .hbm, ⟨2, _⟩ => ⟨S2000000, .i32⟩
  | .hbm, ⟨3, _⟩ => ⟨S200000, .i32⟩
  | .hbm, ⟨4, _⟩ => ⟨S200000, .i32⟩
  | .hbm, ⟨5, _⟩ => ⟨S20480, .i32⟩
  | .hbm, ⟨6, _⟩ => ⟨S20480, .i32⟩
  | .hbm, ⟨7, _⟩ => ⟨S100x256, .f32⟩
  | .hbm, ⟨8, _⟩ => ⟨S100x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x100, .f32⟩
  | .hbm, ⟨25, _⟩ => ⟨S_, .f32⟩
  | .hbm, ⟨26, _⟩ => ⟨S200000x100, .f32⟩
  | .hbm, ⟨27, _⟩ => ⟨S2000000x1, .i32⟩
  | .hbm, ⟨28, _⟩ => ⟨S200000x100, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S200000, .f32⟩
  | .hbm, ⟨33, _⟩ => ⟨S2000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S_, .f32⟩
  | .hbm, ⟨39, _⟩ => ⟨S200000, .f32⟩
  | .hbm, ⟨40, _⟩ => ⟨S200000, .f32⟩
  | .hbm, ⟨41, _⟩ => ⟨S200000x1, .f32⟩
  | .hbm, ⟨42, _⟩ => ⟨S1x256, .f32⟩
  | .hbm, ⟨43, _⟩ => ⟨S200000x256, .bf16⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x256, .bf16⟩
  | .hbm, ⟨53, _⟩ => ⟨S200000x256, .f32⟩
  | .hbm, ⟨54, _⟩ => ⟨S_, .f32⟩
  | .hbm, ⟨55, _⟩ => ⟨S20000x256, .f32⟩
  | .hbm, ⟨56, _⟩ => ⟨S200000x1, .i32⟩
  | .hbm, ⟨57, _⟩ => ⟨S20000x256, .f32⟩
  | .hbm, ⟨58, _⟩ => ⟨S_, .f32⟩
  | .hbm, ⟨59, _⟩ => ⟨S200000, .f32⟩
  | .hbm, ⟨60, _⟩ => ⟨S_, .f32⟩
  | .hbm, ⟨61, _⟩ => ⟨S20000, .f32⟩
  | .hbm, ⟨62, _⟩ => ⟨S200000x1, .i32⟩
  | .hbm, ⟨63, _⟩ => ⟨S20000, .f32⟩
  | .hbm, ⟨64, _⟩ => ⟨S_, .f32⟩
  | .hbm, ⟨65, _⟩ => ⟨S20000, .f32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S20000x1, .f32⟩
  | .hbm, ⟨71, _⟩ => ⟨S1x256, .f32⟩
  | .hbm, ⟨72, _⟩ => ⟨S20000x256, .bf16⟩
  | .hbm, ⟨73, _⟩ => ⟨S_, .i32⟩
  | .hbm, ⟨74, _⟩ => ⟨S20480, .i32⟩
  | .hbm, ⟨75, _⟩ => ⟨S20480, .i1⟩
  | .hbm, ⟨76, _⟩ => ⟨S_, .i32⟩
  | .hbm, ⟨77, _⟩ => ⟨S20480, .i32⟩
  | .hbm, ⟨78, _⟩ => ⟨S20480, .i32⟩
  | .hbm, ⟨79, _⟩ => ⟨S20480, .i32⟩
  | .hbm, ⟨80, _⟩ => ⟨S20480x1, .i32⟩
  | .hbm, ⟨81, _⟩ => ⟨S20480x256, .bf16⟩
  | .hbm, ⟨82, _⟩ => ⟨S20480x256, .f32⟩
  | .hbm, ⟨83, _⟩ => ⟨S_, .f32⟩
  | .hbm, ⟨84, _⟩ => ⟨S4096x256, .f32⟩
  | .hbm, ⟨85, _⟩ => ⟨S20480x1, .i32⟩
  | .hbm, ⟨86, _⟩ => ⟨S4096x256, .f32⟩
  | .hbm, ⟨87, _⟩ => ⟨S_, .f32⟩
  | .hbm, ⟨88, _⟩ => ⟨S20480, .f32⟩
  | .hbm, ⟨89, _⟩ => ⟨S_, .f32⟩
  | .hbm, ⟨90, _⟩ => ⟨S4096, .f32⟩
  | .hbm, ⟨91, _⟩ => ⟨S20480x1, .i32⟩
  | .hbm, ⟨92, _⟩ => ⟨S4096, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S4096x1, .f32⟩
  | .hbm, ⟨100, _⟩ => ⟨S1x47, .f32⟩
  | .hbm, ⟨101, _⟩ => ⟨S4096x47, .f32⟩
  | .local _ .vmem, ⟨0, _⟩ => ⟨S4000x100, .f32⟩
  | .local _ .vmem, ⟨1, _⟩ => ⟨S4000x100, .f32⟩
  | .local _ .vmem, ⟨2, _⟩ => ⟨S4000x1, .f32⟩
  | .local _ .vmem, ⟨3, _⟩ => ⟨S4000x1, .f32⟩
  | .local _ .vmem, ⟨4, _⟩ => ⟨S4000x100, .f32⟩
  | .local _ .vmem, ⟨5, _⟩ => ⟨S4000x100, .f32⟩
  | .local _ .vmem, ⟨6, _⟩ => ⟨S100x256, .f32⟩
  | .local _ .vmem, ⟨7, _⟩ => ⟨S100x256, .f32⟩
  | .local _ .vmem, ⟨8, _⟩ => ⟨S1x256, .f32⟩
  | .local _ .vmem, ⟨9, _⟩ => ⟨S4000x256, .bf16⟩
  | .local _ .vmem, ⟨10, _⟩ => ⟨S4000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S2000x256, .bf16⟩
  | .local _ .vmem, ⟨21, _⟩ => ⟨S2000x256, .bf16⟩
  | .local _ .vmem, ⟨22, _⟩ => ⟨S2048x256, .f32⟩
  | .local _ .vmem, ⟨23, _⟩ => ⟨S2048x256, .f32⟩
  | .local _ .vmem, ⟨24, _⟩ => ⟨S2048x1, .f32⟩
  | .local _ .vmem, ⟨25, _⟩ => ⟨S2048x1, .f32⟩
  | .local _ .vmem, ⟨26, _⟩ => ⟨S2048x256, .bf16⟩
  | .local _ .vmem, ⟨27, _⟩ => ⟨S2048x256, .bf16⟩
  | .local _ .vmem, ⟨28, _⟩ => ⟨S256x47, .f32⟩
  | .local _ .vmem, ⟨29, _⟩ => ⟨S256x47, .f32⟩
  | .local _ .vmem, ⟨30, _⟩ => ⟨S1x47, .f32⟩
  | .local _ .vmem, ⟨31, _⟩ => ⟨S2048x47, .f32⟩
  | .local _ .vmem, ⟨32, _⟩ => ⟨S2048x47, .f32⟩
  | _, _ => ⟨S1500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_12 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_cst_16 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_17 : Ref sig .tc := ⟨.hbm, 93, rfl⟩
abbrev main_v58 : Ref sig .tc := ⟨.hbm, 94, rfl⟩
abbrev main_v59 : Ref sig .tc := ⟨.hbm, 95, rfl⟩
abbrev main_cst_18 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x100 : S_.BroadcastsInDim S200000x100 (![] : Fin 0 → Fin S200000x100.rank)
  bcast_S_S200000 : S_.BroadcastsInDim S200000 (![] : Fin 0 → Fin S200000.rank)
  shapeCasts_S200000_S200000x1 : S200000.ShapeCasts S200000x1
  shapeCasts_S256_S1x256 : S256.ShapeCasts S1x256
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x100 : S4000x1.Broadcasts S4000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  bcast_S_S20480 : S_.BroadcastsInDim S20480 (![] : Fin 0 → Fin S20480.rank)
  bcast_S20480_S20480x1_0 : S20480.BroadcastsInDim S20480x1 (![0] : Fin 1 → Fin S20480x1.rank)
  bcast_S_S4096x256 : S_.BroadcastsInDim S4096x256 (![] : Fin 0 → Fin S4096x256.rank)
  bcast_S_S4096 : S_.BroadcastsInDim S4096 (![] : Fin 0 → Fin S4096.rank)
  shapeCasts_S4096_S4096x1 : S4096.ShapeCasts S4096x1
  shapeCasts_S47_S1x47 : S47.ShapeCasts S1x47
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2048x47 : S1x47.Broadcasts S2048x47
  reduces_S2048x47_S2048 : S2048x47.Reduces [1] S2048
  shapeCasts_S2048_S2048x1 : S2048.ShapeCasts S2048x1
  broadcasts_S2048x1_S2048x47 : S2048x1.Broadcasts S2048x47
  inb_S2048x47_S2048x47_0_0 : ∀ a, (![0, 0] : Fin 2 → Nat) a + S2048x47.size a ≤ S2048x47.size a
  h_S2048x47 : 0 < S2048x47.numel
  gather_S1500000x100_S2000000x1_S2000000x100_1_0_n_n_0_1_1100_wf : GatherDims.WF S1500000x100 S2000000x1 S2000000x100 [1] [0] [] [0] [] 1 ![1, 100]
  scatter_S200000x100_S2000000x1_S2000000x100_1_0_0_1_wf : ScatterDims.WF S200000x100 S2000000x1 S2000000x100 [1] [0] [0] 1
  scatter_S200000_S2000000x1_S2000000_n_0_0_1_wf : ScatterDims.WF S200000 S2000000x1 S2000000 [] [0] [0] 1
  dot_S4000x100_S100x256_S4000x256_1_0_0_1_n_n_wf : DotDims.WF S4000x100 S100x256 S4000x256 [1] [0] [0] [1] [] []
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S2000x256_S256x256_S2000x256_1_0_0_1_n_n_wf : DotDims.WF S2000x256 S256x256 S2000x256 [1] [0] [0] [1] [] []
  gather_S20000x256_S20480x1_S20480x256_1_0_n_n_0_1_1256_wf : GatherDims.WF S20000x256 S20480x1 S20480x256 [1] [0] [] [0] [] 1 ![1, 256]
  scatter_S4096x256_S20480x1_S20480x256_1_0_0_1_wf : ScatterDims.WF S4096x256 S20480x1 S20480x256 [1] [0] [0] 1
  scatter_S4096_S20480x1_S20480_n_0_0_1_wf : ScatterDims.WF S4096 S20480x1 S20480 [] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S200000x100.size a
  hwx0_0 : ∀ i : grid0.Coords, EltTy.bits .f32 = 32 ∨ (Rect.block (s := S200000x100) S4000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x100.size a ≤ S1500000x100.size a
  hwx0_2 : ∀ i : grid0.Coords, EltTy.bits .f32 = 32 ∨ (Rect.block (s := S1500000x100) S4000x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x256.size a ≤ S100x256.size a
  hwx0_4 : ∀ i : grid0.Coords, EltTy.bits .f32 = 32 ∨ (Rect.block (s := S100x256) S100x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S200000x256.size a
  hwx0_6 : ∀ i : grid0.Coords, EltTy.bits .bf16 = 32 ∨ (Rect.block (s := S200000x256) S4000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S200000x256.size a
  hwx1_2 : ∀ i : grid1.Coords, EltTy.bits .bf16 = 32 ∨ (Rect.block (s := S200000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .bf16 = 32 ∨ (Rect.block (s := S20000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S4096x256.size a
  hwx2_0 : ∀ i : grid2.Coords, EltTy.bits .f32 = 32 ∨ (Rect.block (s := S4096x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S4096x1.size a
  hwx2_1 : ∀ i : grid2.Coords, EltTy.bits .f32 = 32 ∨ (Rect.block (s := S4096x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2048x256.size a < S20000x256.size a
  hwx2_2 : ∀ i : grid2.Coords, EltTy.bits .bf16 = 32 ∨ (Rect.unit (s := S20000x256) (fun a => cc2_transform_2 i a * S2048x256.size a) (fun a => (Pipeline.Clip.of (cc2_transform_2 i a) (S2048x256.size a) (S20000x256.size a)).extent (S2048x256.size a)) fun a => Pipeline.Clip.inb (Pipeline.Clip.ok_of (hstart2_2 i a))).WholeWords (EltTy.packing .bf16)
  hwxs2_2 : ∀ i : grid2.Coords, EltTy.bits .bf16 = 32 ∨ (Rect.unit (s := S2048x256) (fun _ => 0) (fun a => (Pipeline.Clip.of (cc2_transform_2 i a) (S2048x256.size a) (S20000x256.size a)).extent (S2048x256.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .f32 = 32 ∨ (Rect.block (s := S256x47) S256x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x47.size a ≤ S1x47.size a
  hwx2_5 : ∀ i : grid2.Coords, EltTy.bits .f32 = 32 ∨ (Rect.block (s := S1x47) S1x47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x47.size a ≤ S4096x47.size a
  hwx2_6 : ∀ i : grid2.Coords, EltTy.bits .f32 = 32 ∨ (Rect.block (s := S4096x47) S2048x47.size (cc2_transform_6 i) (hinb2_6 i)).WholeWords (EltTy.packing .f32)

variable [Facts₀]

def gather_S1500000x100_S2000000x1_S2000000x100_1_0_n_n_0_1_1100 : GatherDims S1500000x100 S2000000x1 S2000000x100 where
  offsetDims := [1]
  collapsedSliceDims := [0]
  operandBatchingDims := []
  startIndicesBatchingDims := []
  startIndexMap := [0]
  indexVectorDim := 1
  sliceSizes := ![1, 100]
  wf := gather_S1500000x100_S2000000x1_S2000000x100_1_0_n_n_0_1_1100_wf
def scatter_S200000x100_S2000000x1_S2000000x100_1_0_0_1 : ScatterDims S200000x100 S2000000x1 S2000000x100 where
  updateWindowDims := [1]
  insertedWindowDims := [0]
  scatterDimsToOperandDims := [0]
  indexVectorDim := 1
  wf := scatter_S200000x100_S2000000x1_S2000000x100_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S4000x100_S100x256_S4000x256_1_0_0_1_n_n : DotDims S4000x100 S100x256 S4000x256 where
  lhsContracting := [1]
  rhsContracting := [0]
  lhsNonContracting := [0]
  rhsNonContracting := [1]
  lhsBatch := []
  rhsBatch := []
  wf := dot_S4000x100_S100x256_S4000x256_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v9) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S100x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpecClip (Memref.whole main_v42) S2048x256.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_arg13) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S2048x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S200000x100 : Shape := ⟨2, ![200000, 100]⟩
abbrev S_ : Shape := ⟨0, ![]⟩
abbrev S2000000x1 : Shape := ⟨2, ![2000000, 1]⟩
abbrev S2000000x100 : Shape := ⟨2, ![2000000, 100]⟩
abbrev S200000x1 : Shape := ⟨2, ![200000, 1]⟩
abbrev S200000x256 : Shape := ⟨2, ![200000, 256]⟩
abbrev S1x256 : Shape := ⟨2, ![1, 256]⟩
abbrev S20000x256 : Shape := ⟨2, ![20000, 256]⟩
abbrev S20000 : Shape := ⟨1, ![20000]⟩
abbrev S20000x1 : Shape := ⟨2, ![20000, 1]⟩
abbrev S4096x256 : Shape := ⟨2, ![4096, 256]⟩
abbrev S20480x1 : Shape := ⟨2, ![20480, 1]⟩
abbrev S20480x256 : Shape := ⟨2, ![20480, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 133
  | .vmem => 0
  | .smem => 0
  | _ => 0

abbrev hbmTy0_0 (i : Nat) : BufTy := match i % 128 with
  | 0 => ⟨S1500000x100, .f32⟩
  | 1 => ⟨S2000000, .i32⟩
  | 2 => ⟨S2000000, .i32⟩
  | 3 => ⟨S200000, .i32⟩
  | 4 => ⟨S200000, .i32⟩
  | 5 => ⟨S20480, .i32⟩
  | 6 => ⟨S20480, .i32⟩
  | 7 => ⟨S100x256, .f32⟩
  | 8 => ⟨S100x256, .f32⟩
  | 9 => ⟨S256, .f32⟩
  | 10 => ⟨S256x256, .f32⟩
  | 11 => ⟨S256x256, .f32⟩
  | 12 => ⟨S256, .f32⟩
  | 13 => ⟨S256x47, .f32⟩
  | 14 => ⟨S256x47, .f32⟩
  | 15 => ⟨S47, .f32⟩
  | 16 => ⟨S200000x100, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x100, .f32⟩
  | 26 => ⟨S_, .f32⟩
  | 27 => ⟨S200000x100, .f32⟩
  | 28 => ⟨S2000000x1, .i32⟩
  | 29 => ⟨S200000x100, .f32⟩
  | 30 => ⟨S_, .f32⟩
  | 31 => ⟨S2000000, .f32⟩
  | 32 => ⟨S_, .f32⟩
  | 33 => ⟨S200000, .f32⟩
  | 34 => ⟨S2000000x1, .i32⟩
  | 35 => ⟨S200000, .f32⟩
  | 36 => ⟨S_, .f32⟩
  | 37 => ⟨S200000, .f32⟩
  | 38 => ⟨S200000, .f32⟩
  | 39 => ⟨S200000x1, .f32⟩
  | 40 => ⟨S200000x100, .f32⟩
  | 41 => ⟨S200000x100, .f32⟩
  | 42 => ⟨S200000x256, .f32⟩
  | 43 => ⟨S200000x256, .f32⟩
  | 44 => ⟨S200000x256, .f32⟩
  | 45 => ⟨S1x256, .f32⟩
  | 46 => ⟨S200000x256, .f32⟩
  | 47 => ⟨S200000x256, .f32⟩
  | 48 => ⟨S_, .f32⟩
  | 49 => ⟨S200000x256, .f32⟩
  | 50 => ⟨S200000x256, .f32⟩
  | 51 => ⟨S20000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x256, .f32⟩
  | 61 => ⟨S_, .f32⟩
  | 62 => ⟨S20000x256, .f32⟩
  | 63 => ⟨S200000x1, .i32⟩
  | 64 => ⟨S20000x256, .f32⟩
  | 65 => ⟨S_, .f32⟩
  | 66 => ⟨S200000, .f32⟩
  | 67 => ⟨S_, .f32⟩
  | 68 => ⟨S20000, .f32⟩
  | 69 => ⟨S200000x1, .i32⟩
  | 70 => ⟨S20000, .f32⟩
  | 71 => ⟨S_, .f32⟩
  | 72 => ⟨S20000, .f32⟩
  | 73 => ⟨S20000, .f32⟩
  | 74 => ⟨S20000x1, .f32⟩
  | 75 => ⟨S20000x256, .f32⟩
  | 76 => ⟨S20000x256, .f32⟩
  | 77 => ⟨S20000x256, .f32⟩
  | 78 => ⟨S20000x256, .f32⟩
  | 79 => ⟨S20000x256, .f32⟩
  | 80 => ⟨S1x256, .f32⟩
  | 81 => ⟨S20000x256, .f32⟩
  | 82 => ⟨S20000x256, .f32⟩
  | 83 => ⟨S_, .f32⟩
  | 84 => ⟨S20000x256, .f32⟩
  | 85 => ⟨S20000x256, .f32⟩
  | 86 => ⟨S4096x256, .f32⟩
  | 87 => ⟨S_, .i32⟩
  | 88 => ⟨S20480, .i32⟩
  | 89 => ⟨S20480, .i1⟩
  | 90 => ⟨S_, .i32⟩
  | 91 => ⟨S20480, .i32⟩
  | 92 => ⟨S20480, .i32⟩
  | 93 => ⟨S20480, .i32⟩
  | 94 => ⟨S20480x1, .i32⟩
  | 95 => ⟨S20480x256, .f32⟩
  | 96 => ⟨S_, .f32⟩
  | 97 => ⟨S4096x256, .f32⟩
  | 98 => ⟨S20480x1, .i32⟩
  | 99 => ⟨S4096x256, .f32⟩
  | 100 => ⟨S_, .f32⟩
  | 101 => ⟨S20480, .f32⟩
  | 102 => ⟨S_, .f32⟩
  | 103 => ⟨S4096, .f32⟩
  | 104 => ⟨S20480x1, .i32⟩
  | 105 => ⟨S4096, .f32⟩
  | 106 => ⟨S_, .f32⟩
  | 107 => ⟨S4096, .f32⟩
  | 108 => ⟨S4096, .f32⟩
  | 109 => ⟨S4096x1, .f32⟩
  | 110 => ⟨S4096x256, .f32⟩
  | 111 => ⟨S4096x256, .f32⟩
  | 112 => ⟨S4096x47, .f32⟩
  | 113 => ⟨S4096x47, .f32⟩
  | 114 => ⟨S4096x47, .f32⟩
  | 115 => ⟨S1x47, .f32⟩
  | 116 => ⟨S4096x47, .f32⟩
  | 117 => ⟨S4096x47, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x47, .f32⟩
  | 125 => ⟨S4096x47, .f32⟩
  | 126 => ⟨S4096x47, .f32⟩
  | 127 => ⟨S_, .f32⟩
  | _ => ⟨S1500000x100, .f32⟩

abbrev hbmTy0_1 (i : Nat) : BufTy := match i % 128 with
  | 0 => ⟨S4096, .f32⟩
  | 1 => ⟨S4096x1, .f32⟩
  | 2 => ⟨S4096x1, .f32⟩
  | 3 => ⟨S4096x47, .f32⟩
  | 4 => ⟨S4096x47, .f32⟩
  | _ => ⟨S1500000x100, .f32⟩

abbrev hbmTy (i : Nat) : BufTy := match i / 128 with
  | 0 => hbmTy0_0 i
  | 1 => hbmTy0_1 i
  | _ => ⟨S1500000x100, .f32⟩

abbrev bufTy : (tb : Table) → Fin (tcTables nBuf tb) → BufTy
  | .hbm, ⟨i, _⟩ => hbmTy i
  | _, _ => ⟨S1500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S1500000x100_S200000x100_0_0 : S1500000x100.Slices ![0, 0] S200000x100
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x100 : S_.BroadcastsInDim S200000x100 (![] : Fin 0 → Fin S200000x100.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x100_0_1 : S200000x1.BroadcastsInDim S200000x100 (![0, 1] : Fin 2 → Fin S200000x100.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  slices_S200000x256_S20000x256_0_0 : S200000x256.Slices ![0, 0] S20000x256
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S20000x256_S4096x256_0_0 : S20000x256.Slices ![0, 0] S4096x256
  bcast_S_S20480 : S_.BroadcastsInDim S20480 (![] : Fin 0 → Fin S20480.rank)
  bcast_S20480_S20480x1_0 : S20480.BroadcastsInDim S20480x1 (![0] : Fin 1 → Fin S20480x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S4096x1_S4096x47_0_1 : S4096x1.BroadcastsInDim S4096x47 (![0, 1] : Fin 2 → Fin S4096x47.rank)
  gather_S1500000x100_S2000000x1_S2000000x100_1_0_n_n_0_1_1100_wf : GatherDims.WF S1500000x100 S2000000x1 S2000000x100 [1] [0] [] [0] [] 1 ![1, 100]
  scatter_S200000x100_S2000000x1_S2000000x100_1_0_0_1_wf : ScatterDims.WF S200000x100 S2000000x1 S2000000x100 [1] [0] [0] 1
  scatter_S200000_S2000000x1_S2000000_n_0_0_1_wf : ScatterDims.WF S200000 S2000000x1 S2000000 [] [0] [0] 1
  dot_S200000x100_S100x256_S200000x256_1_0_0_1_n_n_wf : DotDims.WF S200000x100 S100x256 S200000x256 [1] [0] [0] [1] [] []
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S20000x256_S20480x1_S20480x256_1_0_n_n_0_1_1256_wf : GatherDims.WF S20000x256 S20480x1 S20480x256 [1] [0] [] [0] [] 1 ![1, 256]
  scatter_S4096x256_S20480x1_S20480x256_1_0_0_1_wf : ScatterDims.WF S4096x256 S20480x1 S20480x256 [1] [0] [0] 1
  scatter_S4096_S20480x1_S20480_n_0_0_1_wf : ScatterDims.WF S4096 S20480x1 S20480 [] [0] [0] 1
  dot_S4096x256_S256x47_S4096x47_1_0_0_1_n_n_wf : DotDims.WF S4096x256 S256x47 S4096x47 [1] [0] [0] [1] [] []

variable [Facts₀]

def gather_S1500000x100_S2000000x1_S2000000x100_1_0_n_n_0_1_1100 : GatherDims S1500000x100 S2000000x1 S2000000x100 where
  offsetDims := [1]
  collapsedSliceDims := [0]
  operandBatchingDims := []
  startIndicesBatchingDims := []
  startIndexMap := [0]
  indexVectorDim := 1
  sliceSizes := ![1, 100]
  wf := gather_S1500000x100_S2000000x1_S2000000x100_1_0_n_n_0_1_1100_wf
def scatter_S200000x100_S2000000x1_S2000000x100_1_0_0_1 : ScatterDims S200000x100 S2000000x1 S2000000x100 where
  updateWindowDims := [1]
  insertedWindowDims := [0]
  scatterDimsToOperandDims := [0]
  indexVectorDim := 1
  wf := scatter_S200000x100_S2000000x1_S2000000x100_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x100_S100x256_S200000x256_1_0_0_1_n_n : DotDims S200000x100 S100x256 S200000x256 where
  lhsContracting := [1]
  rhsContracting := [0]
  lhsNonContracting := [0]
  rhsNonContracting := [1]
  lhsBatch := []
  rhsBatch := []
  wf := dot_S200000x100_S100x256_S200000x256_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.KFrameStage0.lean ====
/-
  First dense stage (grid of 50 row blocks of 4000 rows): the frame half of its launch, at a parameter `V` — the
  TensorCore's buffer contents when the launch is entered. Each of the six input windows is found holding its block of the
  array `V` gives it, at every grid point, whether or not the point fetched it; the body, run on whole staging buffers,
  leaves the inputs as found and the output buffer at the one whole-block store's value: the block-level function
  `rowblock0` of the six input blocks (scaled aggregate times the left weights, plus the target rows times the right
  weights, plus the bias row, clamped at zero). From these the launch's proof data and its body obligation.
-/
import proofs.«137751_j8186207666616_2_alg».proof.Proof.Gen.Kernel.Launch
import proofs.«137751_j8186207666616_2_alg».proof.Proof.Gen.Kernel.Skeleton
import proofs.«137751_j8186207666616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off the array the launch finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched point
    has the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer rectangles -/

abbrev ra0 : Rect S4000x100 := Rect.unit (s := S4000x100) ![0, 0] S4000x100.size inb_S4000x100_S4000x100_0_0
abbrev rc0 : Rect S4000x1 := Rect.unit (s := S4000x1) ![0, 0] S4000x1.size inb_S4000x1_S4000x1_0_0
abbrev rw0 : Rect S100x256 := Rect.unit (s := S100x256) ![0, 0] S100x256.size inb_S100x256_S100x256_0_0
abbrev rb0 : Rect S1x256 := Rect.unit (s := S1x256) ![0, 0] S1x256.size inb_S1x256_S1x256_0_0
abbrev ro0 : Rect S4000x256 := Rect.unit (s := S4000x256) ![0, 0] S4000x256.size inb_S4000x256_S4000x256_0_0

/-- The output buffer after the body: its one whole-block store, of the body's arithmetic on the six loaded blocks. -/
def rowblock0 (x0 : Vec F S4000x100 .f32) (x1 : Vec F S4000x1 .f32) (x2 : Vec F S4000x100 .f32) (x3 : Vec F S100x256 .f32) (x4 : Vec F S100x256 .f32) (x5 : Vec F S1x256 .f32) : Vec F S4000x256 .bf16 :=
  View.canon [⟨ro0, k0_pay1 (View.ld x0 ra0) (View.ld x1 rc0) (View.ld x2 ra0) (View.ld x3 rw0) (View.ld x4 rw0) (View.ld x5 rb0)⟩]

/-- The one store covers the buffer. -/
theorem cover0 (p0 : Vec F S4000x256 .bf16) (y : S4000x256.Idx) :
    ∃ pc ∈ ([⟨ro0, p0⟩] : List (View.Piece (Elt F) S4000x256 .bf16)), y ∈ pc.1.set :=
  View.cover_of_tiled [⟨ro0, p0⟩] S4000x256.size (by rfl) y

set_option maxHeartbeats 4000000 in
/-- The body on whole staging buffers: inputs at `x0 … x5`, the output at anything; it returns with the inputs as they
    were and the output at `rowblock0` of them. -/
theorem sound_kernel0 (c : Dev nD) (E : Set ℕ) (i : grid0.Coords)
    (arg1 : Memref sig .tc .vmem S4000x100 .f32) (harg1 : arg1.IsWhole) (arg2 : Memref sig .tc .vmem S4000x1 .f32) (harg2 : arg2.IsWhole)
    (arg3 : Memref sig .tc .vmem S4000x100 .f32) (harg3 : arg3.IsWhole) (arg4 : Memref sig .tc .vmem S100x256 .f32) (harg4 : arg4.IsWhole)
    (arg5 : Memref sig .tc .vmem S100x256 .f32) (harg5 : arg5.IsWhole) (arg6 : Memref sig .tc .vmem S1x256 .f32) (harg6 : arg6.IsWhole)
    (arg7 : Memref sig .tc .vmem S4000x256 .bf16) (harg7 : arg7.IsWhole)
    (x0 : Vec F S4000x100 .f32) (x1 : Vec F S4000x1 .f32) (x2 : Vec F S4000x100 .f32) (x3 : Vec F S100x256 .f32) (x4 : Vec F S100x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock0 x0 x1 x2 x3 x4 x5)) -∗ K ⟨⟩))
      ⊢ wp frame (wpE (defs₀ (F := F)) Variants.none c none) E (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The launch's proof data -/

/-- Arrays as the launch finds them; after the body at point `t` each input buffer at its block and the output buffer at
    `rowblock0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => rowblock0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = rowblock0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KFrameStage1.lean ====
/-
  Second dense stage (grid of 10 row blocks of 2000 rows): the frame half of its launch, at a parameter `V` — the
  TensorCore's buffer contents when the launch is entered. Each of the six input windows is found holding its block of the
  array `V` gives it, at every grid point, whether or not the point fetched it; the body, run on whole staging buffers,
  leaves the inputs as found and the output buffer at the one whole-block store's value: the block-level function
  `rowblock1` of the six input blocks (scaled aggregate times the left weights, plus the target rows times the right
  weights, plus the bias row, clamped at zero). From these the launch's proof data and its body obligation.
-/
import proofs.«137751_j8186207666616_2_alg».proof.Proof.Gen.Kernel.Launch
import proofs.«137751_j8186207666616_2_alg».proof.Proof.Gen.Kernel.Skeleton
import proofs.«137751_j8186207666616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off the array the launch finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched point
    has the block index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer rectangles -/

abbrev ra1 : Rect S2000x256 := Rect.unit (s := S2000x256) ![0, 0] S2000x256.size inb_S2000x256_S2000x256_0_0
abbrev rc1 : Rect S2000x1 := Rect.unit (s := S2000x1) ![0, 0] S2000x1.size inb_S2000x1_S2000x1_0_0
abbrev rw1 : Rect S256x256 := Rect.unit (s := S256x256) ![0, 0] S256x256.size inb_S256x256_S256x256_0_0
abbrev rb1 : Rect S1x256 := Rect.unit (s := S1x256) ![0, 0] S1x256.size inb_S1x256_S1x256_0_0
abbrev ro1 : Rect S2000x256 := Rect.unit (s := S2000x256) ![0, 0] S2000x256.size inb_S2000x256_S2000x256_0_0

/-- The output buffer after the body: its one whole-block store, of the body's arithmetic on the six loaded blocks. -/
def rowblock1 (x0 : Vec F S2000x256 .f32) (x1 : Vec F S2000x1 .f32) (x2 : Vec F S2000x256 .bf16) (x3 : Vec F S256x256 .f32) (x4 : Vec F S256x256 .f32) (x5 : Vec F S1x256 .f32) : Vec F S2000x256 .bf16 :=
  View.canon [⟨ro1, k1_pay1 (View.ld x0 ra1) (View.ld x1 rc1) (View.ld x2 ra1) (View.ld x3 rw1) (View.ld x4 rw1) (View.ld x5 rb1)⟩]

/-- The one store covers the buffer. -/
theorem cover1 (p0 : Vec F S2000x256 .bf16) (y : S2000x256.Idx) :
    ∃ pc ∈ ([⟨ro1, p0⟩] : List (View.Piece (Elt F) S2000x256 .bf16)), y ∈ pc.1.set :=
  View.cover_of_tiled [⟨ro1, p0⟩] S2000x256.size (by rfl) y

set_option maxHeartbeats 4000000 in
/-- The body on whole staging buffers: inputs at `x0 … x5`, the output at anything; it returns with the inputs as they
    were and the output at `rowblock1` of them. -/
theorem sound_kernel1 (c : Dev nD) (E : Set ℕ) (i : grid1.Coords)
    (arg1 : Memref sig .tc .vmem S2000x256 .f32) (harg1 : arg1.IsWhole) (arg2 : Memref sig .tc .vmem S2000x1 .f32) (harg2 : arg2.IsWhole)
    (arg3 : Memref sig .tc .vmem S2000x256 .bf16) (harg3 : arg3.IsWhole) (arg4 : Memref sig .tc .vmem S256x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S2000x256 .bf16) (harg7 : arg7.IsWhole)
    (x0 : Vec F S2000x256 .f32) (x1 : Vec F S2000x1 .f32) (x2 : Vec F S2000x256 .bf16) (x3 : Vec F S256x256 .f32) (x4 : Vec F S256x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock1 x0 x1 x2 x3 x4 x5)) -∗ K ⟨⟩))
      ⊢ wp frame (wpE (defs₀ (F := F)) Variants.none c none) E (cc1__sage_linear_kernel i arg1 harg1 arg2 harg2 arg3 harg3 arg4 harg4 arg5 harg5 arg6 harg6 arg7 harg7) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The launch's proof data -/

/-- Arrays as the launch finds them; after the body at point `t` each input buffer at its block and the output buffer at
    `rowblock1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rowblock1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = rowblock1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KFrameStage2.lean ====
/-
  Third dense stage (grid of 2 row blocks of 2048 rows, ending in a row-wise log-softmax): the frame half of its launch, at
  a parameter `V` — the TensorCore's buffer contents when the launch is entered. The third window reads the previous
  stage's 20000-row activations in 2048-row blocks, which do not divide 20000; but the grid has only the points 0 and 1,
  whose blocks (rows 0‥4095) lie inside the array, so at both points the transfer moves the whole block (`clip2_2`) and
  the staging buffer holds exactly the block (`xdst2`). The other five input windows are found at their blocks as
  usual; the body leaves the inputs as found and the output buffer at the one whole-block store's value `rowblock2`.
-/
import proofs.«137751_j8186207666616_2_alg».proof.Proof.Gen.Kernel.Launch
import proofs.«137751_j8186207666616_2_alg».proof.Proof.Gen.Kernel.Skeleton
import proofs.«137751_j8186207666616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off the array the launch finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched point
    has the block index of the point before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- At both grid points no axis of the third window's block is cut. -/
theorem clip2_2 : ∀ (t : Fin cfg2.N) (a : Fin 2), (cfg2.win 2).clip (cfg2.grid.coords t) a = none :=
  (by decide +kernel : ∀ (t : Fin grid2.N) (a : Fin 2), win2_2.clip (grid2.coords t) a = none)
/-- So the transfer's extent on each axis is the block's. -/
theorem xsize2_2 (t : Fin cfg2.N) (a : Fin 2) : (cfg2.win 2).xsize (cfg2.grid.coords t) a = (cfg2.win 2).size a := by
  show ((cfg2.win 2).clip (cfg2.grid.coords t) a).extent _ = _
  rw [clip2_2]
/-- and every index of the block is moved by the transfer. -/
theorem moved2_2 (t : Fin cfg2.N) (j : (cfg2.win 2).block.Idx) : (cfg2.win 2).moved (cfg2.grid.coords t) j = true :=
  ((cfg2.win 2).moved_iff _ j).mpr fun a => lt_of_lt_of_eq (j a).isLt (xsize2_2 t a).symm

/-- The third window's whole block at point `t`: the array's block read at each index of the full block shape. -/
def xdst2 (c : Dev nD) (t : Fin cfg2.N) : (cfg2.win 2).block.Idx → Elt F (cfg2.win 2).elt :=
  fun j => iblk2 V c 2 t (fun a => ⟨(j a).val, lt_of_lt_of_eq (j a).isLt (xsize2_2 t a).symm⟩)

theorem before2_2_of {c : Dev nD} (dat : Dat τ (Elt F) Unit ℕ (UR sig nD τ) ℕ cfg2 c) (hA : dat.A 2 = V c (Pipeline.arrRef spec2 2))
    (hafter : ∀ t, dat.after 2 t = xdst2 V c t) (t : Fin cfg2.N) (d) : dat.before 2 t d = xdst2 V c t :=
  (dat.before_in_eq_fetched 2 rfl (fun _ => rfl)
      (fun t t' _ => funext fun a => (clip2_2 t a).trans (clip2_2 t' a).symm)
      (fun t => by rw [hafter]; unfold Dat.blockOf xdst2 iblk2; rw [hA]; try rfl) t d).trans
    (by
      funext j
      unfold Dat.fetched Pipeline.Window.fill
      rw [dif_pos (moved2_2 t j)]
      unfold Dat.blockOf xdst2 iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's whole-buffer rectangles -/

abbrev ra2 : Rect S2048x256 := Rect.unit (s := S2048x256) ![0, 0] S2048x256.size inb_S2048x256_S2048x256_0_0
abbrev rc2 : Rect S2048x1 := Rect.unit (s := S2048x1) ![0, 0] S2048x1.size inb_S2048x1_S2048x1_0_0
abbrev rw2 : Rect S256x47 := Rect.unit (s := S256x47) ![0, 0] S256x47.size inb_S256x47_S256x47_0_0
abbrev rb2 : Rect S1x47 := Rect.unit (s := S1x47) ![0, 0] S1x47.size inb_S1x47_S1x47_0_0
abbrev ro2 : Rect S2048x47 := Rect.unit (s := S2048x47) ![0, 0] S2048x47.size inb_S2048x47_S2048x47_0_0

/-- The output buffer after the body: its one whole-block store, of the body's arithmetic on the six loaded blocks. -/
def rowblock2 (x0 : Vec F S2048x256 .f32) (x1 : Vec F S2048x1 .f32) (x2 : Vec F S2048x256 .bf16) (x3 : Vec F S256x47 .f32) (x4 : Vec F S256x47 .f32) (x5 : Vec F S1x47 .f32) : Vec F S2048x47 .f32 :=
  View.canon [⟨ro2, k2_pay1 (View.ld x0 ra2) (View.ld x1 rc2) (View.ld x2 ra2) (View.ld x3 rw2) (View.ld x4 rw2) (View.ld x5 rb2)⟩]

/-- The one store covers the buffer. -/
theorem cover2 (p0 : Vec F S2048x47 .f32) (y : S2048x47.Idx) :
    ∃ pc ∈ ([⟨ro2, p0⟩] : List (View.Piece (Elt F) S2048x47 .f32)), y ∈ pc.1.set :=
  View.cover_of_tiled [⟨ro2, p0⟩] S2048x47.size (by rfl) y

set_option maxHeartbeats 4000000 in
/-- The body on whole staging buffers: inputs at `x0 … x5`, the output at anything; it returns with the inputs as they
    were and the output at `rowblock2` of them. -/
theorem sound_kernel2 (c : Dev nD) (E : Set ℕ) (i : grid2.Coords)
    (arg1 : Memref sig .tc .vmem S2048x256 .f32) (harg1 : arg1.IsWhole) (arg2 : Memref sig .tc .vmem S2048x1 .f32) (harg2 : arg2.IsWhole)
    (arg3 : Memref sig .tc .vmem S2048x256 .bf16) (harg3 : arg3.IsWhole) (arg4 : Memref sig .tc .vmem S256x47 .f32) (harg4 : arg4.IsWhole)
    (arg5 : Memref sig .tc .vmem S256x47 .f32) (harg5 : arg5.IsWhole) (arg6 : Memref sig .tc .vmem S1x47 .f32) (harg6 : arg6.IsWhole)
    (arg7 : Memref sig .tc .vmem S2048x47 .f32) (harg7 : arg7.IsWhole)
    (x0 : Vec F S2048x256 .f32) (x1 : Vec F S2048x1 .f32) (x2 : Vec F S2048x256 .bf16) (x3 : Vec F S256x47 .f32) (x4 : Vec F S256x47 .f32) (x5 : Vec F S1x47 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock2 x0 x1 x2 x3 x4 x5)) -∗ K ⟨⟩))
      ⊢ wp frame (wpE (defs₀ (F := F)) Variants.none c none) E (cc2__sage_linear_kernel i arg1 harg1 arg2 harg2 arg3 harg3 arg4 harg4 arg5 harg5 arg6 harg6 arg7 harg7) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-! ## The launch's proof data -/

/-- Arrays as the launch finds them; after the body at point `t` each input buffer at its block and the output buffer at
    `rowblock2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => xdst2 V c t
    | ⟨3, _⟩ => iblk2 V c 3 t
    | ⟨4, _⟩ => iblk2 V c 4 t
    | ⟨5, _⟩ => iblk2 V c 5 t
    | ⟨6, _⟩ => rowblock2 (iblk2 V c 0 t) (iblk2 V c 1 t) (xdst2 V c t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = xdst2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = rowblock2 (iblk2 V c 0 t) (iblk2 V c 1 t) (xdst2 V c t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = xdst2 V c t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (xdst2 V c t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.KFrameRun.lean ====
/-
  The whole run of the program: three dense-stage launches among three stretches of host operations (the gathers and
  scatter-adds that build each stage's neighbour sums and counts). The buffer contents at each boundary are a fold from the
  launch memory: a host stretch applies its operations; a launch leaves its output array at the fold of the blocks it wrote
  back and everything else as entered. `run_all`: every weakly fair execution terminates without fault, and in the final
  memory every unscoped buffer holds the last boundary's contents. From it, that the sixteen argument arrays end as
  launched (no host operation writes one, no launch has one as its output), and what the result array holds.
-/
import proofs.«137751_j8186207666616_2_alg».proof.Proof.Gen.Kernel.Launch
import proofs.«137751_j8186207666616_2_alg».proof.Proof.Gen.Kernel.Skeleton
import proofs.«137751_j8186207666616_2_alg».proof.Proof.Gen.Kernel.Points
import proofs.«137751_j8186207666616_2_alg».proof.Proof.Gen.Kernel.Regions
import proofs.«137751_j8186207666616_2_alg».proof.Proof.KFrameStage0
import proofs.«137751_j8186207666616_2_alg».proof.Proof.KFrameStage1
import proofs.«137751_j8186207666616_2_alg».proof.Proof.KFrameStage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev Wd0 : Dev nD → Valuation τ sig (Elt F) := fun c b => (s₀ m ρ).mem ((c : Dev nD), b)
/-- After the first host stretch. -/
abbrev Wd1 : Dev nD → Valuation τ sig (Elt F) := fun c => StableHlo.after hostOps0 (Wd0 m ρ c)
abbrev En1 : (c : Dev nD) → (b : Ref sig .tc) → Buf (Elt F) ((c : Thread nD τ).loc b) := fun c b => Wd1 m ρ c b
/-- On leaving launch 0: its arrays at what its write-backs leave (an input as entered, the output the fold of the blocks
    written back), every other buffer as entered. -/
def Wd2 (c : Dev nD) : Valuation τ sig (Elt F) :=
  Pipeline.withArrays spec0 c (Wd1 m ρ c) fun w => (dat0 (En1 m ρ) c).arrAt w cfg0.N
theorem Wd2_arr (c : Dev nD) (w : Fin cfg0.W) :
    Wd2 m ρ c (Proc.devRef .tc (Pipeline.arrRef spec0 w)) = (dat0 (En1 m ρ) c).arrAt w cfg0.N := by
  unfold Wd2; exact Pipeline.withArrays_arr spec0 launch0.win.arr_inj c _ _ w
theorem Wd2_of_ne (c : Dev nD) (b : Ref sig .tc) (hb : ∀ w, Pipeline.arrRef spec0 w ≠ b) :
    Wd2 m ρ c (Proc.devRef .tc b) = Wd1 m ρ c (Proc.devRef .tc b) := by
  unfold Wd2; exact Pipeline.withArrays_of_ne spec0 c _ _ b hb
abbrev Ex2 : (c : Dev nD) → (b : Ref sig .tc) → Buf (Elt F) ((c : Thread nD τ).loc b) := fun c b => Wd2 m ρ c b
theorem hF0 (c : Dev nD) (w : Fin cfg0.W) : (dat0 (En1 m ρ) c).arrAt w cfg0.N = Ex2 m ρ c (Pipeline.arrRef spec0 w) :=
  (Wd2_arr m ρ c w).symm
theorem hrest0 (c : Dev nD) : ∀ b, b ∉ Finset.univ.image (Pipeline.arrRef spec0) → Ex2 m ρ c b = En1 m ρ c b :=
  fun b hb => Wd2_of_ne m ρ c b fun w e => hb (Finset.mem_image.mpr ⟨w, Finset.mem_univ _, e⟩)
/-- Any buffer other than the launch's output array is as entered: an input array by the fold's input clause, the rest
    by the line above. -/
theorem Wd2_keep (c : Dev nD) (b : Ref sig .tc) (h : b ≠ main_v20) :
    Wd2 m ρ c (Proc.devRef .tc b) = Wd1 m ρ c (Proc.devRef .tc b) := by
  by_cases hb : ∃ w, Pipeline.arrRef spec0 w = b
  · obtain ⟨w, rfl⟩ := hb
    have hin : (cfg0.win w).isOut = false :=
      (by decide : ∀ w : Fin 7, Pipeline.arrRef spec0 w ≠ main_v20 → (win0 w).isOut = false) w h
    exact (Wd2_arr m ρ c w).trans (((dat0 (En1 m ρ) c).arrAt_in w hin _).trans (A_eq0 (En1 m ρ) c w))
  · exact Wd2_of_ne m ρ c b fun w e => hb ⟨w, e⟩

/-- After the second host stretch. -/
abbrev Wd3 : Dev nD → Valuation τ sig (Elt F) := fun c => StableHlo.after hostOps1 (Wd2 m ρ c)
abbrev En3 : (c : Dev nD) → (b : Ref sig .tc) → Buf (Elt F) ((c : Thread nD τ).loc b) := fun c b => Wd3 m ρ c b
/-- On leaving launch 1: its arrays at what its write-backs leave (an input as entered, the output the fold of the blocks
    written back), every other buffer as entered. -/
def Wd4 (c : Dev nD) : Valuation τ sig (Elt F) :=
  Pipeline.withArrays spec1 c (Wd3 m ρ c) fun w => (dat1 (En3 m ρ) c).arrAt w cfg1.N
theorem Wd4_arr (c : Dev nD) (w : Fin cfg1.W) :
    Wd4 m ρ c (Proc.devRef .tc (Pipeline.arrRef spec1 w)) = (dat1 (En3 m ρ) c).arrAt w cfg1.N := by
  unfold Wd4; exact Pipeline.withArrays_arr spec1 launch1.win.arr_inj c _ _ w
theorem Wd4_of_ne (c : Dev nD) (b : Ref sig .tc) (hb : ∀ w, Pipeline.arrRef spec1 w ≠ b) :
    Wd4 m ρ c (Proc.devRef .tc b) = Wd3 m ρ c (Proc.devRef .tc b) := by
  unfold Wd4; exact Pipeline.withArrays_of_ne spec1 c _ _ b hb
abbrev Ex4 : (c : Dev nD) → (b : Ref sig .tc) → Buf (Elt F) ((c : Thread nD τ).loc b) := fun c b => Wd4 m ρ c b
theorem hF1 (c : Dev nD) (w : Fin cfg1.W) : (dat1 (En3 m ρ) c).arrAt w cfg1.N = Ex4 m ρ c (Pipeline.arrRef spec1 w) :=
  (Wd4_arr m ρ c w).symm
theorem hrest1 (c : Dev nD) : ∀ b, b ∉ Finset.univ.image (Pipeline.arrRef spec1) → Ex4 m ρ c b = En3 m ρ c b :=
  fun b hb => Wd4_of_ne m ρ c b fun w e => hb (Finset.mem_image.mpr ⟨w, Finset.mem_univ _, e⟩)
/-- Any buffer other than the launch's output array is as entered: an input array by the fold's input clause, the rest
    by the line above. -/
theorem Wd4_keep (c : Dev nD) (b : Ref sig .tc) (h : b ≠ main_v42) :
    Wd4 m ρ c (Proc.devRef .tc b) = Wd3 m ρ c (Proc.devRef .tc b) := by
  by_cases hb : ∃ w, Pipeline.arrRef spec1 w = b
  · obtain ⟨w, rfl⟩ := hb
    have hin : (cfg1.win w).isOut = false :=
      (by decide : ∀ w : Fin 7, Pipeline.arrRef spec1 w ≠ main_v42 → (win1 w).isOut = false) w h
    exact (Wd4_arr m ρ c w).trans (((dat1 (En3 m ρ) c).arrAt_in w hin _).trans (A_eq1 (En3 m ρ) c w))
  · exact Wd4_of_ne m ρ c b fun w e => hb ⟨w, e⟩

/-- After the third host stretch. -/
abbrev Wd5 : Dev nD → Valuation τ sig (Elt F) := fun c => StableHlo.after hostOps2 (Wd4 m ρ c)
abbrev En5 : (c : Dev nD) → (b : Ref sig .tc) → Buf (Elt F) ((c : Thread nD τ).loc b) := fun c b => Wd5 m ρ c b
/-- On leaving launch 2: its arrays at what its write-backs leave (an input as entered, the output the fold of the blocks
    written back), every other buffer as entered. -/
def Wd6 (c : Dev nD) : Valuation τ sig (Elt F) :=
  Pipeline.withArrays spec2 c (Wd5 m ρ c) fun w => (dat2 (En5 m ρ) c).arrAt w cfg2.N
theorem Wd6_arr (c : Dev nD) (w : Fin cfg2.W) :
    Wd6 m ρ c (Proc.devRef .tc (Pipeline.arrRef spec2 w)) = (dat2 (En5 m ρ) c).arrAt w cfg2.N := by
  unfold Wd6; exact Pipeline.withArrays_arr spec2 launch2.win.arr_inj c _ _ w
theorem Wd6_of_ne (c : Dev nD) (b : Ref sig .tc) (hb : ∀ w, Pipeline.arrRef spec2 w ≠ b) :
    Wd6 m ρ c (Proc.devRef .tc b) = Wd5 m ρ c (Proc.devRef .tc b) := by
  unfold Wd6; exact Pipeline.withArrays_of_ne spec2 c _ _ b hb
abbrev Ex6 : (c : Dev nD) → (b : Ref sig .tc) → Buf (Elt F) ((c : Thread nD τ).loc b) := fun c b => Wd6 m ρ c b
theorem hF2 (c : Dev nD) (w : Fin cfg2.W) : (dat2 (En5 m ρ) c).arrAt w cfg2.N = Ex6 m ρ c (Pipeline.arrRef spec2 w) :=
  (Wd6_arr m ρ c w).symm
theorem hrest2 (c : Dev nD) : ∀ b, b ∉ Finset.univ.image (Pipeline.arrRef spec2) → Ex6 m ρ c b = En5 m ρ c b :=
  fun b hb => Wd6_of_ne m ρ c b fun w e => hb (Finset.mem_image.mpr ⟨w, Finset.mem_univ _, e⟩)
/-- Any buffer other than the launch's output array is as entered: an input array by the fold's input clause, the rest
    by the line above. -/
theorem Wd6_keep (c : Dev nD) (b : Ref sig .tc) (h : b ≠ main_v64) :
    Wd6 m ρ c (Proc.devRef .tc b) = Wd5 m ρ c (Proc.devRef .tc b) := by
  by_cases hb : ∃ w, Pipeline.arrRef spec2 w = b
  · obtain ⟨w, rfl⟩ := hb
    have hin : (cfg2.win w).isOut = false :=
      (by decide : ∀ w : Fin 7, Pipeline.arrRef spec2 w ≠ main_v64 → (win2 w).isOut = false) w h
    exact (Wd6_arr m ρ c w).trans (((dat2 (En5 m ρ) c).arrAt_in w hin _).trans (A_eq2 (En5 m ρ) c w))
  · exact Wd6_of_ne m ρ c b fun w e => hb ⟨w, e⟩

/-! ## A buffer no host operation writes and no launch outputs ends as launched -/

theorem Wd6_untouched (c : Dev nD) (b : Ref sig .tc) (h0 : b ∉ hostOps0_W) (h1 : b ∉ hostOps1_W) (h2 : b ∉ hostOps2_W)
    (n0 : b ≠ main_v20) (n1 : b ≠ main_v42) (n2 : b ≠ main_v64) :
    Wd6 m ρ c (Proc.devRef .tc b) = m ((c : Thread nD τ).loc b) :=
  calc Wd6 m ρ c (Proc.devRef .tc b)
    _ = Wd5 m ρ c (Proc.devRef .tc b) := Wd6_keep m ρ c b n2
    _ = Wd4 m ρ c (Proc.devRef .tc b) := StableHlo.after_of_writes_sub hostOps2 _ hostOps2_writes h2
    _ = Wd3 m ρ c (Proc.devRef .tc b) := Wd4_keep m ρ c b n1
    _ = Wd2 m ρ c (Proc.devRef .tc b) := StableHlo.after_of_writes_sub hostOps1 _ hostOps1_writes h1
    _ = Wd1 m ρ c (Proc.devRef .tc b) := Wd2_keep m ρ c b n0
    _ = Wd0 m ρ c (Proc.devRef .tc b) := StableHlo.after_of_writes_sub hostOps0 _ hostOps0_writes h0
    _ = m ((c : Thread nD τ).loc b) := rfl

/-! ## The proof data family and the thread state -/

abbrev admF : (p : Fin 3) → (pcfgs (F := F) p).Adm := fun p => (cfgs p).toPCfg_adm
/-- Each launch's proof data at its entry contents. -/
def pdats : (p : Fin 3) → (c : Dev nD) → Dat τ (Elt F) Unit ℕ (UR sig nD τ) ℕ (Pipeline.pin (pcfgs (F := F)) admF p) c
  | ⟨0, _⟩ => fun c => dat0 (En1 m ρ) c
  | ⟨1, _⟩ => fun c => dat1 (En3 m ρ) c
  | ⟨2, _⟩ => fun c => dat2 (En5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd6 m ρ c) ∗ ∃ r, prngReg c r)

/-! ## The launches as items -/

set_option backward.isDefEq.respectTransparency.types false in
/-- Launch 0 over the thread state: entered with every unscoped buffer at `Wd1`, left at `Wd2`. Its arrays are split
    out of the unscoped buffers and put back at the exit contents; the generator register goes into the launch's invariant and
    comes back; nothing is owed; the kernel has no semaphore of its own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Wd1 m ρ c) ∗ R c)
  post c := iprop(StableHlo.held (c : Thread nD τ) (Pipeline.ucRefs τ sig) (Wd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `Wd3`, left at `Wd4`. Its arrays are split
    out of the unscoped buffers and put back at the exit contents; the generator register goes into the launch's invariant and
    comes back; nothing is owed; the kernel has no semaphore of its own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Wd3 m ρ c) ∗ R c)
  post c := iprop(StableHlo.held (c : Thread nD τ) (Pipeline.ucRefs τ sig) (Wd4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `Wd5`, left at `Wd6`. Its arrays are split
    out of the unscoped buffers and put back at the exit contents; the generator register goes into the launch's invariant and
    comes back; nothing is owed; the kernel has no semaphore of its own. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Wd5 m ρ c) ∗ R c)
  post c := iprop(StableHlo.held (c : Thread nD τ) (Pipeline.ucRefs τ sig) (Wd6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

abbrev segsF : List (Pipeline.Seg (pcfgs (F := F)) admF (pdats m ρ) () defs₀ 𝒱₀ L lv) :=
  [ .host (hseg hostOps0 hostOps0_sub hostOps0_fresh (Wd0 m ρ)),
    .region (reg0 m ρ),
    .host (hseg hostOps1 hostOps1_sub hostOps1_fresh (Wd2 m ρ)),
    .region (reg1 m ρ),
    .host (hseg hostOps2 hostOps2_sub hostOps2_fresh (Wd4 m ρ)),
    .region (reg2 m ρ) ]
theorem main_run (c : Dev nD) : main (F := F) c = Pipeline.Seg.run (segsF m ρ) := (main_chain c).trans (by chain_rfl)

set_option backward.isDefEq.respectTransparency.types false in
/-- Every weakly fair execution of the program from memory `m` with zero counters terminates, nothing faulting, and in the
    final memory every unscoped buffer of every core holds the last boundary's contents `Wd6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd6 m ρ c b) :=
  Pipeline.θ_run_regions_kit (pcfgs (F := F)) admF (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wd6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd6 m ρ c) s')
      isplitl [Hh] <;> iassumption)
    (hQ := fun s h c => h c)

/-- An argument array, or any buffer no host operation writes and no launch outputs, ends as launched. -/
theorem keeps_of (mem : (ℓ : Loc nD τ sig) → Buf (Elt F) ℓ)
    (h : ∀ c : Dev nD, ∀ b ∈ Pipeline.ucRefs τ sig, mem (((c : Thread nD τ)).1, b) = Wd6 m ρ c b)
    (c : Dev nD) (b : Ref sig .tc) (hs : ¬ (Proc.devRef .tc b : DevRef τ sig).isScoped)
    (h0 : b ∉ hostOps0_W) (h1 : b ∉ hostOps1_W) (h2 : b ∉ hostOps2_W) (n0 : b ≠ main_v20) (n1 : b ≠ main_v42) (n2 : b ≠ main_v64) :
    mem ((c.tc : Thread nD τ).loc b) = m ((c.tc : Thread nD τ).loc b) :=
  (h c _ (mem_uc b hs)).trans (Wd6_untouched m ρ c b h0 h1 h2 n0 n1 n2)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨keeps_of m ρ r.2.mem h c main_arg0 (by decide) (by decide) (by decide) (by decide) (by decide) (by decide) (by decide),
      keeps_of m ρ r.2.mem h c main_arg1 (by decide) (by decide) (by decide) (by decide) (by decide) (by decide) (by decide),
      keeps_of m ρ r.2.mem h c main_arg2 (by decide) (by decide) (by decide) (by decide) (by decide) (by decide) (by decide),
      keeps_of m ρ r.2.mem h c main_arg3 (by decide) (by decide) (by decide) (by decide) (by decide) (by decide) (by decide),
      keeps_of m ρ r.2.mem h c main_arg4 (by decide) (by decide) (by decide) (by decide) (by decide) (by decide) (by decide),
      keeps_of m ρ r.2.mem h c main_arg5 (by decide) (by decide) (by decide) (by decide) (by decide) (by decide) (by decide),
      keeps_of m ρ r.2.mem h c main_arg6 (by decide) (by decide) (by decide) (by decide) (by decide) (by decide) (by decide),
      keeps_of m ρ r.2.mem h c main_arg7 (by decide) (by decide) (by decide) (by decide) (by decide) (by decide) (by decide),
      keeps_of m ρ r.2.mem h c main_arg8 (by decide) (by decide) (by decide) (by decide) (by decide) (by decide) (by decide),
      keeps_of m ρ r.2.mem h c main_arg9 (by decide) (by decide) (by decide) (by decide) (by decide) (by decide) (by decide),
      keeps_of m ρ r.2.mem h c main_arg10 (by decide) (by decide) (by decide) (by decide) (by decide) (by decide) (by decide),
      keeps_of m ρ r.2.mem h c main_arg11 (by decide) (by decide) (by decide) (by decide) (by decide) (by decide) (by decide),
      keeps_of m ρ r.2.mem h c main_arg12 (by decide) (by decide) (by decide) (by decide) (by decide) (by decide) (by decide),
      keeps_of m ρ r.2.mem h c main_arg13 (by decide) (by decide) (by decide) (by decide) (by decide) (by decide) (by decide),
      keeps_of m ρ r.2.mem h c main_arg14 (by decide) (by decide) (by decide) (by decide) (by decide) (by decide) (by decide),
      keeps_of m ρ r.2.mem h c main_arg15 (by decide) (by decide) (by decide) (by decide) (by decide) (by decide) (by decide)⟩)
    (run_all m ρ)

/-- What the result array holds at the end: the fold of the blocks the last launch wrote back. -/
theorem result_of (mem : (ℓ : Loc nD τ sig) → Buf (Elt F) ℓ)
    (h : ∀ c : Dev nD, ∀ b ∈ Pipeline.ucRefs τ sig, mem (((c : Thread nD τ)).1, b) = Wd6 m ρ c b) (c : Dev nD) :
    mem ((c.tc : Thread nD τ).loc main_v64) = (dat2 (En5 m ρ) c).arrAt 6 cfg2.N :=
  (h c _ (mem_uc main_v64 (by decide))).trans (Wd6_arr m ρ c 6)

end Cert.Kernel.Fr

end
-- ==== Proof.FrameStage0.lean ====
/-
  First dense stage (grid of 50 row blocks of 4000 rows): the frame half of its launch, at a parameter `V` — the
  TensorCore's buffer contents when the launch is entered. Each of the six input windows is found holding its block of the
  array `V` gives it, at every grid point, whether or not the point fetched it; the body, run on whole staging buffers,
  leaves the inputs as found and the output buffer at the one whole-block store's value: the block-level function
  `rowblock0` of the six input blocks (scaled aggregate times the left weights, plus the target rows times the right
  weights, plus the bias row, clamped at zero). From these the launch's proof data and its body obligation.
-/
import proofs.«137751_j8186207666616_2_alg».proof.Proof.Gen.KernelIdeal.Launch
import proofs.«137751_j8186207666616_2_alg».proof.Proof.Gen.KernelIdeal.Skeleton
import proofs.«137751_j8186207666616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off the array the launch finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched point
    has the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer rectangles -/

abbrev ra0 : Rect S4000x100 := Rect.unit (s := S4000x100) ![0, 0] S4000x100.size inb_S4000x100_S4000x100_0_0
abbrev rc0 : Rect S4000x1 := Rect.unit (s := S4000x1) ![0, 0] S4000x1.size inb_S4000x1_S4000x1_0_0
abbrev rw0 : Rect S100x256 := Rect.unit (s := S100x256) ![0, 0] S100x256.size inb_S100x256_S100x256_0_0
abbrev rb0 : Rect S1x256 := Rect.unit (s := S1x256) ![0, 0] S1x256.size inb_S1x256_S1x256_0_0
abbrev ro0 : Rect S4000x256 := Rect.unit (s := S4000x256) ![0, 0] S4000x256.size inb_S4000x256_S4000x256_0_0

/-- The output buffer after the body: its one whole-block store, of the body's arithmetic on the six loaded blocks. -/
def rowblock0 (x0 : Vec F S4000x100 .f32) (x1 : Vec F S4000x1 .f32) (x2 : Vec F S4000x100 .f32) (x3 : Vec F S100x256 .f32) (x4 : Vec F S100x256 .f32) (x5 : Vec F S1x256 .f32) : Vec F S4000x256 .bf16 :=
  View.canon [⟨ro0, k0_pay1 (View.ld x0 ra0) (View.ld x1 rc0) (View.ld x2 ra0) (View.ld x3 rw0) (View.ld x4 rw0) (View.ld x5 rb0)⟩]

/-- The one store covers the buffer. -/
theorem cover0 (p0 : Vec F S4000x256 .bf16) (y : S4000x256.Idx) :
    ∃ pc ∈ ([⟨ro0, p0⟩] : List (View.Piece (Elt F) S4000x256 .bf16)), y ∈ pc.1.set :=
  View.cover_of_tiled [⟨ro0, p0⟩] S4000x256.size (by rfl) y

set_option maxHeartbeats 4000000 in
/-- The body on whole staging buffers: inputs at `x0 … x5`, the output at anything; it returns with the inputs as they
    were and the output at `rowblock0` of them. -/
theorem sound_kernel0 (c : Dev nD) (E : Set ℕ) (i : grid0.Coords)
    (arg1 : Memref sig .tc .vmem S4000x100 .f32) (harg1 : arg1.IsWhole) (arg2 : Memref sig .tc .vmem S4000x1 .f32) (harg2 : arg2.IsWhole)
    (arg3 : Memref sig .tc .vmem S4000x100 .f32) (harg3 : arg3.IsWhole) (arg4 : Memref sig .tc .vmem S100x256 .f32) (harg4 : arg4.IsWhole)
    (arg5 : Memref sig .tc .vmem S100x256 .f32) (harg5 : arg5.IsWhole) (arg6 : Memref sig .tc .vmem S1x256 .f32) (harg6 : arg6.IsWhole)
    (arg7 : Memref sig .tc .vmem S4000x256 .bf16) (harg7 : arg7.IsWhole)
    (x0 : Vec F S4000x100 .f32) (x1 : Vec F S4000x1 .f32) (x2 : Vec F S4000x100 .f32) (x3 : Vec F S100x256 .f32) (x4 : Vec F S100x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock0 x0 x1 x2 x3 x4 x5)) -∗ K ⟨⟩))
      ⊢ wp frame (wpE (defs₀ (F := F)) Variants.none c none) E (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The launch's proof data -/

/-- Arrays as the launch finds them; after the body at point `t` each input buffer at its block and the output buffer at
    `rowblock0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => rowblock0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = rowblock0 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrameStage1.lean ====
/-
  Second dense stage (grid of 10 row blocks of 2000 rows): the frame half of its launch, at a parameter `V` — the
  TensorCore's buffer contents when the launch is entered. Each of the six input windows is found holding its block of the
  array `V` gives it, at every grid point, whether or not the point fetched it; the body, run on whole staging buffers,
  leaves the inputs as found and the output buffer at the one whole-block store's value: the block-level function
  `rowblock1` of the six input blocks (scaled aggregate times the left weights, plus the target rows times the right
  weights, plus the bias row, clamped at zero). From these the launch's proof data and its body obligation.
-/
import proofs.«137751_j8186207666616_2_alg».proof.Proof.Gen.KernelIdeal.Launch
import proofs.«137751_j8186207666616_2_alg».proof.Proof.Gen.KernelIdeal.Skeleton
import proofs.«137751_j8186207666616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off the array the launch finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched point
    has the block index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer rectangles -/

abbrev ra1 : Rect S2000x256 := Rect.unit (s := S2000x256) ![0, 0] S2000x256.size inb_S2000x256_S2000x256_0_0
abbrev rc1 : Rect S2000x1 := Rect.unit (s := S2000x1) ![0, 0] S2000x1.size inb_S2000x1_S2000x1_0_0
abbrev rw1 : Rect S256x256 := Rect.unit (s := S256x256) ![0, 0] S256x256.size inb_S256x256_S256x256_0_0
abbrev rb1 : Rect S1x256 := Rect.unit (s := S1x256) ![0, 0] S1x256.size inb_S1x256_S1x256_0_0
abbrev ro1 : Rect S2000x256 := Rect.unit (s := S2000x256) ![0, 0] S2000x256.size inb_S2000x256_S2000x256_0_0

/-- The output buffer after the body: its one whole-block store, of the body's arithmetic on the six loaded blocks. -/
def rowblock1 (x0 : Vec F S2000x256 .f32) (x1 : Vec F S2000x1 .f32) (x2 : Vec F S2000x256 .bf16) (x3 : Vec F S256x256 .f32) (x4 : Vec F S256x256 .f32) (x5 : Vec F S1x256 .f32) : Vec F S2000x256 .bf16 :=
  View.canon [⟨ro1, k1_pay1 (View.ld x0 ra1) (View.ld x1 rc1) (View.ld x2 ra1) (View.ld x3 rw1) (View.ld x4 rw1) (View.ld x5 rb1)⟩]

/-- The one store covers the buffer. -/
theorem cover1 (p0 : Vec F S2000x256 .bf16) (y : S2000x256.Idx) :
    ∃ pc ∈ ([⟨ro1, p0⟩] : List (View.Piece (Elt F) S2000x256 .bf16)), y ∈ pc.1.set :=
  View.cover_of_tiled [⟨ro1, p0⟩] S2000x256.size (by rfl) y

set_option maxHeartbeats 4000000 in
/-- The body on whole staging buffers: inputs at `x0 … x5`, the output at anything; it returns with the inputs as they
    were and the output at `rowblock1` of them. -/
theorem sound_kernel1 (c : Dev nD) (E : Set ℕ) (i : grid1.Coords)
    (arg1 : Memref sig .tc .vmem S2000x256 .f32) (harg1 : arg1.IsWhole) (arg2 : Memref sig .tc .vmem S2000x1 .f32) (harg2 : arg2.IsWhole)
    (arg3 : Memref sig .tc .vmem S2000x256 .bf16) (harg3 : arg3.IsWhole) (arg4 : Memref sig .tc .vmem S256x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S2000x256 .bf16) (harg7 : arg7.IsWhole)
    (x0 : Vec F S2000x256 .f32) (x1 : Vec F S2000x1 .f32) (x2 : Vec F S2000x256 .bf16) (x3 : Vec F S256x256 .f32) (x4 : Vec F S256x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock1 x0 x1 x2 x3 x4 x5)) -∗ K ⟨⟩))
      ⊢ wp frame (wpE (defs₀ (F := F)) Variants.none c none) E (cc1__sage_linear_kernel i arg1 harg1 arg2 harg2 arg3 harg3 arg4 harg4 arg5 harg5 arg6 harg6 arg7 harg7) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The launch's proof data -/

/-- Arrays as the launch finds them; after the body at point `t` each input buffer at its block and the output buffer at
    `rowblock1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => rowblock1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = rowblock1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.FrameStage2.lean ====
/-
  Third dense stage (grid of 2 row blocks of 2048 rows, ending in a row-wise log-softmax): the frame half of its launch, at
  a parameter `V` — the TensorCore's buffer contents when the launch is entered. The third window reads the previous
  stage's 20000-row activations in 2048-row blocks, which do not divide 20000; but the grid has only the points 0 and 1,
  whose blocks (rows 0‥4095) lie inside the array, so at both points the transfer moves the whole block (`clip2_2`) and
  the staging buffer holds exactly the block (`xdst2`). The other five input windows are found at their blocks as
  usual; the body leaves the inputs as found and the output buffer at the one whole-block store's value `rowblock2`.
-/
import proofs.«137751_j8186207666616_2_alg».proof.Proof.Gen.KernelIdeal.Launch
import proofs.«137751_j8186207666616_2_alg».proof.Proof.Gen.KernelIdeal.Skeleton
import proofs.«137751_j8186207666616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off the array the launch finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched point
    has the block index of the point before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- At both grid points no axis of the third window's block is cut. -/
theorem clip2_2 : ∀ (t : Fin cfg2.N) (a : Fin 2), (cfg2.win 2).clip (cfg2.grid.coords t) a = none :=
  (by decide +kernel : ∀ (t : Fin grid2.N) (a : Fin 2), win2_2.clip (grid2.coords t) a = none)
/-- So the transfer's extent on each axis is the block's. -/
theorem xsize2_2 (t : Fin cfg2.N) (a : Fin 2) : (cfg2.win 2).xsize (cfg2.grid.coords t) a = (cfg2.win 2).size a := by
  show ((cfg2.win 2).clip (cfg2.grid.coords t) a).extent _ = _
  rw [clip2_2]
/-- and every index of the block is moved by the transfer. -/
theorem moved2_2 (t : Fin cfg2.N) (j : (cfg2.win 2).block.Idx) : (cfg2.win 2).moved (cfg2.grid.coords t) j = true :=
  ((cfg2.win 2).moved_iff _ j).mpr fun a => lt_of_lt_of_eq (j a).isLt (xsize2_2 t a).symm

/-- The third window's whole block at point `t`: the array's block read at each index of the full block shape. -/
def xdst2 (c : Dev nD) (t : Fin cfg2.N) : (cfg2.win 2).block.Idx → Elt F (cfg2.win 2).elt :=
  fun j => iblk2 V c 2 t (fun a => ⟨(j a).val, lt_of_lt_of_eq (j a).isLt (xsize2_2 t a).symm⟩)

theorem before2_2_of {c : Dev nD} (dat : Dat τ (Elt F) Unit ℕ (UR sig nD τ) ℕ cfg2 c) (hA : dat.A 2 = V c (Pipeline.arrRef spec2 2))
    (hafter : ∀ t, dat.after 2 t = xdst2 V c t) (t : Fin cfg2.N) (d) : dat.before 2 t d = xdst2 V c t :=
  (dat.before_in_eq_fetched 2 rfl (fun _ => rfl)
      (fun t t' _ => funext fun a => (clip2_2 t a).trans (clip2_2 t' a).symm)
      (fun t => by rw [hafter]; unfold Dat.blockOf xdst2 iblk2; rw [hA]; try rfl) t d).trans
    (by
      funext j
      unfold Dat.fetched Pipeline.Window.fill
      rw [dif_pos (moved2_2 t j)]
      unfold Dat.blockOf xdst2 iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's whole-buffer rectangles -/

abbrev ra2 : Rect S2048x256 := Rect.unit (s := S2048x256) ![0, 0] S2048x256.size inb_S2048x256_S2048x256_0_0
abbrev rc2 : Rect S2048x1 := Rect.unit (s := S2048x1) ![0, 0] S2048x1.size inb_S2048x1_S2048x1_0_0
abbrev rw2 : Rect S256x47 := Rect.unit (s := S256x47) ![0, 0] S256x47.size inb_S256x47_S256x47_0_0
abbrev rb2 : Rect S1x47 := Rect.unit (s := S1x47) ![0, 0] S1x47.size inb_S1x47_S1x47_0_0
abbrev ro2 : Rect S2048x47 := Rect.unit (s := S2048x47) ![0, 0] S2048x47.size inb_S2048x47_S2048x47_0_0

/-- The output buffer after the body: its one whole-block store, of the body's arithmetic on the six loaded blocks. -/
def rowblock2 (x0 : Vec F S2048x256 .f32) (x1 : Vec F S2048x1 .f32) (x2 : Vec F S2048x256 .bf16) (x3 : Vec F S256x47 .f32) (x4 : Vec F S256x47 .f32) (x5 : Vec F S1x47 .f32) : Vec F S2048x47 .f32 :=
  View.canon [⟨ro2, k2_pay1 (View.ld x0 ra2) (View.ld x1 rc2) (View.ld x2 ra2) (View.ld x3 rw2) (View.ld x4 rw2) (View.ld x5 rb2)⟩]

/-- The one store covers the buffer. -/
theorem cover2 (p0 : Vec F S2048x47 .f32) (y : S2048x47.Idx) :
    ∃ pc ∈ ([⟨ro2, p0⟩] : List (View.Piece (Elt F) S2048x47 .f32)), y ∈ pc.1.set :=
  View.cover_of_tiled [⟨ro2, p0⟩] S2048x47.size (by rfl) y

set_option maxHeartbeats 4000000 in
/-- The body on whole staging buffers: inputs at `x0 … x5`, the output at anything; it returns with the inputs as they
    were and the output at `rowblock2` of them. -/
theorem sound_kernel2 (c : Dev nD) (E : Set ℕ) (i : grid2.Coords)
    (arg1 : Memref sig .tc .vmem S2048x256 .f32) (harg1 : arg1.IsWhole) (arg2 : Memref sig .tc .vmem S2048x1 .f32) (harg2 : arg2.IsWhole)
    (arg3 : Memref sig .tc .vmem S2048x256 .bf16) (harg3 : arg3.IsWhole) (arg4 : Memref sig .tc .vmem S256x47 .f32) (harg4 : arg4.IsWhole)
    (arg5 : Memref sig .tc .vmem S256x47 .f32) (harg5 : arg5.IsWhole) (arg6 : Memref sig .tc .vmem S1x47 .f32) (harg6 : arg6.IsWhole)
    (arg7 : Memref sig .tc .vmem S2048x47 .f32) (harg7 : arg7.IsWhole)
    (x0 : Vec F S2048x256 .f32) (x1 : Vec F S2048x1 .f32) (x2 : Vec F S2048x256 .bf16) (x3 : Vec F S256x47 .f32) (x4 : Vec F S256x47 .f32) (x5 : Vec F S1x47 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (rowblock2 x0 x1 x2 x3 x4 x5)) -∗ K ⟨⟩))
      ⊢ wp frame (wpE (defs₀ (F := F)) Variants.none c none) E (cc2__sage_linear_kernel i arg1 harg1 arg2 harg2 arg3 harg3 arg4 harg4 arg5 harg5 arg6 harg6 arg7 harg7) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-! ## The launch's proof data -/

/-- Arrays as the launch finds them; after the body at point `t` each input buffer at its block and the output buffer at
    `rowblock2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => xdst2 V c t
    | ⟨3, _⟩ => iblk2 V c 3 t
    | ⟨4, _⟩ => iblk2 V c 4 t
    | ⟨5, _⟩ => iblk2 V c 5 t
    | ⟨6, _⟩ => rowblock2 (iblk2 V c 0 t) (iblk2 V c 1 t) (xdst2 V c t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = xdst2 V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = rowblock2 (iblk2 V c 0 t) (iblk2 V c 1 t) (xdst2 V c t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = xdst2 V c t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (xdst2 V c t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.FrameRun.lean ====
/-
  The whole run of the program: three dense-stage launches among three stretches of host operations (the gathers and
  scatter-adds that build each stage's neighbour sums and counts). The buffer contents at each boundary are a fold from the
  launch memory: a host stretch applies its operations; a launch leaves its output array at the fold of the blocks it wrote
  back and everything else as entered. `run_all`: every weakly fair execution terminates without fault, and in the final
  memory every unscoped buffer holds the last boundary's contents. From it, that the sixteen argument arrays end as
  launched (no host operation writes one, no launch has one as its output), and what the result array holds.
-/
import proofs.«137751_j8186207666616_2_alg».proof.Proof.Gen.KernelIdeal.Launch
import proofs.«137751_j8186207666616_2_alg».proof.Proof.Gen.KernelIdeal.Skeleton
import proofs.«137751_j8186207666616_2_alg».proof.Proof.Gen.KernelIdeal.Points
import proofs.«137751_j8186207666616_2_alg».proof.Proof.Gen.KernelIdeal.Regions
import proofs.«137751_j8186207666616_2_alg».proof.Proof.FrameStage0
import proofs.«137751_j8186207666616_2_alg».proof.Proof.FrameStage1
import proofs.«137751_j8186207666616_2_alg».proof.Proof.FrameStage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev Wd0 : Dev nD → Valuation τ sig (Elt F) := fun c b => (s₀ m ρ).mem ((c : Dev nD), b)
/-- After the first host stretch. -/
abbrev Wd1 : Dev nD → Valuation τ sig (Elt F) := fun c => StableHlo.after hostOps0 (Wd0 m ρ c)
abbrev En1 : (c : Dev nD) → (b : Ref sig .tc) → Buf (Elt F) ((c : Thread nD τ).loc b) := fun c b => Wd1 m ρ c b
/-- On leaving launch 0: its arrays at what its write-backs leave (an input as entered, the output the fold of the blocks
    written back), every other buffer as entered. -/
def Wd2 (c : Dev nD) : Valuation τ sig (Elt F) :=
  Pipeline.withArrays spec0 c (Wd1 m ρ c) fun w => (dat0 (En1 m ρ) c).arrAt w cfg0.N
theorem Wd2_arr (c : Dev nD) (w : Fin cfg0.W) :
    Wd2 m ρ c (Proc.devRef .tc (Pipeline.arrRef spec0 w)) = (dat0 (En1 m ρ) c).arrAt w cfg0.N := by
  unfold Wd2; exact Pipeline.withArrays_arr spec0 launch0.win.arr_inj c _ _ w
theorem Wd2_of_ne (c : Dev nD) (b : Ref sig .tc) (hb : ∀ w, Pipeline.arrRef spec0 w ≠ b) :
    Wd2 m ρ c (Proc.devRef .tc b) = Wd1 m ρ c (Proc.devRef .tc b) := by
  unfold Wd2; exact Pipeline.withArrays_of_ne spec0 c _ _ b hb
abbrev Ex2 : (c : Dev nD) → (b : Ref sig .tc) → Buf (Elt F) ((c : Thread nD τ).loc b) := fun c b => Wd2 m ρ c b
theorem hF0 (c : Dev nD) (w : Fin cfg0.W) : (dat0 (En1 m ρ) c).arrAt w cfg0.N = Ex2 m ρ c (Pipeline.arrRef spec0 w) :=
  (Wd2_arr m ρ c w).symm
theorem hrest0 (c : Dev nD) : ∀ b, b ∉ Finset.univ.image (Pipeline.arrRef spec0) → Ex2 m ρ c b = En1 m ρ c b :=
  fun b hb => Wd2_of_ne m ρ c b fun w e => hb (Finset.mem_image.mpr ⟨w, Finset.mem_univ _, e⟩)
/-- Any buffer other than the launch's output array is as entered: an input array by the fold's input clause, the rest
    by the line above. -/
theorem Wd2_keep (c : Dev nD) (b : Ref sig .tc) (h : b ≠ main_v20) :
    Wd2 m ρ c (Proc.devRef .tc b) = Wd1 m ρ c (Proc.devRef .tc b) := by
  by_cases hb : ∃ w, Pipeline.arrRef spec0 w = b
  · obtain ⟨w, rfl⟩ := hb
    have hin : (cfg0.win w).isOut = false :=
      (by decide : ∀ w : Fin 7, Pipeline.arrRef spec0 w ≠ main_v20 → (win0 w).isOut = false) w h
    exact (Wd2_arr m ρ c w).trans (((dat0 (En1 m ρ) c).arrAt_in w hin _).trans (A_eq0 (En1 m ρ) c w))
  · exact Wd2_of_ne m ρ c b fun w e => hb ⟨w, e⟩

/-- After the second host stretch. -/
abbrev Wd3 : Dev nD → Valuation τ sig (Elt F) := fun c => StableHlo.after hostOps1 (Wd2 m ρ c)
abbrev En3 : (c : Dev nD) → (b : Ref sig .tc) → Buf (Elt F) ((c : Thread nD τ).loc b) := fun c b => Wd3 m ρ c b
/-- On leaving launch 1: its arrays at what its write-backs leave (an input as entered, the output the fold of the blocks
    written back), every other buffer as entered. -/
def Wd4 (c : Dev nD) : Valuation τ sig (Elt F) :=
  Pipeline.withArrays spec1 c (Wd3 m ρ c) fun w => (dat1 (En3 m ρ) c).arrAt w cfg1.N
theorem Wd4_arr (c : Dev nD) (w : Fin cfg1.W) :
    Wd4 m ρ c (Proc.devRef .tc (Pipeline.arrRef spec1 w)) = (dat1 (En3 m ρ) c).arrAt w cfg1.N := by
  unfold Wd4; exact Pipeline.withArrays_arr spec1 launch1.win.arr_inj c _ _ w
theorem Wd4_of_ne (c : Dev nD) (b : Ref sig .tc) (hb : ∀ w, Pipeline.arrRef spec1 w ≠ b) :
    Wd4 m ρ c (Proc.devRef .tc b) = Wd3 m ρ c (Proc.devRef .tc b) := by
  unfold Wd4; exact Pipeline.withArrays_of_ne spec1 c _ _ b hb
abbrev Ex4 : (c : Dev nD) → (b : Ref sig .tc) → Buf (Elt F) ((c : Thread nD τ).loc b) := fun c b => Wd4 m ρ c b
theorem hF1 (c : Dev nD) (w : Fin cfg1.W) : (dat1 (En3 m ρ) c).arrAt w cfg1.N = Ex4 m ρ c (Pipeline.arrRef spec1 w) :=
  (Wd4_arr m ρ c w).symm
theorem hrest1 (c : Dev nD) : ∀ b, b ∉ Finset.univ.image (Pipeline.arrRef spec1) → Ex4 m ρ c b = En3 m ρ c b :=
  fun b hb => Wd4_of_ne m ρ c b fun w e => hb (Finset.mem_image.mpr ⟨w, Finset.mem_univ _, e⟩)
/-- Any buffer other than the launch's output array is as entered: an input array by the fold's input clause, the rest
    by the line above. -/
theorem Wd4_keep (c : Dev nD) (b : Ref sig .tc) (h : b ≠ main_v42) :
    Wd4 m ρ c (Proc.devRef .tc b) = Wd3 m ρ c (Proc.devRef .tc b) := by
  by_cases hb : ∃ w, Pipeline.arrRef spec1 w = b
  · obtain ⟨w, rfl⟩ := hb
    have hin : (cfg1.win w).isOut = false :=
      (by decide : ∀ w : Fin 7, Pipeline.arrRef spec1 w ≠ main_v42 → (win1 w).isOut = false) w h
    exact (Wd4_arr m ρ c w).trans (((dat1 (En3 m ρ) c).arrAt_in w hin _).trans (A_eq1 (En3 m ρ) c w))
  · exact Wd4_of_ne m ρ c b fun w e => hb ⟨w, e⟩

/-- After the third host stretch. -/
abbrev Wd5 : Dev nD → Valuation τ sig (Elt F) := fun c => StableHlo.after hostOps2 (Wd4 m ρ c)
abbrev En5 : (c : Dev nD) → (b : Ref sig .tc) → Buf (Elt F) ((c : Thread nD τ).loc b) := fun c b => Wd5 m ρ c b
/-- On leaving launch 2: its arrays at what its write-backs leave (an input as entered, the output the fold of the blocks
    written back), every other buffer as entered. -/
def Wd6 (c : Dev nD) : Valuation τ sig (Elt F) :=
  Pipeline.withArrays spec2 c (Wd5 m ρ c) fun w => (dat2 (En5 m ρ) c).arrAt w cfg2.N
theorem Wd6_arr (c : Dev nD) (w : Fin cfg2.W) :
    Wd6 m ρ c (Proc.devRef .tc (Pipeline.arrRef spec2 w)) = (dat2 (En5 m ρ) c).arrAt w cfg2.N := by
  unfold Wd6; exact Pipeline.withArrays_arr spec2 launch2.win.arr_inj c _ _ w
theorem Wd6_of_ne (c : Dev nD) (b : Ref sig .tc) (hb : ∀ w, Pipeline.arrRef spec2 w ≠ b) :
    Wd6 m ρ c (Proc.devRef .tc b) = Wd5 m ρ c (Proc.devRef .tc b) := by
  unfold Wd6; exact Pipeline.withArrays_of_ne spec2 c _ _ b hb
abbrev Ex6 : (c : Dev nD) → (b : Ref sig .tc) → Buf (Elt F) ((c : Thread nD τ).loc b) := fun c b => Wd6 m ρ c b
theorem hF2 (c : Dev nD) (w : Fin cfg2.W) : (dat2 (En5 m ρ) c).arrAt w cfg2.N = Ex6 m ρ c (Pipeline.arrRef spec2 w) :=
  (Wd6_arr m ρ c w).symm
theorem hrest2 (c : Dev nD) : ∀ b, b ∉ Finset.univ.image (Pipeline.arrRef spec2) → Ex6 m ρ c b = En5 m ρ c b :=
  fun b hb => Wd6_of_ne m ρ c b fun w e => hb (Finset.mem_image.mpr ⟨w, Finset.mem_univ _, e⟩)
/-- Any buffer other than the launch's output array is as entered: an input array by the fold's input clause, the rest
    by the line above. -/
theorem Wd6_keep (c : Dev nD) (b : Ref sig .tc) (h : b ≠ main_v64) :
    Wd6 m ρ c (Proc.devRef .tc b) = Wd5 m ρ c (Proc.devRef .tc b) := by
  by_cases hb : ∃ w, Pipeline.arrRef spec2 w = b
  · obtain ⟨w, rfl⟩ := hb
    have hin : (cfg2.win w).isOut = false :=
      (by decide : ∀ w : Fin 7, Pipeline.arrRef spec2 w ≠ main_v64 → (win2 w).isOut = false) w h
    exact (Wd6_arr m ρ c w).trans (((dat2 (En5 m ρ) c).arrAt_in w hin _).trans (A_eq2 (En5 m ρ) c w))
  · exact Wd6_of_ne m ρ c b fun w e => hb ⟨w, e⟩

/-! ## A buffer no host operation writes and no launch outputs ends as launched -/

theorem Wd6_untouched (c : Dev nD) (b : Ref sig .tc) (h0 : b ∉ hostOps0_W) (h1 : b ∉ hostOps1_W) (h2 : b ∉ hostOps2_W)
    (n0 : b ≠ main_v20) (n1 : b ≠ main_v42) (n2 : b ≠ main_v64) :
    Wd6 m ρ c (Proc.devRef .tc b) = m ((c : Thread nD τ).loc b) :=
  calc Wd6 m ρ c (Proc.devRef .tc b)
    _ = Wd5 m ρ c (Proc.devRef .tc b) := Wd6_keep m ρ c b n2
    _ = Wd4 m ρ c (Proc.devRef .tc b) := StableHlo.after_of_writes_sub hostOps2 _ hostOps2_writes h2
    _ = Wd3 m ρ c (Proc.devRef .tc b) := Wd4_keep m ρ c b n1
    _ = Wd2 m ρ c (Proc.devRef .tc b) := StableHlo.after_of_writes_sub hostOps1 _ hostOps1_writes h1
    _ = Wd1 m ρ c (Proc.devRef .tc b) := Wd2_keep m ρ c b n0
    _ = Wd0 m ρ c (Proc.devRef .tc b) := StableHlo.after_of_writes_sub hostOps0 _ hostOps0_writes h0
    _ = m ((c : Thread nD τ).loc b) := rfl

/-! ## The proof data family and the thread state -/

abbrev admF : (p : Fin 3) → (pcfgs (F := F) p).Adm := fun p => (cfgs p).toPCfg_adm
/-- Each launch's proof data at its entry contents. -/
def pdats : (p : Fin 3) → (c : Dev nD) → Dat τ (Elt F) Unit ℕ (UR sig nD τ) ℕ (Pipeline.pin (pcfgs (F := F)) admF p) c
  | ⟨0, _⟩ => fun c => dat0 (En1 m ρ) c
  | ⟨1, _⟩ => fun c => dat1 (En3 m ρ) c
  | ⟨2, _⟩ => fun c => dat2 (En5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd6 m ρ c) ∗ ∃ r, prngReg c r)

/-! ## The launches as items -/

set_option backward.isDefEq.respectTransparency.types false in
/-- Launch 0 over the thread state: entered with every unscoped buffer at `Wd1`, left at `Wd2`. Its arrays are split
    out of the unscoped buffers and put back at the exit contents; the generator register goes into the launch's invariant and
    comes back; nothing is owed; the kernel has no semaphore of its own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (Wd1 m ρ c) ∗ R c)
  post c := iprop(StableHlo.held (c : Thread nD τ) (Pipeline.ucRefs τ sig) (Wd2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `Wd3`, left at `Wd4`. Its arrays are split
    out of the unscoped buffers and put back at the exit contents; the generator register goes into the launch's invariant and
    comes back; nothing is owed; the kernel has no semaphore of its own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Wd3 m ρ c) ∗ R c)
  post c := iprop(StableHlo.held (c : Thread nD τ) (Pipeline.ucRefs τ sig) (Wd4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `Wd5`, left at `Wd6`. Its arrays are split
    out of the unscoped buffers and put back at the exit contents; the generator register goes into the launch's invariant and
    comes back; nothing is owed; the kernel has no semaphore of its own. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Wd5 m ρ c) ∗ R c)
  post c := iprop(StableHlo.held (c : Thread nD τ) (Pipeline.ucRefs τ sig) (Wd6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

abbrev segsF : List (Pipeline.Seg (pcfgs (F := F)) admF (pdats m ρ) () defs₀ 𝒱₀ L lv) :=
  [ .host (hseg hostOps0 hostOps0_sub hostOps0_fresh (Wd0 m ρ)),
    .region (reg0 m ρ),
    .host (hseg hostOps1 hostOps1_sub hostOps1_fresh (Wd2 m ρ)),
    .region (reg1 m ρ),
    .host (hseg hostOps2 hostOps2_sub hostOps2_fresh (Wd4 m ρ)),
    .region (reg2 m ρ) ]
theorem main_run (c : Dev nD) : main (F := F) c = Pipeline.Seg.run (segsF m ρ) := (main_chain c).trans (by chain_rfl)

set_option backward.isDefEq.respectTransparency.types false in
/-- Every weakly fair execution of the program from memory `m` with zero counters terminates, nothing faulting, and in the
    final memory every unscoped buffer of every core holds the last boundary's contents `Wd6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd6 m ρ c b) :=
  Pipeline.θ_run_regions_kit (pcfgs (F := F)) admF (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (Wd6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd6 m ρ c) s')
      isplitl [Hh] <;> iassumption)
    (hQ := fun s h c => h c)

/-- An argument array, or any buffer no host operation writes and no launch outputs, ends as launched. -/
theorem keeps_of (mem : (ℓ : Loc nD τ sig) → Buf (Elt F) ℓ)
    (h : ∀ c : Dev nD, ∀ b ∈ Pipeline.ucRefs τ sig, mem (((c : Thread nD τ)).1, b) = Wd6 m ρ c b)
    (c : Dev nD) (b : Ref sig .tc) (hs : ¬ (Proc.devRef .tc b : DevRef τ sig).isScoped)
    (h0 : b ∉ hostOps0_W) (h1 : b ∉ hostOps1_W) (h2 : b ∉ hostOps2_W) (n0 : b ≠ main_v20) (n1 : b ≠ main_v42) (n2 : b ≠ main_v64) :
    mem ((c.tc : Thread nD τ).loc b) = m ((c.tc : Thread nD τ).loc b) :=
  (h c _ (mem_uc b hs)).trans (Wd6_untouched m ρ c b h0 h1 h2 n0 n1 n2)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨keeps_of m ρ r.2.mem h c main_arg0 (by decide) (by decide) (by decide) (by decide) (by decide) (by decide) (by decide),
      keeps_of m ρ r.2.mem h c main_arg1 (by decide) (by decide) (by decide) (by decide) (by decide) (by decide) (by decide),
      keeps_of m ρ r.2.mem h c main_arg2 (by decide) (by decide) (by decide) (by decide) (by decide) (by decide) (by decide),
      keeps_of m ρ r.2.mem h c main_arg3 (by decide) (by decide) (by decide) (by decide) (by decide) (by decide) (by decide),
      keeps_of m ρ r.2.mem h c main_arg4 (by decide) (by decide) (by decide) (by decide) (by decide) (by decide) (by decide),
      keeps_of m ρ r.2.mem h c main_arg5 (by decide) (by decide) (by decide) (by decide) (by decide) (by decide) (by decide),
      keeps_of m ρ r.2.mem h c main_arg6 (by decide) (by decide) (by decide) (by decide) (by decide) (by decide) (by decide),
      keeps_of m ρ r.2.mem h c main_arg7 (by decide) (by decide) (by decide) (by decide) (by decide) (by decide) (by decide),
      keeps_of m ρ r.2.mem h c main_arg8 (by decide) (by decide) (by decide) (by decide) (by decide) (by decide) (by decide),
      keeps_of m ρ r.2.mem h c main_arg9 (by decide) (by decide) (by decide) (by decide) (by decide) (by decide) (by decide),
      keeps_of m ρ r.2.mem h c main_arg10 (by decide) (by decide) (by decide) (by decide) (by decide) (by decide) (by decide),
      keeps_of m ρ r.2.mem h c main_arg11 (by decide) (by decide) (by decide) (by decide) (by decide) (by decide) (by decide),
      keeps_of m ρ r.2.mem h c main_arg12 (by decide) (by decide) (by decide) (by decide) (by decide) (by decide) (by decide),
      keeps_of m ρ r.2.mem h c main_arg13 (by decide) (by decide) (by decide) (by decide) (by decide) (by decide) (by decide),
      keeps_of m ρ r.2.mem h c main_arg14 (by decide) (by decide) (by decide) (by decide) (by decide) (by decide) (by decide),
      keeps_of m ρ r.2.mem h c main_arg15 (by decide) (by decide) (by decide) (by decide) (by decide) (by decide) (by decide)⟩)
    (run_all m ρ)

/-- What the result array holds at the end: the fold of the blocks the last launch wrote back. -/
theorem result_of (mem : (ℓ : Loc nD τ sig) → Buf (Elt F) ℓ)
    (h : ∀ c : Dev nD, ∀ b ∈ Pipeline.ucRefs τ sig, mem (((c : Thread nD τ)).1, b) = Wd6 m ρ c b) (c : Dev nD) :
    mem ((c.tc : Thread nD τ).loc main_v64) = (dat2 (En5 m ρ) c).arrAt 6 cfg2.N :=
  (h c _ (mem_uc main_v64 (by decide))).trans (Wd6_arr m ρ c 6)

end Cert.KernelIdeal.Fr

end
-- ==== Proof.Spec.lean ====
/-
  The mathematics of one GraphSAGE layer on the extended reals, stated once for both programs.

  A layer's dense stage takes, for each target row `r`: the sum `agg r ·` of its neighbours' feature rows, the number
  `cnt r` of those neighbours, the row's own features `x r ·`, two weight matrices and a bias. With
  `invCount s = 1 / max s 1` it returns, at column `q`,

      (Σₖ (agg r k · invCount (cnt r)) · wl k q)  +  (Σₖ x r k · wr k q)  +  b q          (`lin`)

  clamped below at zero (`relu`) in the first two layers; in the last layer each row is then turned into
  log-probabilities (`logsm`): with `mx` the row's maximum, `z q − mx − log Σ exp (z q' − mx)`.

  One program multiplies the neighbour sum by the reciprocal of the clamped count, the other divides by the clamped
  count; since the clamped count is at least one, hence not zero, the extended reals' division is the product with the
  inverse and the two agree (`div_count`), at infinite sums too.
-/
import Idealize.ShloMosaic.PureOps.Ideal
import Idealize.ShloMosaic.Lib.ValueIdx

noncomputable section

open scoped BigOperators

namespace Cert.Sage

open Idealize.ShloMosaic Idealize.ShloMosaic.ValueIdx

/-- The float literals the programs spell, as the extended reals their patterns denote: `0.0`, `1.0`, `-inf`. -/
abbrev ZERO : EReal := Ideal.ofBits .f32 0x00000000#32
abbrev ONE : EReal := Ideal.ofBits .f32 0x3F800000#32
abbrev NEGINF : EReal := Ideal.ofBits .f32 0xFF800000#32

theorem one_eq : ONE = 1 := by
  simp [Ideal.ofBits, Ideal.ieee, -EReal.coe_mul]; norm_num

/-- The reciprocal of a neighbour count clamped below at one. -/
def invCount (s : EReal) : EReal := Ideal.div ONE (max s ONE)

/-- Dividing by the clamped count is multiplying by its reciprocal: the clamped count is at least one, so not zero, and
    both sides are the product with its inverse. -/
theorem div_count (a s : EReal) : Ideal.div a (max s ONE) = a * invCount s := by
  have hpos : (0 : EReal) < max s ONE := lt_of_lt_of_le (by rw [one_eq]; exact zero_lt_one) (le_max_right s ONE)
  unfold invCount Ideal.div
  rw [if_neg hpos.ne', if_neg hpos.ne', one_eq, one_mul]

/-- One entry of a dense stage before its activation: the row's scaled neighbour sum against a column of the left
    weights, plus the row's own features against the same column of the right weights, plus the bias entry. -/
def lin {d : Nat} (aggRow : Fin d → EReal) (inv : EReal) (xRow wlCol wrCol : Fin d → EReal) (b : EReal) : EReal :=
  ((∑ k : Fin d, (aggRow k * inv) * wlCol k) + ∑ k : Fin d, xRow k * wrCol k) + b

/-- `lin` of entrywise equal rows, columns and scalars. -/
theorem lin_congr {d : Nat} {a a' : Fin d → EReal} {i i' : EReal} {x x' wl wl' wr wr' : Fin d → EReal} {b b' : EReal}
    (ha : ∀ k, a k = a' k) (hi : i = i') (hx : ∀ k, x k = x' k) (hl : ∀ k, wl k = wl' k) (hr : ∀ k, wr k = wr' k)
    (hb : b = b') : lin a i x wl wr b = lin a' i' x' wl' wr' b' := by
  have e1 := funext ha; have e2 := funext hx; have e3 := funext hl; have e4 := funext hr
  subst e1 e2 e3 e4 hi hb; rfl

/-- Clamping below at zero. -/
def relu (z : EReal) : EReal := max z ZERO

/-- A row's log-probabilities: subtract the row's maximum, then the logarithm of the sum of the exponentials. -/
def logsm {e : Nat} (z : Fin e → EReal) (q : Fin e) : EReal :=
  (z q - max NEGINF ((Finset.univ : Finset (Fin e)).fold max NEGINF z))
    - Ideal.log (∑ q' : Fin e, Ideal.exp (z q' - max NEGINF ((Finset.univ : Finset (Fin e)).fold max NEGINF z)))

/-! ## The three dense stages as whole-array functions

  `agg`: neighbour sums, `cnt`: neighbour counts, `x`: the previous activations (all their rows; a stage reads the
  first rows only), `wl`, `wr`, `b`: the layer's parameters. -/

/-- First stage: 200000 target rows of 100 features into 256. -/
def stage0 (agg : (⟨2, ![200000, 100]⟩ : Shape).Idx → EReal) (cnt : (⟨1, ![200000]⟩ : Shape).Idx → EReal)
    (x : (⟨2, ![1500000, 100]⟩ : Shape).Idx → EReal) (wl wr : (⟨2, ![100, 256]⟩ : Shape).Idx → EReal)
    (b : (⟨1, ![256]⟩ : Shape).Idx → EReal) : (⟨2, ![200000, 256]⟩ : Shape).Idx → EReal := fun i =>
  relu (lin (fun k : Fin 100 => agg (ix2 (i 0 : Fin 200000) k)) (invCount (cnt (ix1 (i 0 : Fin 200000))))
    (fun k : Fin 100 => x (ix2 (⟨(i 0).val, lt_trans (i 0 : Fin 200000).isLt (by norm_num)⟩ : Fin 1500000) k))
    (fun k : Fin 100 => wl (ix2 k (i 1 : Fin 256))) (fun k : Fin 100 => wr (ix2 k (i 1 : Fin 256))) (b (ix1 (i 1 : Fin 256))))

/-- Second stage: 20000 target rows of 256 features into 256. -/
def stage1 (agg : (⟨2, ![20000, 256]⟩ : Shape).Idx → EReal) (cnt : (⟨1, ![20000]⟩ : Shape).Idx → EReal)
    (x : (⟨2, ![200000, 256]⟩ : Shape).Idx → EReal) (wl wr : (⟨2, ![256, 256]⟩ : Shape).Idx → EReal)
    (b : (⟨1, ![256]⟩ : Shape).Idx → EReal) : (⟨2, ![20000, 256]⟩ : Shape).Idx → EReal := fun i =>
  relu (lin (fun k : Fin 256 => agg (ix2 (i 0 : Fin 20000) k)) (invCount (cnt (ix1 (i 0 : Fin 20000))))
    (fun k : Fin 256 => x (ix2 (⟨(i 0).val, lt_trans (i 0 : Fin 20000).isLt (by norm_num)⟩ : Fin 200000) k))
    (fun k : Fin 256 => wl (ix2 k (i 1 : Fin 256))) (fun k : Fin 256 => wr (ix2 k (i 1 : Fin 256))) (b (ix1 (i 1 : Fin 256))))

/-- Third stage's affine part: 4096 target rows of 256 features into 47 classes. -/
def logits2 (agg : (⟨2, ![4096, 256]⟩ : Shape).Idx → EReal) (cnt : (⟨1, ![4096]⟩ : Shape).Idx → EReal)
    (x : (⟨2, ![20000, 256]⟩ : Shape).Idx → EReal) (wl wr : (⟨2, ![256, 47]⟩ : Shape).Idx → EReal)
    (b : (⟨1, ![47]⟩ : Shape).Idx → EReal) (r : Fin 4096) (q : Fin 47) : EReal :=
  lin (fun k : Fin 256 => agg (ix2 r k)) (invCount (cnt (ix1 r)))
    (fun k : Fin 256 => x (ix2 (⟨r.val, lt_trans r.isLt (by norm_num)⟩ : Fin 20000) k))
    (fun k : Fin 256 => wl (ix2 k q)) (fun k : Fin 256 => wr (ix2 k q)) (b (ix1 q))

/-- Third stage: each row's log-probabilities over the 47 classes. -/
def stage2 (agg : (⟨2, ![4096, 256]⟩ : Shape).Idx → EReal) (cnt : (⟨1, ![4096]⟩ : Shape).Idx → EReal)
    (x : (⟨2, ![20000, 256]⟩ : Shape).Idx → EReal) (wl wr : (⟨2, ![256, 47]⟩ : Shape).Idx → EReal)
    (b : (⟨1, ![47]⟩ : Shape).Idx → EReal) : (⟨2, ![4096, 47]⟩ : Shape).Idx → EReal := fun i =>
  logsm (fun q' : Fin 47 => logits2 agg cnt x wl wr b (i 0 : Fin 4096) q') (i 1 : Fin 47)

end Cert.Sage

end
-- ==== Proof.Payload0.lean ====
/-
  The first dense stage's body arithmetic, read at one entry (row `p` of the 4000-row block, column `q`): the two
  matrix products are plain sums over the 100 contracted features, the count's reciprocal is one column broadcast along
  the row, the bias one row broadcast down the block, and the changes of float format are the identity. So the entry is
  `relu (lin …)` of the block's row `p` and the weights' column `q`.
-/
import proofs.«137751_j8186207666616_2_alg».proof.Proof.Gen.KernelIdeal.Skeleton
import proofs.«137751_j8186207666616_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Payload

open Cert.KernelIdeal Cert.KernelIdeal.Gen Cert.Sage
open Idealize.ShloMosaic Idealize.ShloMosaic.ValueIdx

/-- A column `[4000, 1]` broadcast along each row reads, at `(p, k)`, the column's entry `p`. -/
theorem bcastCol0 (v : FVec Ideal S4000x1 .f32) (h : S4000x1.Broadcasts S4000x100) (p : Fin 4000) (k : Fin 100) :
    broadcastTo S4000x100 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem lhs0_0 (i : S4000x256.Idx) (q : dot_S4000x100_S100x256_S4000x256_1_0_0_1_n_n.contr.Idx) :
    (dot_S4000x100_S100x256_S4000x256_1_0_0_1_n_n.lhsIdx i q 0).val = (i 0).val := by
  unfold DotDims.lhsIdx
  rw [dif_neg (show ¬(0 : Fin S4000x100.rank) ∈ dot_S4000x100_S100x256_S4000x256_1_0_0_1_n_n.lhsBatch by decide), dif_pos (show (0 : Fin S4000x100.rank) ∈ dot_S4000x100_S100x256_S4000x256_1_0_0_1_n_n.lhsNonContracting by decide)]
  rfl
theorem rhs0_1 (i : S4000x256.Idx) (q : dot_S4000x100_S100x256_S4000x256_1_0_0_1_n_n.contr.Idx) :
    (dot_S4000x100_S100x256_S4000x256_1_0_0_1_n_n.rhsIdx i q 1).val = (i 1).val := by
  unfold DotDims.rhsIdx
  rw [dif_neg (show ¬(1 : Fin S100x256.rank) ∈ dot_S4000x100_S100x256_S4000x256_1_0_0_1_n_n.rhsBatch by decide), dif_pos (show (1 : Fin S100x256.rank) ∈ dot_S4000x100_S100x256_S4000x256_1_0_0_1_n_n.rhsNonContracting by decide)]
  rfl

/-- The block's matrix product into a zero accumulator, at `(p, q)`: the sum over the contracted feature `k`. -/
theorem mm0 {φ₁ φ₂ : FTy} (l : FVec Ideal S4000x100 φ₁) (r : FVec Ideal S100x256 φ₂) (p : Fin 4000) (q : Fin 256) :
    matmul dot_S4000x100_S100x256_S4000x256_1_0_0_1_n_n none l r (constant S4000x256 .f32 0x00000000#32) (ix2 p q)
      = ∑ k : Fin 100, l (ix2 p k) * r (ix2 k q) := by
  refine (Ideal.matmul_constant_zero_apply dot_S4000x100_S100x256_S4000x256_1_0_0_1_n_n none l r (ix2 p q)).trans ?_
  rw [← Equiv.sum_comp (ValueIdx.contrEquiv1 dot_S4000x100_S100x256_S4000x256_1_0_0_1_n_n 100 rfl rfl).symm]
  refine Finset.sum_congr rfl fun k _ => ?_
  have hk := ValueIdx.contrEquiv1_symm_val dot_S4000x100_S100x256_S4000x256_1_0_0_1_n_n 100 rfl rfl k
  have el : dot_S4000x100_S100x256_S4000x256_1_0_0_1_n_n.lhsIdx (ix2 p q) ((ValueIdx.contrEquiv1 dot_S4000x100_S100x256_S4000x256_1_0_0_1_n_n 100 rfl rfl).symm k) = ix2 p k := funext fun a => Fin.ext (by
    match a with
    | ⟨0, _⟩ => exact lhs0_0 _ _
    | ⟨1, _⟩ => exact (dot_S4000x100_S100x256_S4000x256_1_0_0_1_n_n.lhsIdx_val_of_single rfl _ _).trans hk)
  have er : dot_S4000x100_S100x256_S4000x256_1_0_0_1_n_n.rhsIdx (ix2 p q) ((ValueIdx.contrEquiv1 dot_S4000x100_S100x256_S4000x256_1_0_0_1_n_n 100 rfl rfl).symm k) = ix2 k q := funext fun a => Fin.ext (by
    match a with
    | ⟨0, _⟩ => exact (dot_S4000x100_S100x256_S4000x256_1_0_0_1_n_n.rhsIdx_val_of_single rfl _ _).trans hk
    | ⟨1, _⟩ => exact rhs0_1 _ _)
  rw [el, er]

/-- The body's arithmetic at `(p, q)`. -/
theorem pay0_apply (x0 : FVec Ideal S4000x100 .f32) (x1 : FVec Ideal S4000x1 .f32) (x2 : FVec Ideal S4000x100 .f32)
    (x3 x4 : FVec Ideal S100x256 .f32) (x5 : FVec Ideal S1x256 .f32) (p : Fin 4000) (q : Fin 256) :
    k0_pay1 (F := Ideal) x0 x1 x2 x3 x4 x5 (ix2 p q)
      = relu (lin (fun k : Fin 100 => x0 (ix2 p k)) (x1 (ix2 p (0 : Fin 1))) (fun k : Fin 100 => x2 (ix2 p k))
          (fun k : Fin 100 => x3 (ix2 k q)) (fun k : Fin 100 => x4 (ix2 k q)) (x5 (ix2 (0 : Fin 1) q))) := by
  unfold k0_pay1 relu lin
  refine congrArg₂ max (congrArg₂ (· + ·) (congrArg₂ (· + ·) ?_ ?_) ?_) rfl
  · refine (mm0 _ _ p q).trans (Finset.sum_congr rfl fun k _ => ?_)
    refine congrArg₂ (· * ·) ?_ rfl
    show shapeCast S4000x100 x0 shapeCasts_S4000x100_S4000x100 (ix2 p k)
        * broadcastTo S4000x100 (shapeCast S4000x1 x1 shapeCasts_S4000x1_S4000x1) broadcasts_S4000x1_S4000x100 (ix2 p k)
      = x0 (ix2 p k) * x1 (ix2 p (0 : Fin 1))
    refine congrArg₂ (· * ·) ?_ ?_
    · exact congrFun (shapeCast_self x0 _) (ix2 p k)
    · refine (bcastCol0 _ _ p k).trans ?_
      exact congrFun (shapeCast_self x1 _) (ix2 p (0 : Fin 1))
  · exact mm0 _ _ p q
  · refine (broadcastTo_1b_ab_apply _ _ p q).trans ?_
    exact congrFun (shapeCast_self x5 _) (ix2 (0 : Fin 1) q)

end Cert.Sage.Payload

end
-- ==== Proof.Value0.lean ====
/-
  What the first dense stage's launch leaves in its output array, as one function of the arrays it finds: grid point `t`
  writes back rows 4000·t ‥ 4000·t+3999, each entry `relu (lin …)` of that row of the neighbour sums, the row's count
  reciprocal, that row of the features, and the weights' column; the fifty blocks tile the 200000 rows, so the whole array
  is that function.
-/
import proofs.«137751_j8186207666616_2_alg».proof.Proof.FrameStage0
import proofs.«137751_j8186207666616_2_alg».proof.Proof.Payload0
import Idealize.ShloMosaic.Lib.Pipeline.Value

set_option maxRecDepth 16384

noncomputable section

open scoped BigOperators

namespace Cert.KernelIdeal.Val

open Cert.KernelIdeal Cert.KernelIdeal.Gen Cert.KernelIdeal.Fr Cert.Sage Cert.Sage.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row-blocked windows are at block `t`, the parameters at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The output array after the launch, entry by entry. -/
def out0 (c : Dev nD) : S200000x256.Idx → EReal := fun i =>
  relu (lin (fun k : Fin 100 => (V c main_v9 : S200000x100.Idx → EReal) (ix2 (i 0 : Fin 200000) k))
    ((V c main_v18 : S200000x1.Idx → EReal) (ix2 (i 0 : Fin 200000) (0 : Fin 1)))
    (fun k : Fin 100 => (V c main_arg0 : S1500000x100.Idx → EReal) (ix2 (⟨(i 0).val, lt_trans (i 0 : Fin 200000).isLt (by norm_num)⟩ : Fin 1500000) k))
    (fun k : Fin 100 => (V c main_arg7 : S100x256.Idx → EReal) (ix2 k (i 1 : Fin 256)))
    (fun k : Fin 100 => (V c main_arg8 : S100x256.Idx → EReal) (ix2 k (i 1 : Fin 256)))
    ((V c main_v19 : S1x256.Idx → EReal) (ix2 (0 : Fin 1) (i 1 : Fin 256))))

/-- What point `t` writes back is block `t` of `out0`. -/
theorem flushed0_eq (c : Dev nD) (t : Fin cfg0.N) :
    (dat0 V c).flushed 6 t = ((cfg0.win 6).blk t).view.read (Elt Ideal) (out0 V c) := by
  show (cfg0.win 6).cut (grid0.coords t) ((dat0 V c).after 6 t) = _
  rw [after0_6]
  unfold rowblock0
  rw [View.canon_unit_zero hz]
  simp only [View.ld_unit_zero (S := S4000x100) hz, View.ld_unit_zero (S := S4000x1) hz, View.ld_unit_zero (S := S100x256) hz, View.ld_unit_zero (S := S1x256) hz]
  obtain ⟨e00, e01, e10, e11, e20, e21, e30, e31, e40, e41, e50, e51, e60, e61⟩ := idx_facts0 t
  refine funext fun (j : S4000x256.Idx) => ?_
  obtain ⟨p, q, rfl⟩ : ∃ (p : Fin 4000) (q : Fin 256), j = ix2 p q := ⟨j 0, j 1, eq_ix2 j⟩
  refine (pay0_apply _ _ _ _ _ _ p q).trans ?_
  show _ = out0 V c (((cfg0.win 6).blk t).view.emb (ix2 p q))
  unfold out0
  refine congrArg relu (lin_congr (fun k => ?_) ?_ (fun k => ?_) (fun k => ?_) (fun k => ?_) ?_)
  · show V c main_v9 (((cfg0.win 0).blk t).view.emb (ix2 p k)) = _
    refine congrArg (V c main_v9 : S200000x100.Idx → EReal) (funext fun a => Fin.ext ?_)
    match a with
    | ⟨0, _⟩ => show win0_0.index t (0 : Fin 2) * 4000 + 1 * p.val = win0_6.index t (0 : Fin 2) * 4000 + 1 * p.val; omega
    | ⟨1, _⟩ => show win0_0.index t (1 : Fin 2) * 100 + 1 * k.val = k.val; omega
  · show V c main_v18 (((cfg0.win 1).blk t).view.emb (ix2 p (0 : Fin 1))) = _
    refine congrArg (V c main_v18 : S200000x1.Idx → EReal) (funext fun a => Fin.ext ?_)
    match a with
    | ⟨0, _⟩ => show win0_1.index t (0 : Fin 2) * 4000 + 1 * p.val = win0_6.index t (0 : Fin 2) * 4000 + 1 * p.val; omega
    | ⟨1, _⟩ => show win0_1.index t (1 : Fin 2) * 1 + 1 * 0 = 0; omega
  · show V c main_arg0 (((cfg0.win 2).blk t).view.emb (ix2 p k)) = _
    refine congrArg (V c main_arg0 : S1500000x100.Idx → EReal) (funext fun a => Fin.ext ?_)
    match a with
    | ⟨0, _⟩ => show win0_2.index t (0 : Fin 2) * 4000 + 1 * p.val = win0_6.index t (0 : Fin 2) * 4000 + 1 * p.val; omega
    | ⟨1, _⟩ => show win0_2.index t (1 : Fin 2) * 100 + 1 * k.val = k.val; omega
  · show V c main_arg7 (((cfg0.win 3).blk t).view.emb (ix2 k q)) = _
    refine congrArg (V c main_arg7 : S100x256.Idx → EReal) (funext fun a => Fin.ext ?_)
    match a with
    | ⟨0, _⟩ => show win0_3.index t (0 : Fin 2) * 100 + 1 * k.val = k.val; omega
    | ⟨1, _⟩ => show win0_3.index t (1 : Fin 2) * 256 + 1 * q.val = win0_6.index t (1 : Fin 2) * 256 + 1 * q.val; omega
  · show V c main_arg8 (((cfg0.win 4).blk t).view.emb (ix2 k q)) = _
    refine congrArg (V c main_arg8 : S100x256.Idx → EReal) (funext fun a => Fin.ext ?_)
    match a with
    | ⟨0, _⟩ => show win0_4.index t (0 : Fin 2) * 100 + 1 * k.val = k.val; omega
    | ⟨1, _⟩ => show win0_4.index t (1 : Fin 2) * 256 + 1 * q.val = win0_6.index t (1 : Fin 2) * 256 + 1 * q.val; omega
  · show V c main_v19 (((cfg0.win 5).blk t).view.emb (ix2 (0 : Fin 1) q)) = _
    refine congrArg (V c main_v19 : S1x256.Idx → EReal) (funext fun a => Fin.ext ?_)
    match a with
    | ⟨0, _⟩ => show win0_5.index t (0 : Fin 2) * 1 + 1 * 0 = 0; omega
    | ⟨1, _⟩ => show win0_5.index t (1 : Fin 2) * 256 + 1 * q.val = win0_6.index t (1 : Fin 2) * 256 + 1 * q.val; omega

/-- An index of the output array is in point `t`'s block iff each coordinate is in the block's range on its axis. -/
theorem mem_blk0 (t : Fin cfg0.N) (i : S200000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v20).slice (win0_6.rect t)).set ↔ _
  rw [View.set_slice_whole, Rect.mem_set_unit]
  exact Iff.rfl

/-- Every index of the output array lies in the block of the point that holds its row. -/
theorem cover0 (i : S200000x256.Idx) : ∃ t : Fin cfg0.N, (cfg0.win 6).flush t = true ∧ i ∈ ((cfg0.win 6).blk t).view.set := by
  have hi0 : (i 0).val < 200000 := idx2_lt0 i
  have hi1 : (i 1).val < 256 := (i 1).isLt
  have hN : cfg0.N = 50 := N_0
  let t : Fin cfg0.N := ⟨(i 0).val / 4000, by rw [hN]; omega⟩
  obtain ⟨-, -, -, -, -, -, -, -, -, -, -, -, e60, e61⟩ := idx_facts0 t
  have ht : t.val = (i 0).val / 4000 := rfl
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- The output array after the launch. -/
theorem final0 (c : Dev nD) : (dat0 V c).arrAt 6 cfg0.N = out0 V c :=
  (dat0 V c).arrAt_eq_of_cover 6 (out0 V c) (fun t _ => flushed0_eq V c t) cover0

end Cert.KernelIdeal.Val

end
-- ==== Proof.RefStage0.lean ====
/-
  The reference's first layer, read entry by entry: its neighbour sums divided by the clamped counts, against the left
  weights; the first 200000 feature rows against the right weights; the bias; clamped at zero. Dividing by the clamped
  count is multiplying by its reciprocal (`div_count`), so this is `stage0` of the neighbour sums, the counts, the
  features and the parameters.
-/
import proofs.«137751_j8186207666616_2_alg».proof.Proof.RefReadP
import proofs.«137751_j8186207666616_2_alg».proof.Proof.Spec

set_option maxRecDepth 16384

noncomputable section

open scoped BigOperators

namespace Cert.Sage.Ref

open Cert.ReferenceIdeal Cert.ReferenceIdeal.ReadP Cert.Sage
open Idealize.ShloMosaic Idealize.ShloMosaic.ValueIdx

theorem ref0 (x0 : (⟨S1500000x100, .f32⟩ : BufTy).Contents (Elt Ideal)) (x1 x2 : (⟨S2000000, .i32⟩ : BufTy).Contents (Elt Ideal))
    (x7 x8 : (⟨S100x256, .f32⟩ : BufTy).Contents (Elt Ideal)) (x9 : (⟨S256, .f32⟩ : BufTy).Contents (Elt Ideal)) :
    val_main_v26 (F := Ideal) x0 x1 x2 x7 x8 x9
      = stage0 (val_main_v10 (F := Ideal) x0 x1 x2) (val_main_v14 (F := Ideal) x2) x0 x7 x8 x9 := by
  funext i
  rw [val_main_v26_apply, val_main_v25_apply, val_main_v22_apply, val_main_v20_apply, val_main_v21_apply, val_main_v24_apply,
    val_main_v23_apply, val_main_call0_v0_apply, val_main_call0_cst_apply]
  unfold stage0 relu lin
  refine congrArg₂ max (congrArg₂ (· + ·) (congrArg₂ (· + ·) (Finset.sum_congr rfl fun k _ => ?_) (Finset.sum_congr rfl fun k _ => ?_)) ?_) rfl
  · have e1 : lidx_main_v20 i k = ix2 (i 0 : Fin 200000) k := funext fun a => by
      match a with
      | ⟨0, _⟩ => rfl
      | ⟨1, _⟩ => rfl
    have e2 : ridx_main_v20 i k = ix2 k (i 1 : Fin 256) := funext fun a => by
      match a with
      | ⟨0, _⟩ => rfl
      | ⟨1, _⟩ => rfl
    have e3 : idx_main_v17 (idx_main_v18 (ix2 (i 0 : Fin 200000) k)) = ix1 (i 0 : Fin 200000) := funext fun a => by
      match a with
      | ⟨0, _⟩ => rfl
    have hc : val_main_v18 (F := Ideal) x2 (ix2 (i 0 : Fin 200000) k) = max (val_main_v14 (F := Ideal) x2 (ix1 (i 0 : Fin 200000))) ONE :=
      (val_main_v18_apply x2 _).trans ((val_main_v17_apply x2 _).trans ((val_main_v16_apply x2 _).trans
        (congrArg₂ max (congrArg (val_main_v14 (F := Ideal) x2) e3) ((val_main_v15_apply _).trans rfl))))
    refine congrArg₂ (· * ·) ?_ (congrArg x7 e2)
    refine (congrArg (val_main_v19 (F := Ideal) x0 x1 x2) e1).trans ?_
    exact (val_main_v19_apply x0 x1 x2 _).trans
      ((congrArg (Ideal.div (val_main_v10 (F := Ideal) x0 x1 x2 (ix2 (i 0 : Fin 200000) k))) hc).trans (div_count _ _))
  · have e1 : idx_main_v0 (lidx_main_v21 i k) = ix2 (⟨(i 0).val, lt_trans (i 0 : Fin 200000).isLt (by norm_num)⟩ : Fin 1500000) k := funext fun a => by
      match a with
      | ⟨0, _⟩ => rfl
      | ⟨1, _⟩ => rfl
    have e2 : ridx_main_v21 i k = ix2 k (i 1 : Fin 256) := funext fun a => by
      match a with
      | ⟨0, _⟩ => rfl
      | ⟨1, _⟩ => rfl
    exact congrArg₂ (· * ·) ((val_main_v0_apply x0 _).trans (congrArg x0 e1)) (congrArg x8 e2)
  · have e1 : idx_main_v23 (idx_main_v24 i) = ix1 (i 1 : Fin 256) := funext fun a => by
      match a with
      | ⟨0, _⟩ => rfl
    exact congrArg x9 e1

end Cert.Sage.Ref

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.InvColumn.lean ====
/-
  The count column every stage's launch reads. The host prepares, from the neighbour counts `cnt`, the vector
  `1 / max(cnt, 1)` and recasts it as a one-column matrix; read at `(r, 0)` this is `invCount (cnt r)`.
-/
import proofs.«137751_j8186207666616_2_alg».proof.Proof.Spec
import proofs.«137751_j8186207666616_2_alg».proof.Proof.LibColumns
import Idealize.ShloMosaic.PureOps.Ideal.Laws

noncomputable section

namespace Cert.Sage.Layout

open Cert.Sage
open Idealize.ShloMosaic Idealize.ShloMosaic.ValueIdx

/-- The column of reciprocals of the clamped counts, read at row `r`. -/
theorem invColumn_apply {n : ℕ} (cnt : FVec Ideal (⟨1, ![n]⟩ : Shape) .f32)
    (dims : Fin (⟨0, ![]⟩ : Shape).rank → Fin (⟨1, ![n]⟩ : Shape).rank)
    (hb : (⟨0, ![]⟩ : Shape).BroadcastsInDim (⟨1, ![n]⟩ : Shape) dims)
    (hc : (⟨1, ![n]⟩ : Shape).ShapeCasts ⟨2, ![n, 1]⟩) (r : Fin n) :
    shapeCast ⟨2, ![n, 1]⟩
        (Host.divf (F := Ideal) (broadcastInDim (⟨1, ![n]⟩ : Shape) dims hb (constant (F := Ideal) (⟨0, ![]⟩ : Shape) .f32 0x3F800000#32))
          (maximumf cnt (broadcastInDim (⟨1, ![n]⟩ : Shape) dims hb (constant (F := Ideal) (⟨0, ![]⟩ : Shape) .f32 0x3F800000#32))))
        hc (ix2 r (0 : Fin 1))
      = invCount (cnt (ix1 r)) := by
  have hone : broadcastInDim (⟨1, ![n]⟩ : Shape) dims hb (constant (F := Ideal) (⟨0, ![]⟩ : Shape) .f32 0x3F800000#32) (ix1 r) = ONE :=
    broadcastInDim_scalar_apply dims hb _ (ix1 r)
  refine (shapeCast_n_n1_apply _ hc r).trans ?_
  unfold invCount
  exact (Ideal.hostDivf_def _ _).trans (congrArg₂ Ideal.div hone (congrArg (max (cnt (ix1 r))) hone))

end Cert.Sage.Layout

end
-- ==== Proof.Bridge0.lean ====
/-
  The first layer on the kernel's side equals the reference's first layer. What the host operations before the first
  launch leave in the launch's arrays, read as the launch reads them: the neighbour sums are the reference's gather and
  scatter-add of the same arguments; the count column holds, in row `r`, the reciprocal of the clamped count; the bias row
  holds the bias; the features and weights are the arguments themselves. So the launch's output array is `stage0` of the
  same arrays as the reference's layer.
-/
import proofs.«137751_j8186207666616_2_alg».proof.Proof.FrameRun
import proofs.«137751_j8186207666616_2_alg».proof.Proof.Value0
import proofs.«137751_j8186207666616_2_alg».proof.Proof.RefStage0
import proofs.«137751_j8186207666616_2_alg».proof.Proof.InvColumn
import Idealize.ShloMosaic.Lib.ValueLayout
import Idealize.ShloMosaic.Lib.StableHlo.Run

set_option maxRecDepth 16384

noncomputable section

open scoped BigOperators

namespace Cert.KernelIdeal.Bridge

open Cert.KernelIdeal Cert.KernelIdeal.Gen Cert.KernelIdeal.Fr Cert.KernelIdeal.Val Cert.Sage Cert.Sage.Layout Cert.Sage.Ref
open Cert.ReferenceIdeal.ReadP
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Core `c`'s launch contents of a buffer. -/
abbrev ar (c : Dev nD) (b : Ref sig .tc) : Buf (Elt Ideal) ((c.tc : Thread nD τ).loc b) := m ((c.tc : Thread nD τ).loc b)

/-- A buffer the first host stretch does not write holds its launch contents when the first launch is entered. -/
theorem E0_keep (c : Dev nD) (b : Ref sig .tc) (h : b ∉ hostOps0_W) : En1 m ρ c b = ar m c b :=
  StableHlo.after_of_writes_sub hostOps0 _ hostOps0_writes h

/-- The neighbour sums the first launch finds are the reference's. -/
theorem E0_agg (c : Dev nD) :
    (En1 m ρ c main_v9 : S200000x100.Idx → EReal) = val_main_v10 (F := Ideal) (ar m c main_arg0) (ar m c main_arg1) (ar m c main_arg2) := by
  show StableHlo.after hostOps0 (Wd0 m ρ c) (Proc.devRef .tc main_v9) = _
  after_results_simp
  rfl

/-- The count column the first launch finds holds, in row `r`, the reciprocal of the reference's clamped count. -/
theorem E0_cnt_apply (c : Dev nD) (r : Fin 200000) :
    (En1 m ρ c main_v18 : S200000x1.Idx → EReal) (ix2 r (0 : Fin 1)) = invCount (val_main_v14 (F := Ideal) (ar m c main_arg2) (ix1 r)) := by
  have e : (En1 m ρ c main_v18 : S200000x1.Idx → EReal)
      = shapeCast S200000x1 (Host.divf (F := Ideal) (broadcastInDim S200000 ![] bcast_S_S200000 (constant (F := Ideal) S_ .f32 0x3F800000#32))
          (maximumf (val_main_v14 (F := Ideal) (ar m c main_arg2)) (broadcastInDim S200000 ![] bcast_S_S200000 (constant (F := Ideal) S_ .f32 0x3F800000#32))))
          shapeCasts_S200000_S200000x1 := by
    show StableHlo.after hostOps0 (Wd0 m ρ c) (Proc.devRef .tc main_v18) = _
    after_results_simp
    rfl
  exact (congrFun e _).trans (invColumn_apply _ _ _ _ r)

/-- The bias row the first launch finds holds the bias. -/
theorem E0_b_apply (c : Dev nD) (q : Fin 256) :
    (En1 m ρ c main_v19 : S1x256.Idx → EReal) (ix2 (0 : Fin 1) q) = (ar m c main_arg9 : S256.Idx → EReal) (ix1 q) := by
  have e : (En1 m ρ c main_v19 : S1x256.Idx → EReal) = shapeCast S1x256 (ar m c main_arg9 : S256.Idx → EReal) shapeCasts_S256_S1x256 := by
    show StableHlo.after hostOps0 (Wd0 m ρ c) (Proc.devRef .tc main_v19) = _
    after_results_simp
    rfl
  rw [e]
  exact shapeCast_a_1a_apply _ _ 0 q

/-- The first launch's output array is the first layer of the same arrays as the reference's. -/
theorem out0_eq (c : Dev nD) :
    out0 (En1 m ρ) c = stage0 (val_main_v10 (F := Ideal) (ar m c main_arg0) (ar m c main_arg1) (ar m c main_arg2))
      (val_main_v14 (F := Ideal) (ar m c main_arg2)) (ar m c main_arg0) (ar m c main_arg7) (ar m c main_arg8) (ar m c main_arg9) := by
  funext i
  unfold out0 stage0
  refine congrArg relu (lin_congr (fun k => ?_) ?_ (fun k => ?_) (fun k => ?_) (fun k => ?_) ?_)
  · exact congrFun (E0_agg m ρ c) _
  · exact E0_cnt_apply m ρ c _
  · exact congrFun (E0_keep m ρ c main_arg0 (by decide)) _
  · exact congrFun (E0_keep m ρ c main_arg7 (by decide)) _
  · exact congrFun (E0_keep m ρ c main_arg8 (by decide)) _
  · exact E0_b_apply m ρ c _

/-- So after the first launch the activations are the reference's first-layer activations of the same arguments. -/
theorem h0_eq (c : Dev nD) :
    (Wd2 m ρ c main_v20 : S200000x256.Idx → EReal)
      = val_main_v26 (F := Ideal) (ar m c main_arg0) (ar m c main_arg1) (ar m c main_arg2) (ar m c main_arg7) (ar m c main_arg8) (ar m c main_arg9) :=
  ((Wd2_arr m ρ c 6).trans ((final0 (En1 m ρ) c).trans (out0_eq m ρ c))).trans (ref0 _ _ _ _ _ _).symm

/-- After the first launch a buffer that neither the first host stretch nor the launch writes holds its launch contents. -/
theorem Wd2_arg (c : Dev nD) (b : Ref sig .tc) (h0 : b ∉ hostOps0_W) (n0 : b ≠ main_v20) :
    Wd2 m ρ c (Proc.devRef .tc b) = ar m c b :=
  (Wd2_keep m ρ c b n0).trans (E0_keep m ρ c b h0)

end Cert.KernelIdeal.Bridge

end
-- ==== Proof.Payload1.lean ====
/-
  The second dense stage's body arithmetic, read at one entry (row `p` of the 2000-row block, column `q`): the two
  matrix products are plain sums over the 256 contracted features, the count's reciprocal is one column broadcast along
  the row, the bias one row broadcast down the block, and the changes of float format are the identity. So the entry is
  `relu (lin …)` of the block's row `p` and the weights' column `q`.
-/
import proofs.«137751_j8186207666616_2_alg».proof.Proof.Gen.KernelIdeal.Skeleton
import proofs.«137751_j8186207666616_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Payload

open Cert.KernelIdeal Cert.KernelIdeal.Gen Cert.Sage
open Idealize.ShloMosaic Idealize.ShloMosaic.ValueIdx

/-- A column `[2000, 1]` broadcast along each row reads, at `(p, k)`, the column's entry `p`. -/
theorem bcastCol1 (v : FVec Ideal S2000x1 .f32) (h : S2000x1.Broadcasts S2000x256) (p : Fin 2000) (k : Fin 256) :
    broadcastTo S2000x256 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem lhs1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem rhs1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's matrix product into a zero accumulator, at `(p, q)`: the sum over the contracted feature `k`. -/
theorem mm1 {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs1_0 _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (dot_S2000x256_S256x256_S2000x256_1_0_0_1_n_n.rhsIdx_val_of_single rfl _ _).trans hk
    | ⟨1, _⟩ => exact rhs1_1 _ _)
  rw [el, er]

/-- The body's arithmetic at `(p, q)`. -/
theorem pay1_apply (x0 : FVec Ideal S2000x256 .f32) (x1 : FVec Ideal S2000x1 .f32) (x2 : FVec Ideal S2000x256 .bf16)
    (x3 x4 : FVec Ideal S256x256 .f32) (x5 : FVec Ideal S1x256 .f32) (p : Fin 2000) (q : Fin 256) :
    k1_pay1 (F := Ideal) x0 x1 x2 x3 x4 x5 (ix2 p q)
      = relu (lin (fun k : Fin 256 => x0 (ix2 p k)) (x1 (ix2 p (0 : Fin 1))) (fun k : Fin 256 => x2 (ix2 p k))
          (fun k : Fin 256 => x3 (ix2 k q)) (fun k : Fin 256 => x4 (ix2 k q)) (x5 (ix2 (0 : Fin 1) q))) := by
  unfold k1_pay1 relu lin
  refine congrArg₂ max (congrArg₂ (· + ·) (congrArg₂ (· + ·) ?_ ?_) ?_) rfl
  · refine (mm1 _ _ p q).trans (Finset.sum_congr rfl fun k _ => ?_)
    refine congrArg₂ (· * ·) ?_ rfl
    show shapeCast S2000x256 x0 shapeCasts_S2000x256_S2000x256 (ix2 p k)
        * broadcastTo S2000x256 (shapeCast S2000x1 x1 shapeCasts_S2000x1_S2000x1) broadcasts_S2000x1_S2000x256 (ix2 p k)
      = x0 (ix2 p k) * x1 (ix2 p (0 : Fin 1))
    refine congrArg₂ (· * ·) ?_ ?_
    · exact congrFun (shapeCast_self x0 _) (ix2 p k)
    · refine (bcastCol1 _ _ p k).trans ?_
      exact congrFun (shapeCast_self x1 _) (ix2 p (0 : Fin 1))
  · exact (mm1 _ _ p q).trans (Finset.sum_congr rfl fun k _ => congrArg₂ (· * ·) (congrFun (shapeCast_self x2 _) (ix2 p k)) rfl)
  · refine (broadcastTo_1b_ab_apply _ _ p q).trans ?_
    exact congrFun (shapeCast_self x5 _) (ix2 (0 : Fin 1) q)

end Cert.Sage.Payload

end
-- ==== Proof.Value1.lean ====
/-
  What the second dense stage's launch leaves in its output array, as one function of the arrays it finds: grid point `t`
  writes back rows 2000·t ‥ 2000·t+1999, each entry `relu (lin …)` of that row of the neighbour sums, the row's count
  reciprocal, that row of the features, and the weights' column; the ten blocks tile the 20000 rows, so the whole array
  is that function.
-/
import proofs.«137751_j8186207666616_2_alg».proof.Proof.FrameStage1
import proofs.«137751_j8186207666616_2_alg».proof.Proof.Payload1
import proofs.«137751_j8186207666616_2_alg».proof.Proof.Value0
import Idealize.ShloMosaic.Lib.Pipeline.Value

set_option maxRecDepth 16384

noncomputable section

open scoped BigOperators

namespace Cert.KernelIdeal.Val

open Cert.KernelIdeal Cert.KernelIdeal.Gen Cert.KernelIdeal.Fr Cert.Sage Cert.Sage.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed block-index maps over the grid: the row-blocked windows are at block `t`, the parameters at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The output array after the launch, entry by entry. -/
def out1 (c : Dev nD) : S20000x256.Idx → EReal := fun i =>
  relu (lin (fun k : Fin 256 => (V c main_v31 : S20000x256.Idx → EReal) (ix2 (i 0 : Fin 20000) k))
    ((V c main_v40 : S20000x1.Idx → EReal) (ix2 (i 0 : Fin 20000) (0 : Fin 1)))
    (fun k : Fin 256 => (V c main_v20 : S200000x256.Idx → EReal) (ix2 (⟨(i 0).val, lt_trans (i 0 : Fin 20000).isLt (by norm_num)⟩ : Fin 200000) k))
    (fun k : Fin 256 => (V c main_arg10 : S256x256.Idx → EReal) (ix2 k (i 1 : Fin 256)))
    (fun k : Fin 256 => (V c main_arg11 : S256x256.Idx → EReal) (ix2 k (i 1 : Fin 256)))
    ((V c main_v41 : S1x256.Idx → EReal) (ix2 (0 : Fin 1) (i 1 : Fin 256))))

/-- What point `t` writes back is block `t` of `out1`. -/
theorem flushed1_eq (c : Dev nD) (t : Fin cfg1.N) :
    (dat1 V c).flushed 6 t = ((cfg1.win 6).blk t).view.read (Elt Ideal) (out1 V c) := by
  show (cfg1.win 6).cut (grid1.coords t) ((dat1 V c).after 6 t) = _
  rw [after1_6]
  unfold rowblock1
  rw [View.canon_unit_zero hz]
  simp only [View.ld_unit_zero (S := S2000x256) hz, View.ld_unit_zero (S := S2000x1) hz, View.ld_unit_zero (S := S256x256) hz, View.ld_unit_zero (S := S1x256) hz]
  obtain ⟨e00, e01, e10, e11, e20, e21, e30, e31, e40, e41, e50, e51, e60, e61⟩ := idx_facts1 t
  refine funext fun (j : S2000x256.Idx) => ?_
  obtain ⟨p, q, rfl⟩ : ∃ (p : Fin 2000) (q : Fin 256), j = ix2 p q := ⟨j 0, j 1, eq_ix2 j⟩
  refine (pay1_apply _ _ _ _ _ _ p q).trans ?_
  show _ = out1 V c (((cfg1.win 6).blk t).view.emb (ix2 p q))
  unfold out1
  refine congrArg relu (lin_congr (fun k => ?_) ?_ (fun k => ?_) (fun k => ?_) (fun k => ?_) ?_)
  · show V c main_v31 (((cfg1.win 0).blk t).view.emb (ix2 p k)) = _
    refine congrArg (V c main_v31 : S20000x256.Idx → EReal) (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 256 + 1 * k.val = k.val; omega
  · show V c main_v40 (((cfg1.win 1).blk t).view.emb (ix2 p (0 : Fin 1))) = _
    refine congrArg (V c main_v40 : S20000x1.Idx → EReal) (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 1 + 1 * 0 = 0; omega
  · show V c main_v20 (((cfg1.win 2).blk t).view.emb (ix2 p k)) = _
    refine congrArg (V c main_v20 : S200000x256.Idx → EReal) (funext fun a => Fin.ext ?_)
    match a with
    | ⟨0, _⟩ => show win1_2.index t (0 : Fin 2) * 2000 + 1 * p.val = win1_6.index t (0 : Fin 2) * 2000 + 1 * p.val; omega
    | ⟨1, _⟩ => show win1_2.index t (1 : Fin 2) * 256 + 1 * k.val = k.val; omega
  · show V c main_arg10 (((cfg1.win 3).blk t).view.emb (ix2 k q)) = _
    refine congrArg (V c main_arg10 : S256x256.Idx → EReal) (funext fun a => Fin.ext ?_)
    match a with
    | ⟨0, _⟩ => show win1_3.index t (0 : Fin 2) * 256 + 1 * k.val = k.val; omega
    | ⟨1, _⟩ => show win1_3.index t (1 : Fin 2) * 256 + 1 * q.val = win1_6.index t (1 : Fin 2) * 256 + 1 * q.val; omega
  · show V c main_arg11 (((cfg1.win 4).blk t).view.emb (ix2 k q)) = _
    refine congrArg (V c main_arg11 : S256x256.Idx → EReal) (funext fun a => Fin.ext ?_)
    match a with
    | ⟨0, _⟩ => show win1_4.index t (0 : Fin 2) * 256 + 1 * k.val = k.val; omega
    | ⟨1, _⟩ => show win1_4.index t (1 : Fin 2) * 256 + 1 * q.val = win1_6.index t (1 : Fin 2) * 256 + 1 * q.val; omega
  · show V c main_v41 (((cfg1.win 5).blk t).view.emb (ix2 (0 : Fin 1) q)) = _
    refine congrArg (V c main_v41 : S1x256.Idx → EReal) (funext fun a => Fin.ext ?_)
    match a with
    | ⟨0, _⟩ => show win1_5.index t (0 : Fin 2) * 1 + 1 * 0 = 0; omega
    | ⟨1, _⟩ => show win1_5.index t (1 : Fin 2) * 256 + 1 * q.val = win1_6.index t (1 : Fin 2) * 256 + 1 * q.val; omega

/-- An index of the output array is in point `t`'s block iff each coordinate is in the block's range on its axis. -/
theorem mem_blk1 (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v42).slice (win1_6.rect t)).set ↔ _
  rw [View.set_slice_whole, Rect.mem_set_unit]
  exact Iff.rfl

/-- Every index of the output array lies in the block of the point that holds its row. -/
theorem cover1 (i : S20000x256.Idx) : ∃ t : Fin cfg1.N, (cfg1.win 6).flush t = true ∧ i ∈ ((cfg1.win 6).blk t).view.set := by
  have hi0 : (i 0).val < 20000 := idx2_lt0 i
  have hi1 : (i 1).val < 256 := (i 1).isLt
  have hN : cfg1.N = 10 := N_1
  let t : Fin cfg1.N := ⟨(i 0).val / 2000, by rw [hN]; omega⟩
  obtain ⟨-, -, -, -, -, -, -, -, -, -, -, -, e60, e61⟩ := idx_facts1 t
  have ht : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The output array after the launch. -/
theorem final1 (c : Dev nD) : (dat1 V c).arrAt 6 cfg1.N = out1 V c :=
  (dat1 V c).arrAt_eq_of_cover 6 (out1 V c) (fun t _ => flushed1_eq V c t) cover1

end Cert.KernelIdeal.Val

end
-- ==== Proof.RefStage1.lean ====
/-
  The reference's second layer, read entry by entry: the neighbour sums of the first layer's activations divided by the
  clamped counts, against the left weights; the first 20000 activation rows against the right weights; the bias; clamped
  at zero: `stage1` of the neighbour sums, the counts, the first layer's activations and the parameters.
-/
import proofs.«137751_j8186207666616_2_alg».proof.Proof.RefReadP
import proofs.«137751_j8186207666616_2_alg».proof.Proof.Spec

set_option maxRecDepth 16384

noncomputable section

open scoped BigOperators

namespace Cert.Sage.Ref

open Cert.ReferenceIdeal Cert.ReferenceIdeal.ReadP Cert.Sage
open Idealize.ShloMosaic Idealize.ShloMosaic.ValueIdx

theorem ref1 (x0 : (⟨S1500000x100, .f32⟩ : BufTy).Contents (Elt Ideal)) (x1 x2 : (⟨S2000000, .i32⟩ : BufTy).Contents (Elt Ideal))
    (x3 x4 : (⟨S200000, .i32⟩ : BufTy).Contents (Elt Ideal))
    (x7 x8 : (⟨S100x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal)) :
    val_main_v53 (F := Ideal) x0 x1 x2 x3 x4 x7 x8 x9 x10 x11 x12
      = stage1 (val_main_v37 (F := Ideal) x0 x1 x2 x3 x4 x7 x8 x9) (val_main_v41 (F := Ideal) x4)
          (val_main_v26 (F := Ideal) x0 x1 x2 x7 x8 x9) x10 x11 x12 := by
  funext i
  rw [val_main_v53_apply, val_main_v52_apply, val_main_v49_apply, val_main_v47_apply, val_main_v48_apply, val_main_v51_apply,
    val_main_v50_apply, val_main_call1_v0_apply, val_main_call1_cst_apply]
  simp only [val_main_v46_apply, val_main_v45_apply, val_main_v44_apply, val_main_v43_apply, val_main_v42_apply, val_main_v27_apply]
  unfold stage1 relu lin
  refine congrArg₂ max (congrArg₂ (· + ·) (congrArg₂ (· + ·) (Finset.sum_congr rfl fun k _ => ?_) (Finset.sum_congr rfl fun k _ => ?_)) ?_) rfl
  · have e1 : lidx_main_v47 i k = ix2 (i 0 : Fin 20000) k := funext fun a => by
      match a with
      | ⟨0, _⟩ => rfl
      | ⟨1, _⟩ => rfl
    have e2 : ridx_main_v47 i k = ix2 k (i 1 : Fin 256) := funext fun a => by
      match a with
      | ⟨0, _⟩ => rfl
      | ⟨1, _⟩ => rfl
    have e3 : idx_main_v44 (idx_main_v45 (lidx_main_v47 i k)) = ix1 (i 0 : Fin 20000) := funext fun a => by
      match a with
      | ⟨0, _⟩ => rfl
    refine congrArg₂ (· * ·) ?_ (congrArg x10 e2)
    show Ideal.div (val_main_v37 (F := Ideal) x0 x1 x2 x3 x4 x7 x8 x9 (lidx_main_v47 i k)) (max (val_main_v41 (F := Ideal) x4 (idx_main_v44 (idx_main_v45 (lidx_main_v47 i k)))) ONE) = _
    rw [e1, e3]
    exact div_count _ _
  · have e1 : idx_main_v27 (lidx_main_v48 i k) = ix2 (⟨(i 0).val, lt_trans (i 0 : Fin 20000).isLt (by norm_num)⟩ : Fin 200000) k := funext fun a => by
      match a with
      | ⟨0, _⟩ => rfl
      | ⟨1, _⟩ => rfl
    have e2 : ridx_main_v48 i k = ix2 k (i 1 : Fin 256) := funext fun a => by
      match a with
      | ⟨0, _⟩ => rfl
      | ⟨1, _⟩ => rfl
    exact congrArg₂ (· * ·) (congrArg (val_main_v26 (F := Ideal) x0 x1 x2 x7 x8 x9) e1) (congrArg x11 e2)
  · have e1 : idx_main_v50 (idx_main_v51 i) = ix1 (i 1 : Fin 256) := funext fun a => by
      match a with
      | ⟨0, _⟩ => rfl
    exact congrArg x12 e1

end Cert.Sage.Ref

end
-- ==== Proof.Bridge1.lean ====
/-
  The second layer on the kernel's side equals the reference's second layer. The host operations between the first two
  launches gather rows of the first launch's activations (the reference's first-layer activations, by the first layer's
  equation; the change of float format on the way is the identity on the extended reals) and scatter-add them: the
  reference's neighbour sums. The count column, the bias row, the weights and the activations themselves are read as
  before. So the second launch's output array is `stage1` of the same arrays as the reference's layer.
-/
import proofs.«137751_j8186207666616_2_alg».proof.Proof.Bridge0
import proofs.«137751_j8186207666616_2_alg».proof.Proof.Value1
import proofs.«137751_j8186207666616_2_alg».proof.Proof.RefStage1

set_option maxRecDepth 16384

noncomputable section

open scoped BigOperators

namespace Cert.KernelIdeal.Bridge

open Cert.KernelIdeal Cert.KernelIdeal.Gen Cert.KernelIdeal.Fr Cert.KernelIdeal.Val Cert.Sage Cert.Sage.Layout Cert.Sage.Ref
open Cert.ReferenceIdeal.ReadP
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A buffer the second host stretch does not write is, when the second launch is entered, as the first launch left it. -/
theorem E1_keep (c : Dev nD) (b : Ref sig .tc) (h : b ∉ hostOps1_W) : En3 m ρ c b = Wd2 m ρ c (Proc.devRef .tc b) :=
  StableHlo.after_of_writes_sub hostOps1 _ hostOps1_writes h

theorem E1_arg (c : Dev nD) (b : Ref sig .tc) (h0 : b ∉ hostOps0_W) (h1 : b ∉ hostOps1_W) (n0 : b ≠ main_v20) :
    En3 m ρ c b = ar m c b :=
  (E1_keep m ρ c b h1).trans (Wd2_arg m ρ c b h0 n0)

/-- The neighbour sums the second launch finds are the reference's. -/
theorem E1_agg (c : Dev nD) :
    (En3 m ρ c main_v31 : S20000x256.Idx → EReal) = val_main_v37 (F := Ideal) (ar m c main_arg0) (ar m c main_arg1) (ar m c main_arg2) (ar m c main_arg3) (ar m c main_arg4) (ar m c main_arg7) (ar m c main_arg8) (ar m c main_arg9) := by
  show StableHlo.after hostOps1 (Wd2 m ρ c) (Proc.devRef .tc main_v31) = _
  after_results_simp
  rw [h0_eq m ρ c, Wd2_arg m ρ c main_arg3 (by decide) (by decide), Wd2_arg m ρ c main_arg4 (by decide) (by decide)]
  rfl

/-- The count column the second launch finds holds, in row `r`, the reciprocal of the reference's clamped count. -/
theorem E1_cnt_apply (c : Dev nD) (r : Fin 20000) :
    (En3 m ρ c main_v40 : S20000x1.Idx → EReal) (ix2 r (0 : Fin 1)) = invCount (val_main_v41 (F := Ideal) (ar m c main_arg4) (ix1 r)) := by
  have e : (En3 m ρ c main_v40 : S20000x1.Idx → EReal)
      = shapeCast S20000x1 (Host.divf (F := Ideal) (broadcastInDim S20000 ![] bcast_S_S20000 (constant (F := Ideal) S_ .f32 0x3F800000#32))
          (maximumf (val_main_v41 (F := Ideal) (ar m c main_arg4)) (broadcastInDim S20000 ![] bcast_S_S20000 (constant (F := Ideal) S_ .f32 0x3F800000#32))))
          shapeCasts_S20000_S20000x1 := by
    show StableHlo.after hostOps1 (Wd2 m ρ c) (Proc.devRef .tc main_v40) = _
    after_results_simp
    rw [Wd2_arg m ρ c main_arg4 (by decide) (by decide)]
    rfl
  exact (congrFun e _).trans (invColumn_apply _ _ _ _ r)

/-- The bias row the second launch finds holds the bias. -/
theorem E1_b_apply (c : Dev nD) (q : Fin 256) :
    (En3 m ρ c main_v41 : S1x256.Idx → EReal) (ix2 (0 : Fin 1) q) = (ar m c main_arg12 : S256.Idx → EReal) (ix1 q) := by
  have e : (En3 m ρ c main_v41 : S1x256.Idx → EReal) = shapeCast S1x256 (ar m c main_arg12 : S256.Idx → EReal) shapeCasts_S256_S1x256 := by
    show StableHlo.after hostOps1 (Wd2 m ρ c) (Proc.devRef .tc main_v41) = _
    after_results_simp
    rw [Wd2_arg m ρ c main_arg12 (by decide) (by decide)]
    rfl
  rw [e]
  exact shapeCast_a_1a_apply _ _ 0 q

/-- The activations the second launch finds are the reference's first-layer activations. -/
theorem E1_x (c : Dev nD) :
    (En3 m ρ c main_v20 : S200000x256.Idx → EReal) = val_main_v26 (F := Ideal) (ar m c main_arg0) (ar m c main_arg1) (ar m c main_arg2) (ar m c main_arg7) (ar m c main_arg8) (ar m c main_arg9) :=
  (E1_keep m ρ c main_v20 (by decide)).trans (h0_eq m ρ c)

/-- The second launch's output array is the second layer of the same arrays as the reference's. -/
theorem out1_eq (c : Dev nD) :
    out1 (En3 m ρ) c = stage1 (val_main_v37 (F := Ideal) (ar m c main_arg0) (ar m c main_arg1) (ar m c main_arg2) (ar m c main_arg3) (ar m c main_arg4) (ar m c main_arg7) (ar m c main_arg8) (ar m c main_arg9)) (val_main_v41 (F := Ideal) (ar m c main_arg4))
      (val_main_v26 (F := Ideal) (ar m c main_arg0) (ar m c main_arg1) (ar m c main_arg2) (ar m c main_arg7) (ar m c main_arg8) (ar m c main_arg9)) (ar m c main_arg10) (ar m c main_arg11) (ar m c main_arg12) := by
  funext i
  unfold out1 stage1
  refine congrArg relu (lin_congr (fun k => ?_) ?_ (fun k => ?_) (fun k => ?_) (fun k => ?_) ?_)
  · exact congrFun (E1_agg m ρ c) _
  · exact E1_cnt_apply m ρ c _
  · exact congrFun (E1_x m ρ c) _
  · exact congrFun (E1_arg m ρ c main_arg10 (by decide) (by decide) (by decide)) _
  · exact congrFun (E1_arg m ρ c main_arg11 (by decide) (by decide) (by decide)) _
  · exact E1_b_apply m ρ c _

/-- So after the second launch the activations are the reference's second-layer activations of the same arguments. -/
theorem h1_eq (c : Dev nD) :
    (Wd4 m ρ c main_v42 : S20000x256.Idx → EReal) = val_main_v53 (F := Ideal) (ar m c main_arg0) (ar m c main_arg1) (ar m c main_arg2) (ar m c main_arg3) (ar m c main_arg4) (ar m c main_arg7) (ar m c main_arg8) (ar m c main_arg9) (ar m c main_arg10) (ar m c main_arg11) (ar m c main_arg12) :=
  ((Wd4_arr m ρ c 6).trans ((final1 (En3 m ρ) c).trans (out1_eq m ρ c))).trans (ref1 _ _ _ _ _ _ _ _ _ _ _).symm

/-- After the second launch a buffer that no host stretch so far and no launch so far writes holds its launch contents. -/
theorem Wd4_arg (c : Dev nD) (b : Ref sig .tc) (h0 : b ∉ hostOps0_W) (h1 : b ∉ hostOps1_W) (n0 : b ≠ main_v20) (n1 : b ≠ main_v42) :
    Wd4 m ρ c (Proc.devRef .tc b) = ar m c b :=
  (Wd4_keep m ρ c b n1).trans (E1_arg m ρ c b h0 h1 n0)

end Cert.KernelIdeal.Bridge

end
-- ==== Proof.Payload2.lean ====
/-
  The third dense stage's body arithmetic, read at one entry (row `p` of the 2048-row block, class `q`). The logits are
  as in the earlier stages: two matrix products as plain sums over the 256 contracted features, the count's reciprocal
  one column broadcast along the row, the bias one row broadcast down the block, format changes the identity. Then, per
  row: the lane maximum (a fold of `max` from `-inf`, clamped once more against `-inf`) is subtracted, the
  exponentials are summed over the 47 lanes, and the logarithm of that sum is subtracted: `logsm` of the row's logits.
-/
import proofs.«137751_j8186207666616_2_alg».proof.Proof.Gen.KernelIdeal.Skeleton
import proofs.«137751_j8186207666616_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Payload

open Cert.KernelIdeal Cert.KernelIdeal.Gen Cert.Sage
open Idealize.ShloMosaic Idealize.ShloMosaic.ValueIdx

/-- A column `[2048, 1]` broadcast along each row reads, at `(p, k)`, the column's entry `p`. -/
theorem bcastColA (v : FVec Ideal S2048x1 .f32) (h : S2048x1.Broadcasts S2048x256) (p : Fin 2048) (k : Fin 256) :
    broadcastTo S2048x256 v h (ix2 p k) = v (ix2 p (0 : Fin 1)) := by
  refine broadcastTo_apply v h (ix2 p k) (ix2 p (0 : Fin 1)) fun ax => ?_
  match ax with
  | ⟨0, _⟩ => rfl
  | ⟨1, _⟩ => rfl
theorem bcastColB (v : FVec Ideal S2048x1 .f32) (h : S2048x1.Broadcasts S2048x47) (p : Fin 2048) (k : Fin 47) :
    broadcastTo S2048x47 v h (ix2 p k) = v (ix2 p (0 : Fin 1)) := by
  refine broadcastTo_apply v h (ix2 p k) (ix2 p (0 : Fin 1)) fun ax => ?_
  match ax with
  | ⟨0, _⟩ => rfl
  | ⟨1, _⟩ => rfl
/-- A vector `[2048]` recast as a column `[2048, 1]` reads, at `(p, 0)`, its entry `p`. -/
theorem castCol (v : FVec Ideal S2048 .f32) (h : S2048.ShapeCasts S2048x1) (p : Fin 2048) :
    shapeCast S2048x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega
/-- The index over row `p` with lane `k` inserted is `(p, k)`. -/
theorem lift_row (p : Fin 2048) (k : Fin 47) : reduces_S2048x47_S2048.lift (ix1 p) k = ix2 p k :=
  funext fun c => Fin.ext (by
    match c with
    | ⟨0, _⟩ => rfl
    | ⟨1, _⟩ => rfl)

theorem lhs2_0 (i : S2048x47.Idx) (q : dot_S2048x256_S256x47_S2048x47_1_0_0_1_n_n.contr.Idx) :
    (dot_S2048x256_S256x47_S2048x47_1_0_0_1_n_n.lhsIdx i q 0).val = (i 0).val := by
  unfold DotDims.lhsIdx
  rw [dif_neg (show ¬(0 : Fin S2048x256.rank) ∈ dot_S2048x256_S256x47_S2048x47_1_0_0_1_n_n.lhsBatch by decide), dif_pos (show (0 : Fin S2048x256.rank) ∈ dot_S2048x256_S256x47_S2048x47_1_0_0_1_n_n.lhsNonContracting by decide)]
  rfl
theorem rhs2_1 (i : S2048x47.Idx) (q : dot_S2048x256_S256x47_S2048x47_1_0_0_1_n_n.contr.Idx) :
    (dot_S2048x256_S256x47_S2048x47_1_0_0_1_n_n.rhsIdx i q 1).val = (i 1).val := by
  unfold DotDims.rhsIdx
  rw [dif_neg (show ¬(1 : Fin S256x47.rank) ∈ dot_S2048x256_S256x47_S2048x47_1_0_0_1_n_n.rhsBatch by decide), dif_pos (show (1 : Fin S256x47.rank) ∈ dot_S2048x256_S256x47_S2048x47_1_0_0_1_n_n.rhsNonContracting by decide)]
  rfl

/-- The block's matrix product into a zero accumulator, at `(p, q)`: the sum over the contracted feature `k`. -/
theorem mm2 {φ₁ φ₂ : FTy} (l : FVec Ideal S2048x256 φ₁) (r : FVec Ideal S256x47 φ₂) (p : Fin 2048) (q : Fin 47) :
    matmul dot_S2048x256_S256x47_S2048x47_1_0_0_1_n_n none l r (constant S2048x47 .f32 0x00000000#32) (ix2 p q)
      = ∑ k : Fin 256, l (ix2 p k) * r (ix2 k q) := by
  refine (Ideal.matmul_constant_zero_apply dot_S2048x256_S256x47_S2048x47_1_0_0_1_n_n none l r (ix2 p q)).trans ?_
  rw [← Equiv.sum_comp (ValueIdx.contrEquiv1 dot_S2048x256_S256x47_S2048x47_1_0_0_1_n_n 256 rfl rfl).symm]
  refine Finset.sum_congr rfl fun k _ => ?_
  have hk := ValueIdx.contrEquiv1_symm_val dot_S2048x256_S256x47_S2048x47_1_0_0_1_n_n 256 rfl rfl k
  have el : dot_S2048x256_S256x47_S2048x47_1_0_0_1_n_n.lhsIdx (ix2 p q) ((ValueIdx.contrEquiv1 dot_S2048x256_S256x47_S2048x47_1_0_0_1_n_n 256 rfl rfl).symm k) = ix2 p k := funext fun a => Fin.ext (by
    match a with
    | ⟨0, _⟩ => exact lhs2_0 _ _
    | ⟨1, _⟩ => exact (dot_S2048x256_S256x47_S2048x47_1_0_0_1_n_n.lhsIdx_val_of_single rfl _ _).trans hk)
  have er : dot_S2048x256_S256x47_S2048x47_1_0_0_1_n_n.rhsIdx (ix2 p q) ((ValueIdx.contrEquiv1 dot_S2048x256_S256x47_S2048x47_1_0_0_1_n_n 256 rfl rfl).symm k) = ix2 k q := funext fun a => Fin.ext (by
    match a with
    | ⟨0, _⟩ => exact (dot_S2048x256_S256x47_S2048x47_1_0_0_1_n_n.rhsIdx_val_of_single rfl _ _).trans hk
    | ⟨1, _⟩ => exact rhs2_1 _ _)
  rw [el, er]

/-! ## The logits -/

/-- The body's first part: the block of logits. -/
def logitsBlk (x0 : FVec Ideal S2048x256 .f32) (x1 : FVec Ideal S2048x1 .f32) (x2 : FVec Ideal S2048x256 .bf16)
    (x3 x4 : FVec Ideal S256x47 .f32) (x5 : FVec Ideal S1x47 .f32) : FVec Ideal S2048x47 .f32 :=
  addf (addf
      (matmul dot_S2048x256_S256x47_S2048x47_1_0_0_1_n_n none
        (truncf .bf16 (mulf (shapeCast S2048x256 x0 shapeCasts_S2048x256_S2048x256)
          (broadcastTo S2048x256 (shapeCast S2048x1 x1 shapeCasts_S2048x1_S2048x1) broadcasts_S2048x1_S2048x256)) bitsLt_bf16_f32)
        (truncf .bf16 x3 bitsLt_bf16_f32) (constant S2048x47 .f32 0x00000000#32))
      (matmul dot_S2048x256_S256x47_S2048x47_1_0_0_1_n_n none (shapeCast S2048x256 x2 shapeCasts_S2048x256_S2048x256)
        (truncf .bf16 x4 bitsLt_bf16_f32) (constant S2048x47 .f32 0x00000000#32)))
    (broadcastTo S2048x47 (shapeCast S1x47 x5 shapeCasts_S1x47_S1x47) broadcasts_S1x47_S2048x47)

theorem logitsBlk_apply (x0 : FVec Ideal S2048x256 .f32) (x1 : FVec Ideal S2048x1 .f32) (x2 : FVec Ideal S2048x256 .bf16)
    (x3 x4 : FVec Ideal S256x47 .f32) (x5 : FVec Ideal S1x47 .f32) (p : Fin 2048) (q : Fin 47) :
    logitsBlk x0 x1 x2 x3 x4 x5 (ix2 p q)
      = lin (fun k : Fin 256 => x0 (ix2 p k)) (x1 (ix2 p (0 : Fin 1))) (fun k : Fin 256 => x2 (ix2 p k))
          (fun k : Fin 256 => x3 (ix2 k q)) (fun k : Fin 256 => x4 (ix2 k q)) (x5 (ix2 (0 : Fin 1) q)) := by
  unfold logitsBlk lin
  refine congrArg₂ (· + ·) (congrArg₂ (· + ·) ?_ ?_) ?_
  · refine (mm2 _ _ p q).trans (Finset.sum_congr rfl fun k _ => ?_)
    refine congrArg₂ (· * ·) ?_ rfl
    show shapeCast S2048x256 x0 shapeCasts_S2048x256_S2048x256 (ix2 p k)
        * broadcastTo S2048x256 (shapeCast S2048x1 x1 shapeCasts_S2048x1_S2048x1) broadcasts_S2048x1_S2048x256 (ix2 p k)
      = x0 (ix2 p k) * x1 (ix2 p (0 : Fin 1))
    refine congrArg₂ (· * ·) ?_ ?_
    · exact congrFun (shapeCast_self x0 _) (ix2 p k)
    · refine (bcastColA _ _ p k).trans ?_
      exact congrFun (shapeCast_self x1 _) (ix2 p (0 : Fin 1))
  · exact (mm2 _ _ p q).trans (Finset.sum_congr rfl fun k _ => congrArg₂ (· * ·) (congrFun (shapeCast_self x2 _) (ix2 p k)) rfl)
  · refine (broadcastTo_1b_ab_apply _ _ p q).trans ?_
    exact congrFun (shapeCast_self x5 _) (ix2 (0 : Fin 1) q)

/-! ## The row-wise log-probabilities -/

/-- Each row's maximum. -/
def rowMax (z : FVec Ideal S2048x47 .f32) : FVec Ideal S2048 .f32 :=
  maximumf (broadcast S2048 (Scalar.ofBits .f32 0xFF800000#32))
    (multiReduction .maximumf [1] S2048 z 0xFF800000#32 reduces_S2048x47_S2048 (.inl rfl) rfl)
/-- The logits less their row's maximum. -/
def shifted (z : FVec Ideal S2048x47 .f32) : FVec Ideal S2048x47 .f32 :=
  subf z (broadcastTo S2048x47 (shapeCast S2048x1 (rowMax z) shapeCasts_S2048_S2048x1) broadcasts_S2048x1_S2048x47)
/-- Each row's sum of exponentials. -/
def rowSum (z : FVec Ideal S2048x47 .f32) : FVec Ideal S2048 .f32 :=
  multiReduction .add [1] S2048 (exp (shifted z)) 0x00000000#32 reduces_S2048x47_S2048 (.inl rfl) rfl
/-- The body's second part. -/
def lsmBlk (z : FVec Ideal S2048x47 .f32) : FVec Ideal S2048x47 .f32 :=
  subf (shifted z) (broadcastTo S2048x47 (log (shapeCast S2048x1 (rowSum z) shapeCasts_S2048_S2048x1)) broadcasts_S2048x1_S2048x47)

/-- The body is the second part of the first. -/
theorem k2_split (x0 : FVec Ideal S2048x256 .f32) (x1 : FVec Ideal S2048x1 .f32) (x2 : FVec Ideal S2048x256 .bf16)
    (x3 x4 : FVec Ideal S256x47 .f32) (x5 : FVec Ideal S1x47 .f32) :
    k2_pay1 (F := Ideal) x0 x1 x2 x3 x4 x5 = lsmBlk (logitsBlk x0 x1 x2 x3 x4 x5) := rfl

theorem rowMax_apply (z : FVec Ideal S2048x47 .f32) (p : Fin 2048) :
    rowMax z (ix1 p) = max NEGINF ((Finset.univ : Finset (Fin 47)).fold max NEGINF (fun q' : Fin 47 => z (ix2 p q'))) := by
  unfold rowMax
  show max NEGINF (multiReduction .maximumf [1] S2048 z 0xFF800000#32 reduces_S2048x47_S2048 (.inl rfl) rfl (ix1 p)) = _
  refine congrArg (max NEGINF) ?_
  refine (Ideal.multiReduction_maximumf_single z _ reduces_S2048x47_S2048 _ _ (ix1 p)).trans ?_
  exact congrArg ((Finset.univ : Finset (Fin 47)).fold max NEGINF) (funext fun k => congrArg z (lift_row p k))

theorem shifted_apply (z : FVec Ideal S2048x47 .f32) (p : Fin 2048) (q : Fin 47) :
    shifted z (ix2 p q) = z (ix2 p q) - max NEGINF ((Finset.univ : Finset (Fin 47)).fold max NEGINF (fun q' : Fin 47 => z (ix2 p q'))) := by
  unfold shifted
  show z (ix2 p q) - broadcastTo S2048x47 (shapeCast S2048x1 (rowMax z) shapeCasts_S2048_S2048x1) broadcasts_S2048x1_S2048x47 (ix2 p q) = _
  exact congrArg (z (ix2 p q) - ·) (((bcastColB _ _ p q).trans (castCol _ _ p)).trans (rowMax_apply z p))

theorem rowSum_apply (z : FVec Ideal S2048x47 .f32) (p : Fin 2048) :
    rowSum z (ix1 p) = ∑ q' : Fin 47, Ideal.exp (z (ix2 p q') - max NEGINF ((Finset.univ : Finset (Fin 47)).fold max NEGINF (fun q' : Fin 47 => z (ix2 p q')))) := by
  unfold rowSum
  refine (Ideal.multiReduction_add_single (exp (shifted z)) _ reduces_S2048x47_S2048 _ _ (ix1 p)).trans ?_
  refine Finset.sum_congr rfl fun k _ => ?_
  show Ideal.exp (shifted z (reduces_S2048x47_S2048.lift (ix1 p) k)) = _
  exact congrArg Ideal.exp ((congrArg (shifted z) (lift_row p k)).trans (shifted_apply z p k))

theorem lsmBlk_apply (z : FVec Ideal S2048x47 .f32) (p : Fin 2048) (q : Fin 47) :
    lsmBlk z (ix2 p q) = logsm (fun q' : Fin 47 => z (ix2 p q')) q := by
  unfold lsmBlk logsm
  show shifted z (ix2 p q) - broadcastTo S2048x47 (log (shapeCast S2048x1 (rowSum z) shapeCasts_S2048_S2048x1)) broadcasts_S2048x1_S2048x47 (ix2 p q) = _
  refine congrArg₂ (· - ·) (shifted_apply z p q) ?_
  refine (bcastColB _ _ p q).trans ?_
  show Ideal.log (shapeCast S2048x1 (rowSum z) shapeCasts_S2048_S2048x1 (ix2 p (0 : Fin 1))) = _
  exact congrArg Ideal.log ((castCol _ _ p).trans (rowSum_apply z p))

/-- The body's arithmetic at `(p, q)`. -/
theorem pay2_apply (x0 : FVec Ideal S2048x256 .f32) (x1 : FVec Ideal S2048x1 .f32) (x2 : FVec Ideal S2048x256 .bf16)
    (x3 x4 : FVec Ideal S256x47 .f32) (x5 : FVec Ideal S1x47 .f32) (p : Fin 2048) (q : Fin 47) :
    k2_pay1 (F := Ideal) x0 x1 x2 x3 x4 x5 (ix2 p q)
      = logsm (fun q' : Fin 47 => lin (fun k : Fin 256 => x0 (ix2 p k)) (x1 (ix2 p (0 : Fin 1))) (fun k : Fin 256 => x2 (ix2 p k))
          (fun k : Fin 256 => x3 (ix2 k q')) (fun k : Fin 256 => x4 (ix2 k q')) (x5 (ix2 (0 : Fin 1) q'))) q := by
  rw [k2_split, lsmBlk_apply]
  exact congrArg (fun f => logsm f q) (funext fun q' => logitsBlk_apply x0 x1 x2 x3 x4 x5 p q')

end Cert.Sage.Payload

end
-- ==== Proof.Value2.lean ====
/-
  What the third dense stage's launch leaves in its output array, as one function of the arrays it finds: grid point `t`
  writes back rows 2048·t ‥ 2048·t+2047, each entry the log-probability `logsm` of that row's 47 logits, a logit being
  `lin` of that row of the neighbour sums, the row's count reciprocal, that row of the previous activations, and the
  weights' column; the two blocks tile the 4096 rows, so the whole array is that function.
-/
import proofs.«137751_j8186207666616_2_alg».proof.Proof.FrameStage2
import proofs.«137751_j8186207666616_2_alg».proof.Proof.Payload2
import proofs.«137751_j8186207666616_2_alg».proof.Proof.Value0
import Idealize.ShloMosaic.Lib.Pipeline.Value

set_option maxRecDepth 16384

noncomputable section

open scoped BigOperators

namespace Cert.KernelIdeal.Val

open Cert.KernelIdeal Cert.KernelIdeal.Gen Cert.KernelIdeal.Fr Cert.Sage Cert.Sage.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed block-index maps over the grid: the row-blocked windows are at block `t`, the parameters at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The output array after the launch, entry by entry: each row's log-probabilities over its 47 logits. -/
def out2 (c : Dev nD) : S4096x47.Idx → EReal := fun i =>
  logsm (fun q' : Fin 47 =>
    lin (fun k : Fin 256 => (V c main_v53 : S4096x256.Idx → EReal) (ix2 (i 0 : Fin 4096) k))
      ((V c main_v62 : S4096x1.Idx → EReal) (ix2 (i 0 : Fin 4096) (0 : Fin 1)))
      (fun k : Fin 256 => (V c main_v42 : S20000x256.Idx → EReal) (ix2 (⟨(i 0).val, lt_trans (i 0 : Fin 4096).isLt (by norm_num)⟩ : Fin 20000) k))
      (fun k : Fin 256 => (V c main_arg13 : S256x47.Idx → EReal) (ix2 k q'))
      (fun k : Fin 256 => (V c main_arg14 : S256x47.Idx → EReal) (ix2 k q'))
      ((V c main_v63 : S1x47.Idx → EReal) (ix2 (0 : Fin 1) q'))) (i 1 : Fin 47)

/-- What point `t` writes back is block `t` of `out2`. -/
theorem flushed2_eq (c : Dev nD) (t : Fin cfg2.N) :
    (dat2 V c).flushed 6 t = ((cfg2.win 6).blk t).view.read (Elt Ideal) (out2 V c) := by
  show (cfg2.win 6).cut (grid2.coords t) ((dat2 V c).after 6 t) = _
  rw [after2_6]
  unfold rowblock2
  rw [View.canon_unit_zero hz]
  simp only [View.ld_unit_zero (S := S2048x256) hz, View.ld_unit_zero (S := S2048x1) hz, View.ld_unit_zero (S := S256x47) hz, View.ld_unit_zero (S := S1x47) hz]
  obtain ⟨e00, e01, e10, e11, e20, e21, e30, e31, e40, e41, e50, e51, e60, e61⟩ := idx_facts2 t
  refine funext fun (j : S2048x47.Idx) => ?_
  obtain ⟨p, q, rfl⟩ : ∃ (p : Fin 2048) (q : Fin 47), j = ix2 p q := ⟨j 0, j 1, eq_ix2 j⟩
  refine (pay2_apply _ _ _ _ _ _ p q).trans ?_
  show _ = out2 V c (((cfg2.win 6).blk t).view.emb (ix2 p q))
  unfold out2
  refine congrArg₂ logsm (funext fun q' => lin_congr (fun k => ?_) ?_ (fun k => ?_) (fun k => ?_) (fun k => ?_) ?_) (Fin.ext ?_)
  · show V c main_v53 (((cfg2.win 0).blk t).view.emb (ix2 p k)) = _
    refine congrArg (V c main_v53 : S4096x256.Idx → EReal) (funext fun a => Fin.ext ?_)
    match a with
    | ⟨0, _⟩ => show win2_0.index t (0 : Fin 2) * 2048 + 1 * p.val = win2_6.index t (0 : Fin 2) * 2048 + 1 * p.val; omega
    | ⟨1, _⟩ => show win2_0.index t (1 : Fin 2) * 256 + 1 * k.val = k.val; omega
  · show V c main_v62 (((cfg2.win 1).blk t).view.emb (ix2 p (0 : Fin 1))) = _
    refine congrArg (V c main_v62 : S4096x1.Idx → EReal) (funext fun a => Fin.ext ?_)
    match a with
    | ⟨0, _⟩ => show win2_1.index t (0 : Fin 2) * 2048 + 1 * p.val = win2_6.index t (0 : Fin 2) * 2048 + 1 * p.val; omega
    | ⟨1, _⟩ => show win2_1.index t (1 : Fin 2) * 1 + 1 * 0 = 0; omega
  · show V c main_v42 (((cfg2.win 2).blk t).view.emb _) = _
    refine congrArg (V c main_v42 : S20000x256.Idx → EReal) (funext fun a => Fin.ext ?_)
    match a with
    | ⟨0, _⟩ => show win2_2.index t (0 : Fin 2) * 2048 + 1 * p.val = win2_6.index t (0 : Fin 2) * 2048 + 1 * p.val; omega
    | ⟨1, _⟩ => show win2_2.index t (1 : Fin 2) * 256 + 1 * k.val = k.val; omega
  · show V c main_arg13 (((cfg2.win 3).blk t).view.emb (ix2 k q')) = _
    refine congrArg (V c main_arg13 : S256x47.Idx → EReal) (funext fun a => Fin.ext ?_)
    match a with
    | ⟨0, _⟩ => show win2_3.index t (0 : Fin 2) * 256 + 1 * k.val = k.val; omega
    | ⟨1, _⟩ => show win2_3.index t (1 : Fin 2) * 47 + 1 * q'.val = q'.val; omega
  · show V c main_arg14 (((cfg2.win 4).blk t).view.emb (ix2 k q')) = _
    refine congrArg (V c main_arg14 : S256x47.Idx → EReal) (funext fun a => Fin.ext ?_)
    match a with
    | ⟨0, _⟩ => show win2_4.index t (0 : Fin 2) * 256 + 1 * k.val = k.val; omega
    | ⟨1, _⟩ => show win2_4.index t (1 : Fin 2) * 47 + 1 * q'.val = q'.val; omega
  · show V c main_v63 (((cfg2.win 5).blk t).view.emb (ix2 (0 : Fin 1) q')) = _
    refine congrArg (V c main_v63 : S1x47.Idx → EReal) (funext fun a => Fin.ext ?_)
    match a with
    | ⟨0, _⟩ => show win2_5.index t (0 : Fin 2) * 1 + 1 * 0 = 0; omega
    | ⟨1, _⟩ => show win2_5.index t (1 : Fin 2) * 47 + 1 * q'.val = q'.val; omega
  · show q.val = win2_6.index t (1 : Fin 2) * 47 + 1 * q.val
    omega

/-- An index of the output array is in point `t`'s block iff each coordinate is in the block's range on its axis. -/
theorem mem_blk2 (t : Fin cfg2.N) (i : S4096x47.Idx) :
    i ∈ ((cfg2.win 6).blk t).view.set ↔ ∀ a : Fin 2, win2_6.index t a * S2048x47.size a ≤ (i a).val ∧ (i a).val < win2_6.index t a * S2048x47.size a + S2048x47.size a := by
  show i ∈ ((View.whole main_v64).slice (win2_6.rect t)).set ↔ _
  rw [View.set_slice_whole, Rect.mem_set_unit]
  exact Iff.rfl

/-- Every index of the output array lies in the block of the point that holds its row. -/
theorem cover2 (i : S4096x47.Idx) : ∃ t : Fin cfg2.N, (cfg2.win 6).flush t = true ∧ i ∈ ((cfg2.win 6).blk t).view.set := by
  have hi0 : (i 0).val < 4096 := idx2_lt0 i
  have hi1 : (i 1).val < 47 := (i 1).isLt
  have hN : cfg2.N = 2 := N_2
  let t : Fin cfg2.N := ⟨(i 0).val / 2048, by rw [hN]; omega⟩
  obtain ⟨-, -, -, -, -, -, -, -, -, -, -, -, e60, e61⟩ := idx_facts2 t
  have ht : t.val = (i 0).val / 2048 := rfl
  refine ⟨t, flush2_6 t, ?_⟩
  rw [mem_blk2]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 47 ≤ (i 1).val ∧ (i 1).val < win2_6.index t (1 : Fin 2) * 47 + 47; omega

/-- The output array after the launch. -/
theorem final2 (c : Dev nD) : (dat2 V c).arrAt 6 cfg2.N = out2 V c :=
  (dat2 V c).arrAt_eq_of_cover 6 (out2 V c) (fun t _ => flushed2_eq V c t) cover2

end Cert.KernelIdeal.Val

end
-- ==== Proof.RefStage2.lean ====
/-
  The reference's third layer, read entry by entry. Its logits are as in the earlier layers (neighbour sums of the second
  layer's activations over the clamped counts against the left weights, the first 4096 activation rows against the right
  weights, the bias): `logits2`. Its `log_softmax` then takes each row's maximum (a fold of `max` from `-inf`,
  clamped once more against `-inf`), subtracts it, sums the exponentials from zero, and subtracts the logarithm:
  `logsm` of the row's logits. So the result is `stage2`.
-/
import proofs.«137751_j8186207666616_2_alg».proof.Proof.RefReadP
import proofs.«137751_j8186207666616_2_alg».proof.Proof.Spec

set_option maxRecDepth 16384

noncomputable section

open scoped BigOperators

namespace Cert.Sage.Ref

open Cert.ReferenceIdeal Cert.ReferenceIdeal.ReadP Cert.Sage
open Idealize.ShloMosaic Idealize.ShloMosaic.ValueIdx

theorem logits_eq (x0 : (⟨S1500000x100, .f32⟩ : BufTy).Contents (Elt Ideal)) (x1 x2 : (⟨S2000000, .i32⟩ : BufTy).Contents (Elt Ideal))
    (x3 x4 : (⟨S200000, .i32⟩ : BufTy).Contents (Elt Ideal)) (x5 x6 : (⟨S20480, .i32⟩ : BufTy).Contents (Elt Ideal))
    (x7 x8 : (⟨S100x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x47, .f32⟩ : BufTy).Contents (Elt Ideal)) (x15 : (⟨S47, .f32⟩ : BufTy).Contents (Elt Ideal)) (r : Fin 4096) (q : Fin 47) :
    val_main_v79 (F := Ideal) x0 x1 x2 x3 x4 x5 x6 x7 x8 x9 x10 x11 x12 x13 x14 x15 (ix2 r q)
      = logits2 (val_main_v64 (F := Ideal) x0 x1 x2 x3 x4 x5 x6 x7 x8 x9 x10 x11 x12) (val_main_v68 (F := Ideal) x6)
          (val_main_v53 (F := Ideal) x0 x1 x2 x3 x4 x7 x8 x9 x10 x11 x12) x13 x14 x15 r q := by
  rw [val_main_v79_apply, val_main_v76_apply, val_main_v74_apply, val_main_v75_apply, val_main_v78_apply, val_main_v77_apply]
  simp only [val_main_v73_apply, val_main_v72_apply, val_main_v71_apply, val_main_v70_apply, val_main_v69_apply, val_main_v54_apply]
  unfold logits2 lin
  refine congrArg₂ (· + ·) (congrArg₂ (· + ·) (Finset.sum_congr rfl fun k _ => ?_) (Finset.sum_congr rfl fun k _ => ?_)) ?_
  · have e1 : lidx_main_v74 (ix2 r q) k = ix2 r k := funext fun a => by
      match a with
      | ⟨0, _⟩ => rfl
      | ⟨1, _⟩ => rfl
    have e2 : ridx_main_v74 (ix2 r q) k = ix2 k q := funext fun a => by
      match a with
      | ⟨0, _⟩ => rfl
      | ⟨1, _⟩ => rfl
    have e3 : idx_main_v71 (idx_main_v72 (lidx_main_v74 (ix2 r q) k)) = ix1 r := funext fun a => by
      match a with
      | ⟨0, _⟩ => rfl
    refine congrArg₂ (· * ·) ?_ (congrArg x13 e2)
    show Ideal.div (val_main_v64 (F := Ideal) x0 x1 x2 x3 x4 x5 x6 x7 x8 x9 x10 x11 x12 (lidx_main_v74 (ix2 r q) k)) (max (val_main_v68 (F := Ideal) x6 (idx_main_v71 (idx_main_v72 (lidx_main_v74 (ix2 r q) k)))) ONE) = _
    rw [e1, e3]
    exact div_count _ _
  · have e1 : idx_main_v54 (lidx_main_v75 (ix2 r q) k) = ix2 (⟨r.val, lt_trans r.isLt (by norm_num)⟩ : Fin 20000) k := funext fun a => by
      match a with
      | ⟨0, _⟩ => rfl
      | ⟨1, _⟩ => rfl
    have e2 : ridx_main_v75 (ix2 r q) k = ix2 k q := funext fun a => by
      match a with
      | ⟨0, _⟩ => rfl
      | ⟨1, _⟩ => rfl
    exact congrArg₂ (· * ·) (congrArg (val_main_v53 (F := Ideal) x0 x1 x2 x3 x4 x7 x8 x9 x10 x11 x12) e1) (congrArg x14 e2)
  · have e1 : idx_main_v77 (idx_main_v78 (ix2 r q)) = ix1 q := funext fun a => by
      match a with
      | ⟨0, _⟩ => rfl
    exact congrArg x15 e1

/-- The row maximum the reference subtracts. -/
theorem rowmax_eq (x0 : (⟨S1500000x100, .f32⟩ : BufTy).Contents (Elt Ideal)) (x1 x2 : (⟨S2000000, .i32⟩ : BufTy).Contents (Elt Ideal))
    (x3 x4 : (⟨S200000, .i32⟩ : BufTy).Contents (Elt Ideal)) (x5 x6 : (⟨S20480, .i32⟩ : BufTy).Contents (Elt Ideal))
    (x7 x8 : (⟨S100x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x47, .f32⟩ : BufTy).Contents (Elt Ideal)) (x15 : (⟨S47, .f32⟩ : BufTy).Contents (Elt Ideal)) (r : Fin 4096) (q : Fin 47) :
    val_main_call2_v4 (F := Ideal) x0 x1 x2 x3 x4 x5 x6 x7 x8 x9 x10 x11 x12 x13 x14 x15 (ix2 r q)
      = max NEGINF ((Finset.univ : Finset (Fin 47)).fold max NEGINF (fun q' : Fin 47 =>
          logits2 (val_main_v64 (F := Ideal) x0 x1 x2 x3 x4 x5 x6 x7 x8 x9 x10 x11 x12) (val_main_v68 (F := Ideal) x6)
            (val_main_v53 (F := Ideal) x0 x1 x2 x3 x4 x7 x8 x9 x10 x11 x12) x13 x14 x15 r q')) := by
  have hR : S4096x47.Reduces [1] S4096 := by decide
  rw [val_main_call2_v4_apply, val_main_call2_v3_apply, val_main_call2_v2_apply, val_main_call2_v1_apply, val_main_call2_cst_0_apply]
  show max NEGINF (val_main_call2_v0 (F := Ideal) x0 x1 x2 x3 x4 x5 x6 x7 x8 x9 x10 x11 x12 x13 x14 x15 (idx_main_call2_v3 (idx_main_call2_v4 (ix2 r q)))) = _
  refine congrArg (max NEGINF) ?_
  unfold val_main_call2_v0
  refine (Host.reduce_eq_fold_single FloatOps.maximumf _ _ _ hR _ _).trans ?_
  have e : ∀ k : Fin 47, hR.lift (idx_main_call2_v3 (idx_main_call2_v4 (ix2 r q))) k = ix2 r k := fun k => funext fun a => Fin.ext (by
    match a with
    | ⟨0, _⟩ => rfl
    | ⟨1, _⟩ => rfl)
  exact congrArg (fun f : Fin 47 → EReal => (Finset.univ : Finset (Fin 47)).fold max NEGINF f)
    (funext fun k => (congrArg (val_main_v79 (F := Ideal) x0 x1 x2 x3 x4 x5 x6 x7 x8 x9 x10 x11 x12 x13 x14 x15) (e k)).trans (logits_eq x0 x1 x2 x3 x4 x5 x6 x7 x8 x9 x10 x11 x12 x13 x14 x15 r k))

theorem ref2 (x0 : (⟨S1500000x100, .f32⟩ : BufTy).Contents (Elt Ideal)) (x1 x2 : (⟨S2000000, .i32⟩ : BufTy).Contents (Elt Ideal))
    (x3 x4 : (⟨S200000, .i32⟩ : BufTy).Contents (Elt Ideal)) (x5 x6 : (⟨S20480, .i32⟩ : BufTy).Contents (Elt Ideal))
    (x7 x8 : (⟨S100x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x47, .f32⟩ : BufTy).Contents (Elt Ideal)) (x15 : (⟨S47, .f32⟩ : BufTy).Contents (Elt Ideal)) :
    val_main_v80 (F := Ideal) x0 x1 x2 x3 x4 x5 x6 x7 x8 x9 x10 x11 x12 x13 x14 x15
      = stage2 (val_main_v64 (F := Ideal) x0 x1 x2 x3 x4 x5 x6 x7 x8 x9 x10 x11 x12) (val_main_v68 (F := Ideal) x6)
          (val_main_v53 (F := Ideal) x0 x1 x2 x3 x4 x7 x8 x9 x10 x11 x12) x13 x14 x15 := by
  funext i
  obtain ⟨r, q, rfl⟩ : ∃ (r : Fin 4096) (q : Fin 47), i = ix2 r q := ⟨i 0, i 1, eq_ix2 i⟩
  have e7 : ∀ k : Fin 47, idx_main_call2_v7 (idx_main_call2_v8 (idx_main_call2_v10 (ix2 r q))) k = ix2 r k := fun k => funext fun a => by
    match a with
    | ⟨0, _⟩ => rfl
    | ⟨1, _⟩ => rfl
  have h5 : ∀ q'' : Fin 47, val_main_call2_v5 (F := Ideal) x0 x1 x2 x3 x4 x5 x6 x7 x8 x9 x10 x11 x12 x13 x14 x15 (ix2 r q'')
      = logits2 (val_main_v64 (F := Ideal) x0 x1 x2 x3 x4 x5 x6 x7 x8 x9 x10 x11 x12) (val_main_v68 (F := Ideal) x6) (val_main_v53 (F := Ideal) x0 x1 x2 x3 x4 x7 x8 x9 x10 x11 x12) x13 x14 x15 r q''
        - max NEGINF ((Finset.univ : Finset (Fin 47)).fold max NEGINF (fun q' : Fin 47 =>
            logits2 (val_main_v64 (F := Ideal) x0 x1 x2 x3 x4 x5 x6 x7 x8 x9 x10 x11 x12) (val_main_v68 (F := Ideal) x6) (val_main_v53 (F := Ideal) x0 x1 x2 x3 x4 x7 x8 x9 x10 x11 x12) x13 x14 x15 r q')) :=
    fun q'' => (val_main_call2_v5_apply x0 x1 x2 x3 x4 x5 x6 x7 x8 x9 x10 x11 x12 x13 x14 x15 _).trans (congrArg₂ (· - ·) (logits_eq x0 x1 x2 x3 x4 x5 x6 x7 x8 x9 x10 x11 x12 x13 x14 x15 r q'') (rowmax_eq x0 x1 x2 x3 x4 x5 x6 x7 x8 x9 x10 x11 x12 x13 x14 x15 r q''))
  refine (val_main_v80_apply x0 x1 x2 x3 x4 x5 x6 x7 x8 x9 x10 x11 x12 x13 x14 x15 (ix2 r q)).trans ?_
  unfold stage2 logsm
  refine congrArg₂ (· - ·) (h5 q) ?_
  refine (val_main_call2_v10_apply x0 x1 x2 x3 x4 x5 x6 x7 x8 x9 x10 x11 x12 x13 x14 x15 (ix2 r q)).trans ((val_main_call2_v9_apply x0 x1 x2 x3 x4 x5 x6 x7 x8 x9 x10 x11 x12 x13 x14 x15 _).trans ?_)
  refine (congrArg (fun z : Ideal .f32 => FloatOps.hostUnary .log z) ?_).trans (Ideal.hostUnary_log_def (φ := .f32) _)
  refine (val_main_call2_v8_apply x0 x1 x2 x3 x4 x5 x6 x7 x8 x9 x10 x11 x12 x13 x14 x15 _).trans ((val_main_call2_v7_apply x0 x1 x2 x3 x4 x5 x6 x7 x8 x9 x10 x11 x12 x13 x14 x15 _).trans ?_)
  refine (congrArg₂ (· + ·) Ideal.ofBits_zero_f32 rfl).trans ((zero_add _).trans (Finset.sum_congr rfl fun k _ => ?_))
  refine (congrArg (val_main_call2_v6 (F := Ideal) x0 x1 x2 x3 x4 x5 x6 x7 x8 x9 x10 x11 x12 x13 x14 x15) (e7 k)).trans ?_
  exact (val_main_call2_v6_apply x0 x1 x2 x3 x4 x5 x6 x7 x8 x9 x10 x11 x12 x13 x14 x15 (ix2 r k)).trans
    ((congrArg (fun z : Ideal .f32 => FloatOps.hostUnary .exp z) (h5 k)).trans (Ideal.hostUnary_exp_def (φ := .f32) _))

end Cert.Sage.Ref

end
-- ==== Proof.Bridge2.lean ====
/-
  The third layer on the kernel's side equals the reference's third layer, and with it the two programs' results. The host
  operations before the last launch gather rows of the second launch's activations (the reference's second-layer
  activations) and scatter-add them: the reference's neighbour sums; counts, bias and weights are read as before. So the
  last launch's output array — the kernel program's result — is `stage2` of the same arrays as the reference's last
  layer, which is the reference's result.
-/
import proofs.«137751_j8186207666616_2_alg».proof.Proof.Bridge1
import proofs.«137751_j8186207666616_2_alg».proof.Proof.Value2
import proofs.«137751_j8186207666616_2_alg».proof.Proof.RefStage2

set_option maxRecDepth 16384

noncomputable section

open scoped BigOperators

namespace Cert.KernelIdeal.Bridge

open Cert.KernelIdeal Cert.KernelIdeal.Gen Cert.KernelIdeal.Fr Cert.KernelIdeal.Val Cert.Sage Cert.Sage.Layout Cert.Sage.Ref
open Cert.ReferenceIdeal.ReadP
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A buffer the third host stretch does not write is, when the third launch is entered, as the second launch left it. -/
theorem E2_keep (c : Dev nD) (b : Ref sig .tc) (h : b ∉ hostOps2_W) : En5 m ρ c b = Wd4 m ρ c (Proc.devRef .tc b) :=
  StableHlo.after_of_writes_sub hostOps2 _ hostOps2_writes h

theorem E2_arg (c : Dev nD) (b : Ref sig .tc) (h0 : b ∉ hostOps0_W) (h1 : b ∉ hostOps1_W) (h2 : b ∉ hostOps2_W) (n0 : b ≠ main_v20) (n1 : b ≠ main_v42) :
    En5 m ρ c b = ar m c b :=
  (E2_keep m ρ c b h2).trans (Wd4_arg m ρ c b h0 h1 n0 n1)

/-- The neighbour sums the third launch finds are the reference's. -/
theorem E2_agg (c : Dev nD) :
    (En5 m ρ c main_v53 : S4096x256.Idx → EReal) = val_main_v64 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) := by
  show StableHlo.after hostOps2 (Wd4 m ρ c) (Proc.devRef .tc main_v53) = _
  after_results_simp
  rw [h1_eq m ρ c, Wd4_arg m ρ c main_arg5 (by decide) (by decide) (by decide) (by decide), Wd4_arg m ρ c main_arg6 (by decide) (by decide) (by decide) (by decide)]
  rfl

/-- The count column the third launch finds holds, in row `r`, the reciprocal of the reference's clamped count. -/
theorem E2_cnt_apply (c : Dev nD) (r : Fin 4096) :
    (En5 m ρ c main_v62 : S4096x1.Idx → EReal) (ix2 r (0 : Fin 1)) = invCount (val_main_v68 (F := Ideal) (ar m c main_arg6) (ix1 r)) := by
  have e : (En5 m ρ c main_v62 : S4096x1.Idx → EReal)
      = shapeCast S4096x1 (Host.divf (F := Ideal) (broadcastInDim S4096 ![] bcast_S_S4096 (constant (F := Ideal) S_ .f32 0x3F800000#32))
          (maximumf (val_main_v68 (F := Ideal) (ar m c main_arg6)) (broadcastInDim S4096 ![] bcast_S_S4096 (constant (F := Ideal) S_ .f32 0x3F800000#32))))
          shapeCasts_S4096_S4096x1 := by
    show StableHlo.after hostOps2 (Wd4 m ρ c) (Proc.devRef .tc main_v62) = _
    after_results_simp
    rw [Wd4_arg m ρ c main_arg6 (by decide) (by decide) (by decide) (by decide)]
    rfl
  exact (congrFun e _).trans (invColumn_apply _ _ _ _ r)

/-- The bias row the third launch finds holds the bias. -/
theorem E2_b_apply (c : Dev nD) (q : Fin 47) :
    (En5 m ρ c main_v63 : S1x47.Idx → EReal) (ix2 (0 : Fin 1) q) = (ar m c main_arg15 : S47.Idx → EReal) (ix1 q) := by
  have e : (En5 m ρ c main_v63 : S1x47.Idx → EReal) = shapeCast S1x47 (ar m c main_arg15 : S47.Idx → EReal) shapeCasts_S47_S1x47 := by
    show StableHlo.after hostOps2 (Wd4 m ρ c) (Proc.devRef .tc main_v63) = _
    after_results_simp
    rw [Wd4_arg m ρ c main_arg15 (by decide) (by decide) (by decide) (by decide)]
    rfl
  rw [e]
  exact shapeCast_a_1a_apply _ _ 0 q

/-- The activations the third launch finds are the reference's second-layer activations. -/
theorem E2_x (c : Dev nD) :
    (En5 m ρ c main_v42 : S20000x256.Idx → EReal) = val_main_v53 (F := Ideal) (ar m c main_arg0) (ar m c main_arg1) (ar m c main_arg2) (ar m c main_arg3) (ar m c main_arg4) (ar m c main_arg7) (ar m c main_arg8) (ar m c main_arg9) (ar m c main_arg10) (ar m c main_arg11) (ar m c main_arg12) :=
  (E2_keep m ρ c main_v42 (by decide)).trans (h1_eq m ρ c)

/-- The third launch's output array is the third layer of the same arrays as the reference's. -/
theorem out2_eq (c : Dev nD) :
    out2 (En5 m ρ) c = stage2 (val_main_v64 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12)) (val_main_v68 (F := Ideal) (ar m c main_arg6))
      (val_main_v53 (F := Ideal) (ar m c main_arg0) (ar m c main_arg1) (ar m c main_arg2) (ar m c main_arg3) (ar m c main_arg4) (ar m c main_arg7) (ar m c main_arg8) (ar m c main_arg9) (ar m c main_arg10) (ar m c main_arg11) (ar m c main_arg12)) (ar m c main_arg13) (ar m c main_arg14) (ar m c main_arg15) := by
  funext i
  unfold out2 stage2 logits2
  refine congrArg (fun f => logsm f (i 1)) (funext fun q' => lin_congr (fun k => ?_) ?_ (fun k => ?_) (fun k => ?_) (fun k => ?_) ?_)
  · exact congrFun (E2_agg m ρ c) _
  · exact E2_cnt_apply m ρ c _
  · exact congrFun (E2_x m ρ c) _
  · exact congrFun (E2_arg m ρ c main_arg13 (by decide) (by decide) (by decide) (by decide) (by decide)) _
  · exact congrFun (E2_arg m ρ c main_arg14 (by decide) (by decide) (by decide) (by decide) (by decide)) _
  · exact E2_b_apply m ρ c _

/-- The kernel program's result array, at the end of the run, is the reference's result term of the same arguments. -/
theorem result_eq (c : Dev nD) :
    ((dat2 (En5 m ρ) c).arrAt 6 cfg2.N : S4096x47.Idx → EReal) = val_main_v80 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) :=
  ((final2 (En5 m ρ) c).trans (out2_eq m ρ c)).trans (ref2 _ _ _ _ _ _ _ _ _ _ _ _ _ _ _ _).symm

end Cert.KernelIdeal.Bridge

end
-- ==== Proof.lean ====
/-
  A three-layer GraphSAGE forward pass: the Pallas program against its jnp reference, on the extended reals.

  Each layer takes, per target node, the sum of its neighbours' feature rows (a gather and a scatter-add on the host, the
  same operations in both programs) and the neighbour count, and computes
  `(sum / max(count, 1)) · Wl + x · Wr + b`, clamped at zero in the first two layers and turned into row-wise
  log-probabilities in the last. The kernel program computes the dense part of each layer in a launch over row blocks,
  multiplying the neighbour sum by the reciprocal `1 / max(count, 1)` that the host prepared; the reference divides.
  Since the clamped count is at least one, division by it is multiplication by its inverse on the extended reals, so the
  two agree (`Cert.Sage.div_count`) without any finiteness assumption: the precondition is never opened. The matrix
  products are plain sums over the contracted axis on both sides, the changes of float format are the identity, and
  tiling the rows into blocks changes nothing entry by entry.

  The frames: every execution of the kernel program runs three launches among three stretches of host operations; each
  launch's body runs on whole staging buffers and leaves its inputs as found (`Fr.run_all`, at the word-level instance
  and at the ideal one); no host operation and no launch writes an argument array. The reference's frame is its run.
  The ideal pass rewrote nothing, so the kernel program's idealization is its own text.
  The value claim: the last launch's output array, layer by layer, is the reference's result term of the same arguments
  (`Bridge.result_eq`).
-/
import proofs.«137751_j8186207666616_2_alg».proof.Defs
import proofs.«137751_j8186207666616_2_alg».proof.Proof.Gen.Kernel
import proofs.«137751_j8186207666616_2_alg».proof.Proof.Gen.KernelIdeal
import proofs.«137751_j8186207666616_2_alg».proof.Proof.Gen.ReferenceIdeal
import proofs.«137751_j8186207666616_2_alg».proof.Proof.Gen.Pre_finite_inputs
import proofs.«137751_j8186207666616_2_alg».proof.Proof.KFrameRun
import proofs.«137751_j8186207666616_2_alg».proof.Proof.FrameRun
import proofs.«137751_j8186207666616_2_alg».proof.Proof.RefRunP
import proofs.«137751_j8186207666616_2_alg».proof.Proof.Bridge2
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs, from memories agreeing on the arguments, end with the same result array: the kernel
    program's is the last launch's output array, which is the reference's result term of the same arguments. -/
theorem algebraic : Cert.algebraic_KernelIdeal_ReferenceIdeal := by
  intro m ρ m' ρ' _ hagree
  refine ⟨fun c => (Cert.KernelIdeal.Fr.dat2 (Cert.KernelIdeal.Fr.En5 m ρ) c).arrAt 6 Cert.KernelIdeal.cfg2.N, ?_, ?_⟩
  · exact (θ_run Cert.KernelIdeal.defs _ _).mono (fun r h c => ⟨Cert.KernelIdeal.Fr.result_of m ρ r.2.mem h c,
      Cert.KernelIdeal.Fr.keeps_of m ρ r.2.mem h c Cert.KernelIdeal.main_arg0 (by decide) (by decide) (by decide) (by decide) (by decide) (by decide) (by decide),
      Cert.KernelIdeal.Fr.keeps_of m ρ r.2.mem h c Cert.KernelIdeal.main_arg1 (by decide) (by decide) (by decide) (by decide) (by decide) (by decide) (by decide),
      Cert.KernelIdeal.Fr.keeps_of m ρ r.2.mem h c Cert.KernelIdeal.main_arg2 (by decide) (by decide) (by decide) (by decide) (by decide) (by decide) (by decide),
      Cert.KernelIdeal.Fr.keeps_of m ρ r.2.mem h c Cert.KernelIdeal.main_arg3 (by decide) (by decide) (by decide) (by decide) (by decide) (by decide) (by decide),
      Cert.KernelIdeal.Fr.keeps_of m ρ r.2.mem h c Cert.KernelIdeal.main_arg4 (by decide) (by decide) (by decide) (by decide) (by decide) (by decide) (by decide),
      Cert.KernelIdeal.Fr.keeps_of m ρ r.2.mem h c Cert.KernelIdeal.main_arg5 (by decide) (by decide) (by decide) (by decide) (by decide) (by decide) (by decide),
      Cert.KernelIdeal.Fr.keeps_of m ρ r.2.mem h c Cert.KernelIdeal.main_arg6 (by decide) (by decide) (by decide) (by decide) (by decide) (by decide) (by decide),
      Cert.KernelIdeal.Fr.keeps_of m ρ r.2.mem h c Cert.KernelIdeal.main_arg7 (by decide) (by decide) (by decide) (by decide) (by decide) (by decide) (by decide),
      Cert.KernelIdeal.Fr.keeps_of m ρ r.2.mem h c Cert.KernelIdeal.main_arg8 (by decide) (by decide) (by decide) (by decide) (by decide) (by decide) (by decide),
      Cert.KernelIdeal.Fr.keeps_of m ρ r.2.mem h c Cert.KernelIdeal.main_arg9 (by decide) (by decide) (by decide) (by decide) (by decide) (by decide) (by decide),
      Cert.KernelIdeal.Fr.keeps_of m ρ r.2.mem h c Cert.KernelIdeal.main_arg10 (by decide) (by decide) (by decide) (by decide) (by decide) (by decide) (by decide),
      Cert.KernelIdeal.Fr.keeps_of m ρ r.2.mem h c Cert.KernelIdeal.main_arg11 (by decide) (by decide) (by decide) (by decide) (by decide) (by decide) (by decide),
      Cert.KernelIdeal.Fr.keeps_of m ρ r.2.mem h c Cert.KernelIdeal.main_arg12 (by decide) (by decide) (by decide) (by decide) (by decide) (by decide) (by decide),
      Cert.KernelIdeal.Fr.keeps_of m ρ r.2.mem h c Cert.KernelIdeal.main_arg13 (by decide) (by decide) (by decide) (by decide) (by decide) (by decide) (by decide),
      Cert.KernelIdeal.Fr.keeps_of m ρ r.2.mem h c Cert.KernelIdeal.main_arg14 (by decide) (by decide) (by decide) (by decide) (by decide) (by decide) (by decide),
      Cert.KernelIdeal.Fr.keeps_of m ρ r.2.mem h c Cert.KernelIdeal.main_arg15 (by decide) (by decide) (by decide) (by decide) (by decide) (by decide) (by decide)⟩)
      (Cert.KernelIdeal.Fr.run_all m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
